-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v75)) (v2 : (c : Dev Cert.KernelIdeal.nD) → Buf (Elt Ideal) ((c.tc : Thread Cert.KernelIdeal.nD Cert.KernelIdeal.τ).loc Cert.KernelIdeal.main_v76)) (v3 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_v77) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x204x14x14 : Shape := ⟨4, ![32, 204, 14, 14]⟩
abbrev S_ : Shape := ⟨0, ![]⟩

class Facts : Prop where
  bcast_S_S32x204x14x14 : S_.BroadcastsInDim S32x204x14x14 (![] : Fin 0 → Fin S32x204x14x14.rank)
  reducesTo_S32x204x14x14_S_d0_1_2_3 : S32x204x14x14.ReducesTo [0, 1, 2, 3] S_
  h_S_ : 0 < S_.numel

variable [Facts]

def fn {F : FTy → Type} [FloatOps F] (main_arg0 : FVec F S32x204x14x14 .f32) : IVec S_ 1 :=
  let main_v0 : FVec F S32x204x14x14 .f32 := Host.absf main_arg0
  let main_cst : FVec F S_ .f32 := constant S_ .f32 0x7F800000#32
  let main_v1 : FVec F S32x204x14x14 .f32 := broadcastInDim S32x204x14x14 ![] bcast_S_S32x204x14x14 main_cst
  let main_v2 : IVec S32x204x14x14 1 := cmpf .olt main_v0 main_v1
  let main_c : IVec S_ 1 := constantI S_ 1 1#1
  let main_v3 : IVec S_ 1 := (fun x v => Host.reduce IntOp.andi x v reducesTo_S32x204x14x14_S_d0_1_2_3 h_S_) main_v2 main_c
  main_v3
-- ==== Kernel.lean ====
abbrev S32x204x14x14 : Shape := ⟨4, ![32, 204, 14, 14]⟩
abbrev S32x4x51x14x14 : Shape := ⟨5, ![32, 4, 51, 14, 14]⟩
abbrev S32x1x51x14x14 : Shape := ⟨5, ![32, 1, 51, 14, 14]⟩
abbrev S32x51x14x14 : Shape := ⟨4, ![32, 51, 14, 14]⟩
abbrev S32x1x14x14 : Shape := ⟨4, ![32, 1, 14, 14]⟩
abbrev S32x20x14x14 : Shape := ⟨4, ![32, 20, 14, 14]⟩
abbrev S32x20x196 : Shape := ⟨3, ![32, 20, 196]⟩
abbrev S32x14x14x14 : Shape := ⟨4, ![32, 14, 14, 14]⟩
abbrev S32x196x14 : Shape := ⟨3, ![32, 196, 14]⟩
abbrev S32x196x14x14 : Shape := ⟨4, ![32, 196, 14, 14]⟩
abbrev S32x196x196 : Shape := ⟨3, ![32, 196, 196]⟩
abbrev S1x32x1x196x1x14 : Shape := ⟨6, ![1, 32, 1, 196, 1, 14]⟩
abbrev S1x32x1x196x14x14 : Shape := ⟨6, ![1, 32, 1, 196, 14, 14]⟩
abbrev S32x14x196 : Shape := ⟨3, ![32, 14, 196]⟩
abbrev S32x14x14x196 : Shape := ⟨4, ![32, 14, 14, 196]⟩
abbrev S1x32x1x14x1x196 : Shape := ⟨6, ![1, 32, 1, 14, 1, 196]⟩
abbrev S1x32x14x14x1x196 : Shape := ⟨6, ![1, 32, 14, 14, 1, 196]⟩
abbrev S32x20x196x196 : Shape := ⟨4, ![32, 20, 196, 196]⟩
abbrev S1x20x196 : Shape := ⟨3, ![1, 20, 196]⟩
abbrev S1x196x196 : Shape := ⟨3, ![1, 196, 196]⟩
abbrev S1x20x196x196 : Shape := ⟨4, ![1, 20, 196, 196]⟩
abbrev S1x4x196 : Shape := ⟨3, ![1, 4, 196]⟩
abbrev S1x4x196x1 : Shape := ⟨4, ![1, 4, 196, 1]⟩
abbrev S1x4x1x196 : Shape := ⟨4, ![1, 4, 1, 196]⟩
abbrev S1x4x196x196 : Shape := ⟨4, ![1, 4, 196, 196]⟩
abbrev S1x1x196x196 : Shape := ⟨4, ![1, 1, 196, 196]⟩
abbrev S32x20x14x14x14x14 : Shape := ⟨6, ![32, 20, 14, 14, 14, 14]⟩

abbrev nBuf : Space → Nat
  | .hbm => 82
  | .vmem => 24
  | .smem => 0
  | _ => 0

abbrev bufTy : (tb : Table) → Fin (tcTables nBuf tb) → BufTy
  | .hbm, ⟨0, _⟩ => ⟨S32x204x14x14, .f32⟩
  | .hbm, ⟨1, _⟩ => ⟨S32x4x51x14x14, .f32⟩
  | .hbm, ⟨2, _⟩ => ⟨S32x1x51x14x14, .f32⟩
  | .hbm, ⟨3, _⟩ => ⟨S32x51x14x14, .f32⟩
  | .hbm, ⟨4, _⟩ => ⟨S32x1x51x14x14, .f32⟩
  | .hbm, ⟨5, _⟩ => ⟨S32x51x14x14, .f32⟩
  | .hbm, ⟨6, _⟩ => ⟨S32x1x51x14x14, .f32⟩
  | .hbm, ⟨7, _⟩ => ⟨S32x51x14x14, .f32⟩
  | .hbm, ⟨8, _⟩ => ⟨S32x1x51x14x14, .f32⟩
  | .hbm, ⟨9, _⟩ => ⟨S32x51x14x14, .f32⟩
  | .hbm, ⟨10, _⟩ => ⟨S32x1x14x14, .f32⟩
  | .hbm, ⟨11, _⟩ => ⟨S32x20x14x14, .f32⟩
  | .hbm, ⟨12, _⟩ => ⟨S32x20x14x14, .f32⟩
  | .hbm, ⟨13, _⟩ => ⟨S32x20x14x14, .f32⟩
  | .hbm, ⟨14, _⟩ => ⟨S32x20x196, .f32⟩
  | .hbm, ⟨15, _⟩ => ⟨S32x1x14x14, .f32⟩
  | .hbm, ⟨16, _⟩ => ⟨S32x20x14x14, .f32⟩
  | .hbm, ⟨17, _⟩ => ⟨S32x20x14x14, .f32⟩
  | .hbm, ⟨18, _⟩ => ⟨S32x20x14x14, .f32⟩
  | .hbm, ⟨19, _⟩ => ⟨S32x20x196, .f32⟩
  | .hbm, ⟨20, _⟩ => ⟨S32x1x14x14, .f32⟩
  | .hbm, ⟨21, _⟩ => ⟨S32x20x14x14, .f32⟩
  | .hbm, ⟨22, _⟩ => ⟨S32x20x14x14, .f32⟩
  | .hbm, ⟨23, _⟩ => ⟨S32x20x14x14, .f32⟩
  | .hbm, ⟨24, _⟩ => ⟨S32x20x196, .f32⟩
  | .hbm, ⟨25, _⟩ => ⟨S32x1x14x14, .f32⟩
  | .hbm, ⟨26, _⟩ => ⟨S32x20x14x14, .f32⟩
  | .hbm, ⟨27, _⟩ => ⟨S32x20x14x14, .f32⟩
  | .hbm, ⟨28, _⟩ => ⟨S32x20x14x14, .f32⟩
  | .hbm, ⟨29, _⟩ => ⟨S32x20x196, .f32⟩
  | .hbm, ⟨30, _⟩ => ⟨S32x14x14x14, .f32⟩
  | .hbm, ⟨31, _⟩ => ⟨S32x14x14x14, .f32⟩
  | .hbm, ⟨32, _⟩ => ⟨S32x14x14x14, .f32⟩
  | .hbm, ⟨33, _⟩ => ⟨S32x196x14, .f32⟩
  | .hbm, ⟨34, _⟩ => ⟨S32x14x14x14, .f32⟩
  | .hbm, ⟨35, _⟩ => ⟨S32x196x14, .f32⟩
  | .hbm, ⟨36, _⟩ => ⟨S32x196x14x14, .f32⟩
  | .hbm, ⟨37, _⟩ => ⟨S32x196x196, .f32⟩
  | .hbm, ⟨38, _⟩ => ⟨S1x32x1x196x1x14, .f32⟩
  | .hbm, ⟨39, _⟩ => ⟨S1x32x1x196x14x14, .f32⟩
  | .hbm, ⟨40, _⟩ => ⟨S32x196x196, .f32⟩
  | .hbm, ⟨41, _⟩ => ⟨S32x196x196, .f32⟩
  | .hbm, ⟨42, _⟩ => ⟨S32x14x14x14, .f32⟩
  | .hbm, ⟨43, _⟩ => ⟨S32x14x14x14, .f32⟩
  | .hbm, ⟨44, _⟩ => ⟨S32x14x14x14, .f32⟩
  | .hbm, ⟨45, _⟩ => ⟨S32x196x14, .f32⟩
  | .hbm, ⟨46, _⟩ => ⟨S32x14x14x14, .f32⟩
  | .hbm, ⟨47, _⟩ => ⟨S32x196x14, .f32⟩
  | .hbm, ⟨48, _⟩ => ⟨S32x196x14x14, .f32⟩
  | .hbm, ⟨49, _⟩ => ⟨S32x196x196, .f32⟩
  | .hbm, ⟨50, _⟩ => ⟨S1x32x1x196x1x14, .f32⟩
  | .hbm, ⟨51, _⟩ => ⟨S1x32x1x196x14x14, .f32⟩
  | .hbm, ⟨52, _⟩ => ⟨S32x196x196, .f32⟩
  | .hbm, ⟨53, _⟩ => ⟨S32x196x196, .f32⟩
  | .hbm, ⟨54, _⟩ => ⟨S32x14x14x14, .f32⟩
  | .hbm, ⟨55, _⟩ => ⟨S32x14x14x14, .f32⟩
  | .hbm, ⟨56, _⟩ => ⟨S32x14x196, .f32⟩
  | .hbm, ⟨57, _⟩ => ⟨S32x14x196, .f32⟩
  | .hbm, ⟨58, _⟩ => ⟨S32x14x14x196, .f32⟩
  | .hbm, ⟨59, _⟩ => ⟨S32x196x196, .f32⟩
  | .hbm, ⟨60, _⟩ => ⟨S1x32x1x14x1x196, .f32⟩
  | .hbm, ⟨61, _⟩ => ⟨S1x32x14x14x1x196, .f32⟩
  | .hbm, ⟨62, _⟩ => ⟨S32x196x196, .f32⟩
  | .hbm, ⟨63, _⟩ => ⟨S32x196x196, .f32⟩
  | .hbm, ⟨64, _⟩ => ⟨S32x14x14x14, .f32⟩
  | .hbm, ⟨65, _⟩ => ⟨S32x14x14x14, .f32⟩
  | .hbm, ⟨66, _⟩ => ⟨S32x14x196, .f32⟩
  | .hbm, ⟨67, _⟩ => ⟨S32x14x196, .f32⟩
  | .hbm, ⟨68, _⟩ => ⟨S32x14x14x196, .f32⟩
  | .hbm, ⟨69, _⟩ => ⟨S32x196x196, .f32⟩
  | .hbm, ⟨70, _⟩ => ⟨S1x32x1x14x1x196, .f32⟩
  | .hbm, ⟨71, _⟩ => ⟨S1x32x14x14x1x196, .f32⟩
  | .hbm, ⟨72, _⟩ => ⟨S32x196x196, .f32⟩
  | .hbm, ⟨73, _⟩ => ⟨S32x196x196, .f32⟩
  | .hbm, ⟨74, _⟩ => ⟨S32x20x196x196, .f32⟩
  | .hbm, ⟨75, _⟩ => ⟨S32x20x196x196, .f32⟩
  | .hbm, ⟨76, _⟩ => ⟨S32x20x196x196, .f32⟩
  | .hbm, ⟨77, _⟩ => ⟨S32x20x196x196, .f32⟩
  | .hbm, ⟨78, _⟩ => ⟨S32x20x14x14x14x14, .f32⟩
  | .hbm, ⟨79, _⟩ => ⟨S32x20x14x14x14x14, .f32⟩
  | .hbm, ⟨80, _⟩ => ⟨S32x20x14x14x14x14, .f32⟩
  | .hbm, ⟨81, _⟩ => ⟨S32x20x14x14x14x14, .f32⟩
  | .local _ .vmem, ⟨0, _⟩ => ⟨S1x20x196, .f32⟩
  | .local _ .vmem, ⟨1, _⟩ => ⟨S1x20x196, .f32⟩
  | .local _ .vmem, ⟨2, _⟩ => ⟨S1x20x196, .f32⟩
  | .local _ .vmem, ⟨3, _⟩ => ⟨S1x20x196, .f32⟩
  | .local _ .vmem, ⟨4, _⟩ => ⟨S1x20x196, .f32⟩
  | .local _ .vmem, ⟨5, _⟩ => ⟨S1x20x196, .f32⟩
  | .local _ .vmem, ⟨6, _⟩ => ⟨S1x20x196, .f32⟩
  | .local _ .vmem, ⟨7, _⟩ => ⟨S1x20x196, .f32⟩
  | .local _ .vmem, ⟨8, _⟩ => ⟨S1x196x196, .f32⟩
  | .local _ .vmem, ⟨9, _⟩ => ⟨S1x196x196, .f32⟩
  | .local _ .vmem, ⟨10, _⟩ => ⟨S1x196x196, .f32⟩
  | .local _ .vmem, ⟨11, _⟩ => ⟨S1x196x196, .f32⟩
  | .local _ .vmem, ⟨12, _⟩ => ⟨S1x196x196, .f32⟩
  | .local _ .vmem, ⟨13, _⟩ => ⟨S1x196x196, .f32⟩
  | .local _ .vmem, ⟨14, _⟩ => ⟨S1x196x196, .f32⟩
  | .local _ .vmem, ⟨15, _⟩ => ⟨S1x196x196, .f32⟩
  | .local _ .vmem, ⟨16, _⟩ => ⟨S1x20x196x196, .f32⟩
  | .local _ .vmem, ⟨17, _⟩ => ⟨S1x20x196x196, .f32⟩
  | .local _ .vmem, ⟨18, _⟩ => ⟨S1x20x196x196, .f32⟩
  | .local _ .vmem, ⟨19, _⟩ => ⟨S1x20x196x196, .f32⟩
  | .local _ .vmem, ⟨20, _⟩ => ⟨S1x20x196x196, .f32⟩
  | .local _ .vmem, ⟨21, _⟩ => ⟨S1x20x196x196, .f32⟩
  | .local _ .vmem, ⟨22, _⟩ => ⟨S1x20x196x196, .f32⟩
  | .local _ .vmem, ⟨23, _⟩ => ⟨S1x20x196x196, .f32⟩
  | _, _ => ⟨S32x204x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73_0 : Ref sig .tc := ⟨.hbm, 74, rfl⟩
abbrev main_v73_1 : Ref sig .tc := ⟨.hbm, 75, rfl⟩
abbrev main_v73_2 : Ref sig .tc := ⟨.hbm, 76, rfl⟩
abbrev main_v73_3 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x20x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x20x196 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x196 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x20x196 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x196x196 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x196x196 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x196x196 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x196x196 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x20x196x196 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x20x196x196 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x20x196x196 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x20x196x196 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S32x204x14x14_S32x4x51x14x14 : S32x204x14x14.ShapeCasts S32x4x51x14x14
  slices_S32x4x51x14x14_S32x1x51x14x14_0_0_0_0_0 : S32x4x51x14x14.Slices ![0, 0, 0, 0, 0] S32x1x51x14x14
  shapeCasts_S32x1x51x14x14_S32x51x14x14 : S32x1x51x14x14.ShapeCasts S32x51x14x14
  slices_S32x4x51x14x14_S32x1x51x14x14_0_1_0_0_0 : S32x4x51x14x14.Slices ![0, 1, 0, 0, 0] S32x1x51x14x14
  slices_S32x4x51x14x14_S32x1x51x14x14_0_2_0_0_0 : S32x4x51x14x14.Slices ![0, 2, 0, 0, 0] S32x1x51x14x14
  slices_S32x4x51x14x14_S32x1x51x14x14_0_3_0_0_0 : S32x4x51x14x14.Slices ![0, 3, 0, 0, 0] S32x1x51x14x14
  slices_S32x51x14x14_S32x1x14x14_0_0_0_0 : S32x51x14x14.Slices ![0, 0, 0, 0] S32x1x14x14
  slices_S32x51x14x14_S32x20x14x14_0_1_0_0 : S32x51x14x14.Slices ![0, 1, 0, 0] S32x20x14x14
  bcast_S32x1x14x14_S32x20x14x14_0_1_2_3 : S32x1x14x14.BroadcastsInDim S32x20x14x14 (![0, 1, 2, 3] : Fin 4 → Fin S32x20x14x14.rank)
  shapeCasts_S32x20x14x14_S32x20x196 : S32x20x14x14.ShapeCasts S32x20x196
  slices_S32x51x14x14_S32x14x14x14_0_23_0_0 : S32x51x14x14.Slices ![0, 23, 0, 0] S32x14x14x14
  slices_S32x51x14x14_S32x14x14x14_0_37_0_0 : S32x51x14x14.Slices ![0, 37, 0, 0] S32x14x14x14
  transposes_S32x14x14x14_S32x14x14x14_0_2_3_1 : S32x14x14x14.Transposes [0, 2, 3, 1] S32x14x14x14
  shapeCasts_S32x14x14x14_S32x196x14 : S32x14x14x14.ShapeCasts S32x196x14
  bcast_S32x196x14_S32x196x14x14_0_1_2 : S32x196x14.BroadcastsInDim S32x196x14x14 (![0, 1, 2] : Fin 3 → Fin S32x196x14x14.rank)
  shapeCasts_S32x196x14x14_S32x196x196 : S32x196x14x14.ShapeCasts S32x196x196
  shapeCasts_S32x196x14_S1x32x1x196x1x14 : S32x196x14.ShapeCasts S1x32x1x196x1x14
  bcast_S1x32x1x196x1x14_S1x32x1x196x14x14_0_1_2_3_4_5 : S1x32x1x196x1x14.BroadcastsInDim S1x32x1x196x14x14 (![0, 1, 2, 3, 4, 5] : Fin 6 → Fin S1x32x1x196x14x14.rank)
  shapeCasts_S1x32x1x196x14x14_S32x196x196 : S1x32x1x196x14x14.ShapeCasts S32x196x196
  shapeCasts_S32x14x14x14_S32x14x196 : S32x14x14x14.ShapeCasts S32x14x196
  bcast_S32x14x196_S32x14x14x196_0_1_3 : S32x14x196.BroadcastsInDim S32x14x14x196 (![0, 1, 3] : Fin 3 → Fin S32x14x14x196.rank)
  shapeCasts_S32x14x14x196_S32x196x196 : S32x14x14x196.ShapeCasts S32x196x196
  shapeCasts_S32x14x196_S1x32x1x14x1x196 : S32x14x196.ShapeCasts S1x32x1x14x1x196
  bcast_S1x32x1x14x1x196_S1x32x14x14x1x196_0_1_2_3_4_5 : S1x32x1x14x1x196.BroadcastsInDim S1x32x14x14x1x196 (![0, 1, 2, 3, 4, 5] : Fin 6 → Fin S1x32x14x14x1x196.rank)
  shapeCasts_S1x32x14x14x1x196_S32x196x196 : S1x32x14x14x1x196.ShapeCasts S32x196x196
  inb_S1x196x196_S1x196x196_0_0_0 : ∀ a, (![0, 0, 0] : Fin 3 → Nat) a + S1x196x196.size a ≤ S1x196x196.size a
  h_S1x196x196 : 0 < S1x196x196.numel
  shapeCasts_S1x196x196_S1x196x196 : S1x196x196.ShapeCasts S1x196x196
  inb_S1x20x196_S1x4x196_0_0_0 : ∀ a, (![0, 0, 0] : Fin 3 → Nat) a + S1x4x196.size a ≤ S1x20x196.size a
  h_S1x4x196 : 0 < S1x4x196.numel
  shapeCasts_S1x4x196_S1x4x196 : S1x4x196.ShapeCasts S1x4x196
  shapeCasts_S1x4x196_S1x4x196x1 : S1x4x196.ShapeCasts S1x4x196x1
  shapeCasts_S1x4x196_S1x4x1x196 : S1x4x196.ShapeCasts S1x4x1x196
  broadcasts_S1x4x196x1_S1x4x196x196 : S1x4x196x1.Broadcasts S1x4x196x196
  broadcasts_S1x4x1x196_S1x4x196x196 : S1x4x1x196.Broadcasts S1x4x196x196
  shapeCasts_S1x196x196_S1x1x196x196 : S1x196x196.ShapeCasts S1x1x196x196
  broadcasts_S1x1x196x196_S1x4x196x196 : S1x1x196x196.Broadcasts S1x4x196x196
  inb_S1x20x196x196_S1x4x196x196_0_0_0_0 : ∀ a, (![0, 0, 0, 0] : Fin 4 → Nat) a + S1x4x196x196.size a ≤ S1x20x196x196.size a
  h_S1x4x196x196 : 0 < S1x4x196x196.numel
  inb_S1x20x196_S1x4x196_0_4_0 : ∀ a, (![0, 4, 0] : Fin 3 → Nat) a + S1x4x196.size a ≤ S1x20x196.size a
  inb_S1x20x196x196_S1x4x196x196_0_4_0_0 : ∀ a, (![0, 4, 0, 0] : Fin 4 → Nat) a + S1x4x196x196.size a ≤ S1x20x196x196.size a
  inb_S1x20x196_S1x4x196_0_8_0 : ∀ a, (![0, 8, 0] : Fin 3 → Nat) a + S1x4x196.size a ≤ S1x20x196.size a
  inb_S1x20x196x196_S1x4x196x196_0_8_0_0 : ∀ a, (![0, 8, 0, 0] : Fin 4 → Nat) a + S1x4x196x196.size a ≤ S1x20x196x196.size a
  inb_S1x20x196_S1x4x196_0_12_0 : ∀ a, (![0, 12, 0] : Fin 3 → Nat) a + S1x4x196.size a ≤ S1x20x196.size a
  inb_S1x20x196x196_S1x4x196x196_0_12_0_0 : ∀ a, (![0, 12, 0, 0] : Fin 4 → Nat) a + S1x4x196x196.size a ≤ S1x20x196x196.size a
  inb_S1x20x196_S1x4x196_0_16_0 : ∀ a, (![0, 16, 0] : Fin 3 → Nat) a + S1x4x196.size a ≤ S1x20x196.size a
  inb_S1x20x196x196_S1x4x196x196_0_16_0_0 : ∀ a, (![0, 16, 0, 0] : Fin 4 → Nat) a + S1x4x196x196.size a ≤ S1x20x196x196.size a
  shapeCasts_S32x20x196x196_S32x20x14x14x14x14 : S32x20x196x196.ShapeCasts S32x20x14x14x14x14
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20x196.size a ≤ S32x20x196.size a
  hwx0_0 : ∀ i : grid0.Coords, EltTy.bits .f32 = 32 ∨ (Rect.block (s := S32x20x196) S1x20x196.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x20x196.size a ≤ S32x20x196.size a
  hwx0_1 : ∀ i : grid0.Coords, EltTy.bits .f32 = 32 ∨ (Rect.block (s := S32x20x196) S1x20x196.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20x196.size a ≤ S32x20x196.size a
  hwx0_2 : ∀ i : grid0.Coords, EltTy.bits .f32 = 32 ∨ (Rect.block (s := S32x20x196) S1x20x196.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x20x196.size a ≤ S32x20x196.size a
  hwx0_3 : ∀ i : grid0.Coords, EltTy.bits .f32 = 32 ∨ (Rect.block (s := S32x20x196) S1x20x196.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x196x196.size a ≤ S32x196x196.size a
  hwx0_4 : ∀ i : grid0.Coords, EltTy.bits .f32 = 32 ∨ (Rect.block (s := S32x196x196) S1x196x196.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x196x196.size a ≤ S32x196x196.size a
  hwx0_5 : ∀ i : grid0.Coords, EltTy.bits .f32 = 32 ∨ (Rect.block (s := S32x196x196) S1x196x196.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x196x196.size a ≤ S32x196x196.size a
  hwx0_6 : ∀ i : grid0.Coords, EltTy.bits .f32 = 32 ∨ (Rect.block (s := S32x196x196) S1x196x196.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x196x196.size a ≤ S32x196x196.size a
  hwx0_7 : ∀ i : grid0.Coords, EltTy.bits .f32 = 32 ∨ (Rect.block (s := S32x196x196) S1x196x196.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x20x196x196.size a ≤ S32x20x196x196.size a
  hwx0_8 : ∀ i : grid0.Coords, EltTy.bits .f32 = 32 ∨ (Rect.block (s := S32x20x196x196) S1x20x196x196.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x20x196x196.size a ≤ S32x20x196x196.size a
  hwx0_9 : ∀ i : grid0.Coords, EltTy.bits .f32 = 32 ∨ (Rect.block (s := S32x20x196x196) S1x20x196x196.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x20x196x196.size a ≤ S32x20x196x196.size a
  hwx0_10 : ∀ i : grid0.Coords, EltTy.bits .f32 = 32 ∨ (Rect.block (s := S32x20x196x196) S1x20x196x196.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x20x196x196.size a ≤ S32x20x196x196.size a
  hwx0_11 : ∀ i : grid0.Coords, EltTy.bits .f32 = 32 ∨ (Rect.block (s := S32x20x196x196) S1x20x196x196.size (cc0_transform_11 i) (hinb0_11 i)).WholeWords (EltTy.packing .f32)

variable [Facts₀]

abbrev win0_0 : Pipeline.Window sig grid0 :=
  Pipeline.Window.ofSpec (Memref.whole main_v13) S1x20x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x20x196.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x20x196.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x20x196.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x196x196.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v52) S1x196x196.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v62) S1x196x196.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v72) S1x196x196.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v73_0) S1x20x196x196.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v73_1) S1x20x196x196.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v73_2) S1x20x196x196.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v73_3) S1x20x196x196.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x204x14x14 : Shape := ⟨4, ![32, 204, 14, 14]⟩
abbrev S32x4x51x14x14 : Shape := ⟨5, ![32, 4, 51, 14, 14]⟩
abbrev S32x1x51x14x14 : Shape := ⟨5, ![32, 1, 51, 14, 14]⟩
abbrev S32x51x14x14 : Shape := ⟨4, ![32, 51, 14, 14]⟩
abbrev S32x1x14x14 : Shape := ⟨4, ![32, 1, 14, 14]⟩
abbrev S32x20x14x14 : Shape := ⟨4, ![32, 20, 14, 14]⟩
abbrev S32x20x14x14x1x1 : Shape := ⟨6, ![32, 20, 14, 14, 1, 1]⟩
abbrev S32x20x1x1x14x14 : Shape := ⟨6, ![32, 20, 1, 1, 14, 14]⟩
abbrev S32x14x14x14 : Shape := ⟨4, ![32, 14, 14, 14]⟩
abbrev S32x1x14x14x14x1 : Shape := ⟨6, ![32, 1, 14, 14, 14, 1]⟩
abbrev S32x1x14x14x1x14 : Shape := ⟨6, ![32, 1, 14, 14, 1, 14]⟩
abbrev S32x1x14x1x14x14 : Shape := ⟨6, ![32, 1, 14, 1, 14, 14]⟩
abbrev S32x1x1x14x14x14 : Shape := ⟨6, ![32, 1, 1, 14, 14, 14]⟩
abbrev S_ : Shape := ⟨0, ![]⟩
abbrev S32x20x14x14x14x14 : Shape := ⟨6, ![32, 20, 14, 14, 14, 14]⟩

abbrev nBuf : Space → Nat
  | .hbm => 146
  | .vmem => 0
  | .smem => 0
  | _ => 0

abbrev hbmTy0_0 (i : Nat) : BufTy := match i % 128 with
  | 0 => ⟨S32x204x14x14, .f32⟩
  | 1 => ⟨S32x4x51x14x14, .f32⟩
  | 2 => ⟨S32x1x51x14x14, .f32⟩
  | 3 => ⟨S32x51x14x14, .f32⟩
  | 4 => ⟨S32x1x51x14x14, .f32⟩
  | 5 => ⟨S32x51x14x14, .f32⟩
  | 6 => ⟨S32x1x51x14x14, .f32⟩
  | 7 => ⟨S32x51x14x14, .f32⟩
  | 8 => ⟨S32x1x51x14x14, .f32⟩
  | 9 => ⟨S32x51x14x14, .f32⟩
  | 10 => ⟨S32x1x14x14, .f32⟩
  | 11 => ⟨S32x20x14x14, .f32⟩
  | 12 => ⟨S32x20x14x14, .f32⟩
  | 13 => ⟨S32x20x14x14, .f32⟩
  | 14 => ⟨S32x20x14x14x1x1, .f32⟩
  | 15 => ⟨S32x1x14x14, .f32⟩
  | 16 => ⟨S32x20x14x14, .f32⟩
  | 17 => ⟨S32x20x14x14, .f32⟩
  | 18 => ⟨S32x20x14x14, .f32⟩
  | 19 => ⟨S32x20x1x1x14x14, .f32⟩
  | 20 => ⟨S32x14x14x14, .f32⟩
  | 21 => ⟨S32x14x14x14, .f32⟩
  | 22 => ⟨S32x1x14x14x14x1, .f32⟩
  | 23 => ⟨S32x14x14x14, .f32⟩
  | 24 => ⟨S32x14x14x14, .f32⟩
  | 25 => ⟨S32x1x14x14x1x14, .f32⟩
  | 26 => ⟨S32x14x14x14, .f32⟩
  | 27 => ⟨S32x1x14x1x14x14, .f32⟩
  | 28 => ⟨S32x14x14x14, .f32⟩
  | 29 => ⟨S32x1x1x14x14x14, .f32⟩
  | 30 => ⟨S_, .f32⟩
  | 31 => ⟨S32x20x14x14x1x1, .f32⟩
  | 32 => ⟨S32x20x14x14x1x1, .f32⟩
  | 33 => ⟨S32x20x14x14x14x14, .f32⟩
  | 34 => ⟨S32x20x14x14x14x14, .f32⟩
  | 35 => ⟨S32x20x14x14x14x14, .f32⟩
  | 36 => ⟨S32x20x14x14x14x14, .f32⟩
  | 37 => ⟨S32x20x14x14x14x14, .f32⟩
  | 38 => ⟨S32x20x14x14x14x14, .f32⟩
  | 39 => ⟨S32x20x14x14x14x14, .f32⟩
  | 40 => ⟨S32x20x14x14x14x14, .f32⟩
  | 41 => ⟨S32x20x14x14x14x14, .f32⟩
  | 42 => ⟨S32x20x14x14x14x14, .f32⟩
  | 43 => ⟨S32x20x14x14x14x14, .f32⟩
  | 44 => ⟨S32x1x14x14, .f32⟩
  | 45 => ⟨S32x20x14x14, .f32⟩
  | 46 => ⟨S32x20x14x14, .f32⟩
  | 47 => ⟨S32x20x14x14, .f32⟩
  | 48 => ⟨S32x20x14x14x1x1, .f32⟩
  | 49 => ⟨S32x1x14x14, .f32⟩
  | 50 => ⟨S32x20x14x14, .f32⟩
  | 51 => ⟨S32x20x14x14, .f32⟩
  | 52 => ⟨S32x20x14x14, .f32⟩
  | 53 => ⟨S32x20x1x1x14x14, .f32⟩
  | 54 => ⟨S32x14x14x14, .f32⟩
  | 55 => ⟨S32x14x14x14, .f32⟩
  | 56 => ⟨S32x1x14x14x14x1, .f32⟩
  | 57 => ⟨S32x14x14x14, .f32⟩
  | 58 => ⟨S32x14x14x14, .f32⟩
  | 59 => ⟨S32x1x14x14x1x14, .f32⟩
  | 60 => ⟨S32x14x14x14, .f32⟩
  | 61 => ⟨S32x1x14x1x14x14, .f32⟩
  | 62 => ⟨S32x14x14x14, .f32⟩
  | 63 => ⟨S32x1x1x14x14x14, .f32⟩
  | 64 => ⟨S_, .f32⟩
  | 65 => ⟨S32x20x14x14x1x1, .f32⟩
  | 66 => ⟨S32x20x14x14x1x1, .f32⟩
  | 67 => ⟨S32x20x14x14x14x14, .f32⟩
  | 68 => ⟨S32x20x14x14x14x14, .f32⟩
  | 69 => ⟨S32x20x14x14x14x14, .f32⟩
  | 70 => ⟨S32x20x14x14x14x14, .f32⟩
  | 71 => ⟨S32x20x14x14x14x14, .f32⟩
  | 72 => ⟨S32x20x14x14x14x14, .f32⟩
  | 73 => ⟨S32x20x14x14x14x14, .f32⟩
  | 74 => ⟨S32x20x14x14x14x14, .f32⟩
  | 75 => ⟨S32x20x14x14x14x14, .f32⟩
  | 76 => ⟨S32x20x14x14x14x14, .f32⟩
  | 77 => ⟨S32x20x14x14x14x14, .f32⟩
  | 78 => ⟨S32x1x14x14, .f32⟩
  | 79 => ⟨S32x20x14x14, .f32⟩
  | 80 => ⟨S32x20x14x14, .f32⟩
  | 81 => ⟨S32x20x14x14, .f32⟩
  | 82 => ⟨S32x20x14x14x1x1, .f32⟩
  | 83 => ⟨S32x1x14x14, .f32⟩
  | 84 => ⟨S32x20x14x14, .f32⟩
  | 85 => ⟨S32x20x14x14, .f32⟩
  | 86 => ⟨S32x20x14x14, .f32⟩
  | 87 => ⟨S32x20x1x1x14x14, .f32⟩
  | 88 => ⟨S32x14x14x14, .f32⟩
  | 89 => ⟨S32x14x14x14, .f32⟩
  | 90 => ⟨S32x1x14x14x14x1, .f32⟩
  | 91 => ⟨S32x14x14x14, .f32⟩
  | 92 => ⟨S32x14x14x14, .f32⟩
  | 93 => ⟨S32x1x14x14x1x14, .f32⟩
  | 94 => ⟨S32x14x14x14, .f32⟩
  | 95 => ⟨S32x1x14x1x14x14, .f32⟩
  | 96 => ⟨S32x14x14x14, .f32⟩
  | 97 => ⟨S32x1x1x14x14x14, .f32⟩
  | 98 => ⟨S_, .f32⟩
  | 99 => ⟨S32x20x14x14x1x1, .f32⟩
  | 100 => ⟨S32x20x14x14x1x1, .f32⟩
  | 101 => ⟨S32x20x14x14x14x14, .f32⟩
  | 102 => ⟨S32x20x14x14x14x14, .f32⟩
  | 103 => ⟨S32x20x14x14x14x14, .f32⟩
  | 104 => ⟨S32x20x14x14x14x14, .f32⟩
  | 105 => ⟨S32x20x14x14x14x14, .f32⟩
  | 106 => ⟨S32x20x14x14x14x14, .f32⟩
  | 107 => ⟨S32x20x14x14x14x14, .f32⟩
  | 108 => ⟨S32x20x14x14x14x14, .f32⟩
  | 109 => ⟨S32x20x14x14x14x14, .f32⟩
  | 110 => ⟨S32x20x14x14x14x14, .f32⟩
  | 111 => ⟨S32x20x14x14x14x14, .f32⟩
  | 112 => ⟨S32x1x14x14, .f32⟩
  | 113 => ⟨S32x20x14x14, .f32⟩
  | 114 => ⟨S32x20x14x14, .f32⟩
  | 115 => ⟨S32x20x14x14, .f32⟩
  | 116 => ⟨S32x20x14x14x1x1, .f32⟩
  | 117 => ⟨S32x1x14x14, .f32⟩
  | 118 => ⟨S32x20x14x14, .f32⟩
  | 119 => ⟨S32x20x14x14, .f32⟩
  | 120 => ⟨S32x20x14x14, .f32⟩
  | 121 => ⟨S32x20x1x1x14x14, .f32⟩
  | 122 => ⟨S32x14x14x14, .f32⟩
  | 123 => ⟨S32x14x14x14, .f32⟩
  | 124 => ⟨S32x1x14x14x14x1, .f32⟩
  | 125 => ⟨S32x14x14x14, .f32⟩
  | 126 => ⟨S32x14x14x14, .f32⟩
  | 127 => ⟨S32x1x14x14x1x14, .f32⟩
  | _ => ⟨S32x204x14x14, .f32⟩

abbrev hbmTy0_1 (i : Nat) : BufTy := match i % 128 with
  | 0 => ⟨S32x14x14x14, .f32⟩
  | 1 => ⟨S32x1x14x1x14x14, .f32⟩
  | 2 => ⟨S32x14x14x14, .f32⟩
  | 3 => ⟨S32x1x1x14x14x14, .f32⟩
  | 4 => ⟨S_, .f32⟩
  | 5 => ⟨S32x20x14x14x1x1, .f32⟩
  | 6 => ⟨S32x20x14x14x1x1, .f32⟩
  | 7 => ⟨S32x20x14x14x14x14, .f32⟩
  | 8 => ⟨S32x20x14x14x14x14, .f32⟩
  | 9 => ⟨S32x20x14x14x14x14, .f32⟩
  | 10 => ⟨S32x20x14x14x14x14, .f32⟩
  | 11 => ⟨S32x20x14x14x14x14, .f32⟩
  | 12 => ⟨S32x20x14x14x14x14, .f32⟩
  | 13 => ⟨S32x20x14x14x14x14, .f32⟩
  | 14 => ⟨S32x20x14x14x14x14, .f32⟩
  | 15 => ⟨S32x20x14x14x14x14, .f32⟩
  | 16 => ⟨S32x20x14x14x14x14, .f32⟩
  | 17 => ⟨S32x20x14x14x14x14, .f32⟩
  | _ => ⟨S32x204x14x14, .f32⟩

abbrev hbmTy (i : Nat) : BufTy := match i / 128 with
  | 0 => hbmTy0_0 i
  | 1 => hbmTy0_1 i
  | _ => ⟨S32x204x14x14, .f32⟩

abbrev bufTy : (tb : Table) → Fin (tcTables nBuf tb) → BufTy
  | .hbm, ⟨i, _⟩ => hbmTy i
  | _, _ => ⟨S32x204x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_cst : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_cst_0 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_cst_1 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_cst_2 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩

abbrev nD : Nat := 1
abbrev τ : Topo := Topo.v7x

variable {F : FTy → Type} [FloatOps F]

class Facts₀ : Prop where
  shapeCasts_S32x204x14x14_S32x4x51x14x14 : S32x204x14x14.ShapeCasts S32x4x51x14x14
  slices_S32x4x51x14x14_S32x1x51x14x14_0_0_0_0_0 : S32x4x51x14x14.Slices ![0, 0, 0, 0, 0] S32x1x51x14x14
  shapeCasts_S32x1x51x14x14_S32x51x14x14 : S32x1x51x14x14.ShapeCasts S32x51x14x14
  slices_S32x4x51x14x14_S32x1x51x14x14_0_1_0_0_0 : S32x4x51x14x14.Slices ![0, 1, 0, 0, 0] S32x1x51x14x14
  slices_S32x4x51x14x14_S32x1x51x14x14_0_2_0_0_0 : S32x4x51x14x14.Slices ![0, 2, 0, 0, 0] S32x1x51x14x14
  slices_S32x4x51x14x14_S32x1x51x14x14_0_3_0_0_0 : S32x4x51x14x14.Slices ![0, 3, 0, 0, 0] S32x1x51x14x14
  slices_S32x51x14x14_S32x1x14x14_0_0_0_0 : S32x51x14x14.Slices ![0, 0, 0, 0] S32x1x14x14
  slices_S32x51x14x14_S32x20x14x14_0_1_0_0 : S32x51x14x14.Slices ![0, 1, 0, 0] S32x20x14x14
  bcast_S32x1x14x14_S32x20x14x14_0_1_2_3 : S32x1x14x14.BroadcastsInDim S32x20x14x14 (![0, 1, 2, 3] : Fin 4 → Fin S32x20x14x14.rank)
  bcast_S32x20x14x14_S32x20x14x14x1x1_0_1_2_3 : S32x20x14x14.BroadcastsInDim S32x20x14x14x1x1 (![0, 1, 2, 3] : Fin 4 → Fin S32x20x14x14x1x1.rank)
  bcast_S32x20x14x14_S32x20x1x1x14x14_0_1_4_5 : S32x20x14x14.BroadcastsInDim S32x20x1x1x14x14 (![0, 1, 4, 5] : Fin 4 → Fin S32x20x1x1x14x14.rank)
  slices_S32x51x14x14_S32x14x14x14_0_23_0_0 : S32x51x14x14.Slices ![0, 23, 0, 0] S32x14x14x14
  transposes_S32x14x14x14_S32x14x14x14_0_2_3_1 : S32x14x14x14.Transposes [0, 2, 3, 1] S32x14x14x14
  bcast_S32x14x14x14_S32x1x14x14x14x1_0_2_3_4 : S32x14x14x14.BroadcastsInDim S32x1x14x14x14x1 (![0, 2, 3, 4] : Fin 4 → Fin S32x1x14x14x14x1.rank)
  slices_S32x51x14x14_S32x14x14x14_0_37_0_0 : S32x51x14x14.Slices ![0, 37, 0, 0] S32x14x14x14
  bcast_S32x14x14x14_S32x1x14x14x1x14_0_2_3_5 : S32x14x14x14.BroadcastsInDim S32x1x14x14x1x14 (![0, 2, 3, 5] : Fin 4 → Fin S32x1x14x14x1x14.rank)
  bcast_S32x14x14x14_S32x1x14x1x14x14_0_2_4_5 : S32x14x14x14.BroadcastsInDim S32x1x14x1x14x14 (![0, 2, 4, 5] : Fin 4 → Fin S32x1x14x1x14x14.rank)
  bcast_S32x14x14x14_S32x1x1x14x14x14_0_3_4_5 : S32x14x14x14.BroadcastsInDim S32x1x1x14x14x14 (![0, 3, 4, 5] : Fin 4 → Fin S32x1x1x14x14x14.rank)
  bcast_S_S32x20x14x14x1x1 : S_.BroadcastsInDim S32x20x14x14x1x1 (![] : Fin 0 → Fin S32x20x14x14x1x1.rank)
  bcast_S32x20x14x14x1x1_S32x20x14x14x14x14_0_1_2_3_4_5 : S32x20x14x14x1x1.BroadcastsInDim S32x20x14x14x14x14 (![0, 1, 2, 3, 4, 5] : Fin 6 → Fin S32x20x14x14x14x14.rank)
  bcast_S32x20x1x1x14x14_S32x20x14x14x14x14_0_1_2_3_4_5 : S32x20x1x1x14x14.BroadcastsInDim S32x20x14x14x14x14 (![0, 1, 2, 3, 4, 5] : Fin 6 → Fin S32x20x14x14x14x14.rank)
  bcast_S32x1x14x14x14x1_S32x20x14x14x14x14_0_1_2_3_4_5 : S32x1x14x14x14x1.BroadcastsInDim S32x20x14x14x14x14 (![0, 1, 2, 3, 4, 5] : Fin 6 → Fin S32x20x14x14x14x14.rank)
  bcast_S32x1x14x14x1x14_S32x20x14x14x14x14_0_1_2_3_4_5 : S32x1x14x14x1x14.BroadcastsInDim S32x20x14x14x14x14 (![0, 1, 2, 3, 4, 5] : Fin 6 → Fin S32x20x14x14x14x14.rank)
  bcast_S32x1x14x1x14x14_S32x20x14x14x14x14_0_1_2_3_4_5 : S32x1x14x1x14x14.BroadcastsInDim S32x20x14x14x14x14 (![0, 1, 2, 3, 4, 5] : Fin 6 → Fin S32x20x14x14x14x14.rank)
  bcast_S32x1x1x14x14x14_S32x20x14x14x14x14_0_1_2_3_4_5 : S32x1x1x14x14x14.BroadcastsInDim S32x20x14x14x14x14 (![0, 1, 2, 3, 4, 5] : Fin 6 → Fin S32x20x14x14x14x14.rank)

variable [Facts₀]

class Facts : Prop extends Facts₀ where

variable [Facts]
-- ==== Proof.RefLine.lean ====
/-
  The reference's program as a list of host operations, and its run.

  The reference is a straight line of 145 array operations.  They are listed here in three windows — the three parts
  its program is printed in — and the program is shown to be those operations run in order; the library's run of a
  straight line then says: every weakly fair execution terminates, and each buffer ends holding what the operations,
  applied in order to the launch contents, leave there (`after`).
-/
import proofs.«117441_j60911226191951_2_alg».proof.Proof.Gen.ReferenceIdeal
import Idealize.ShloMosaic.Lib.StableHlo.Run
import Idealize.ShloMosaic.PureOps.Ideal

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The reference's statements 1 … 60, in order. -/
def ops0 : List (HloOp τ sig (Elt F)) :=
  ( StableHlo.reshape main_arg0 main_v0 rfl shapeCasts_S32x204x14x14_S32x4x51x14x14
  :: StableHlo.unary main_v0 main_v1 ((extractStridedSlice S32x1x51x14x14 ![0, 0, 0, 0, 0] · slices_S32x4x51x14x14_S32x1x51x14x14_0_0_0_0_0) : (⟨S32x4x51x14x14, .f32⟩ : BufTy).Contents (Elt F) → (⟨S32x1x51x14x14, .f32⟩ : BufTy).Contents (Elt F))
  :: StableHlo.reshape main_v1 main_v2 rfl shapeCasts_S32x1x51x14x14_S32x51x14x14
  :: StableHlo.unary main_v0 main_v3 ((extractStridedSlice S32x1x51x14x14 ![0, 1, 0, 0, 0] · slices_S32x4x51x14x14_S32x1x51x14x14_0_1_0_0_0) : (⟨S32x4x51x14x14, .f32⟩ : BufTy).Contents (Elt F) → (⟨S32x1x51x14x14, .f32⟩ : BufTy).Contents (Elt F))
  :: StableHlo.reshape main_v3 main_v4 rfl shapeCasts_S32x1x51x14x14_S32x51x14x14
  :: StableHlo.unary main_v0 main_v5 ((extractStridedSlice S32x1x51x14x14 ![0, 2, 0, 0, 0] · slices_S32x4x51x14x14_S32x1x51x14x14_0_2_0_0_0) : (⟨S32x4x51x14x14, .f32⟩ : BufTy).Contents (Elt F) → (⟨S32x1x51x14x14, .f32⟩ : BufTy).Contents (Elt F))
  :: StableHlo.reshape main_v5 main_v6 rfl shapeCasts_S32x1x51x14x14_S32x51x14x14
  :: StableHlo.unary main_v0 main_v7 ((extractStridedSlice S32x1x51x14x14 ![0, 3, 0, 0, 0] · slices_S32x4x51x14x14_S32x1x51x14x14_0_3_0_0_0) : (⟨S32x4x51x14x14, .f32⟩ : BufTy).Contents (Elt F) → (⟨S32x1x51x14x14, .f32⟩ : BufTy).Contents (Elt F))
  :: StableHlo.reshape main_v7 main_v8 rfl shapeCasts_S32x1x51x14x14_S32x51x14x14
  :: StableHlo.unary main_v2 main_v9 ((extractStridedSlice S32x1x14x14 ![0, 0, 0, 0] · slices_S32x51x14x14_S32x1x14x14_0_0_0_0) : (⟨S32x51x14x14, .f32⟩ : BufTy).Contents (Elt F) → (⟨S32x1x14x14, .f32⟩ : BufTy).Contents (Elt F))
  :: StableHlo.unary main_v2 main_v10 ((extractStridedSlice S32x20x14x14 ![0, 1, 0, 0] · slices_S32x51x14x14_S32x20x14x14_0_1_0_0) : (⟨S32x51x14x14, .f32⟩ : BufTy).Contents (Elt F) → (⟨S32x20x14x14, .f32⟩ : BufTy).Contents (Elt F))
  :: StableHlo.unary main_v9 main_v11 (broadcastInDim S32x20x14x14 ![0, 1, 2, 3] bcast_S32x1x14x14_S32x20x14x14_0_1_2_3 : (⟨S32x1x14x14, .f32⟩ : BufTy).Contents (Elt F) → (⟨S32x20x14x14, .f32⟩ : BufTy).Contents (Elt F))
  :: StableHlo.binary main_v11 main_v10 main_v12 (mulf : (⟨S32x20x14x14, .f32⟩ : BufTy).Contents (Elt F) → (⟨S32x20x14x14, .f32⟩ : BufTy).Contents (Elt F) → (⟨S32x20x14x14, .f32⟩ : BufTy).Contents (Elt F))
  :: StableHlo.unary main_v12 main_v13 (broadcastInDim S32x20x14x14x1x1 ![0, 1, 2, 3] bcast_S32x20x14x14_S32x20x14x14x1x1_0_1_2_3 : (⟨S32x20x14x14, .f32⟩ : BufTy).Contents (Elt F) → (⟨S32x20x14x14x1x1, .f32⟩ : BufTy).Contents (Elt F))
  :: StableHlo.unary main_v6 main_v14 ((extractStridedSlice S32x1x14x14 ![0, 0, 0, 0] · slices_S32x51x14x14_S32x1x14x14_0_0_0_0) : (⟨S32x51x14x14, .f32⟩ : BufTy).Contents (Elt F) → (⟨S32x1x14x14, .f32⟩ : BufTy).Contents (Elt F))
  :: StableHlo.unary main_v6 main_v15 ((extractStridedSlice S32x20x14x14 ![0, 1, 0, 0] · slices_S32x51x14x14_S32x20x14x14_0_1_0_0) : (⟨S32x51x14x14, .f32⟩ : BufTy).Contents (Elt F) → (⟨S32x20x14x14, .f32⟩ : BufTy).Contents (Elt F))
  :: StableHlo.unary main_v14 main_v16 (broadcastInDim S32x20x14x14 ![0, 1, 2, 3] bcast_S32x1x14x14_S32x20x14x14_0_1_2_3 : (⟨S32x1x14x14, .f32⟩ : BufTy).Contents (Elt F) → (⟨S32x20x14x14, .f32⟩ : BufTy).Contents (Elt F))
  :: StableHlo.binary main_v16 main_v15 main_v17 (mulf : (⟨S32x20x14x14, .f32⟩ : BufTy).Contents (Elt F) → (⟨S32x20x14x14, .f32⟩ : BufTy).Contents (Elt F) → (⟨S32x20x14x14, .f32⟩ : BufTy).Contents (Elt F))
  :: StableHlo.unary main_v17 main_v18 (broadcastInDim S32x20x1x1x14x14 ![0, 1, 4, 5] bcast_S32x20x14x14_S32x20x1x1x14x14_0_1_4_5 : (⟨S32x20x14x14, .f32⟩ : BufTy).Contents (Elt F) → (⟨S32x20x1x1x14x14, .f32⟩ : BufTy).Contents (Elt F))
  :: StableHlo.unary main_v2 main_v19 ((extractStridedSlice S32x14x14x14 ![0, 23, 0, 0] · slices_S32x51x14x14_S32x14x14x14_0_23_0_0) : (⟨S32x51x14x14, .f32⟩ : BufTy).Contents (Elt F) → (⟨S32x14x14x14, .f32⟩ : BufTy).Contents (Elt F))
  :: StableHlo.unary main_v19 main_v20 ((transpose S32x14x14x14 [0, 2, 3, 1] · transposes_S32x14x14x14_S32x14x14x14_0_2_3_1) : (⟨S32x14x14x14, .f32⟩ : BufTy).Contents (Elt F) → (⟨S32x14x14x14, .f32⟩ : BufTy).Contents (Elt F))
  :: StableHlo.unary main_v20 main_v21 (broadcastInDim S32x1x14x14x14x1 ![0, 2, 3, 4] bcast_S32x14x14x14_S32x1x14x14x14x1_0_2_3_4 : (⟨S32x14x14x14, .f32⟩ : BufTy).Contents (Elt F) → (⟨S32x1x14x14x14x1, .f32⟩ : BufTy).Contents (Elt F))
  :: StableHlo.unary main_v2 main_v22 ((extractStridedSlice S32x14x14x14 ![0, 37, 0, 0] · slices_S32x51x14x14_S32x14x14x14_0_37_0_0) : (⟨S32x51x14x14, .f32⟩ : BufTy).Contents (Elt F) → (⟨S32x14x14x14, .f32⟩ : BufTy).Contents (Elt F))
  :: StableHlo.unary main_v22 main_v23 ((transpose S32x14x14x14 [0, 2, 3, 1] · transposes_S32x14x14x14_S32x14x14x14_0_2_3_1) : (⟨S32x14x14x14, .f32⟩ : BufTy).Contents (Elt F) → (⟨S32x14x14x14, .f32⟩ : BufTy).Contents (Elt F))
  :: StableHlo.unary main_v23 main_v24 (broadcastInDim S32x1x14x14x1x14 ![0, 2, 3, 5] bcast_S32x14x14x14_S32x1x14x14x1x14_0_2_3_5 : (⟨S32x14x14x14, .f32⟩ : BufTy).Contents (Elt F) → (⟨S32x1x14x14x1x14, .f32⟩ : BufTy).Contents (Elt F))
  :: StableHlo.unary main_v6 main_v25 ((extractStridedSlice S32x14x14x14 ![0, 23, 0, 0] · slices_S32x51x14x14_S32x14x14x14_0_23_0_0) : (⟨S32x51x14x14, .f32⟩ : BufTy).Contents (Elt F) → (⟨S32x14x14x14, .f32⟩ : BufTy).Contents (Elt F))
  :: StableHlo.unary main_v25 main_v26 (broadcastInDim S32x1x14x1x14x14 ![0, 2, 4, 5] bcast_S32x14x14x14_S32x1x14x1x14x14_0_2_4_5 : (⟨S32x14x14x14, .f32⟩ : BufTy).Contents (Elt F) → (⟨S32x1x14x1x14x14, .f32⟩ : BufTy).Contents (Elt F))
  :: StableHlo.unary main_v6 main_v27 ((extractStridedSlice S32x14x14x14 ![0, 37, 0, 0] · slices_S32x51x14x14_S32x14x14x14_0_37_0_0) : (⟨S32x51x14x14, .f32⟩ : BufTy).Contents (Elt F) → (⟨S32x14x14x14, .f32⟩ : BufTy).Contents (Elt F))
  :: StableHlo.unary main_v27 main_v28 (broadcastInDim S32x1x1x14x14x14 ![0, 3, 4, 5] bcast_S32x14x14x14_S32x1x1x14x14x14_0_3_4_5 : (⟨S32x14x14x14, .f32⟩ : BufTy).Contents (Elt F) → (⟨S32x1x1x14x14x14, .f32⟩ : BufTy).Contents (Elt F))
  :: StableHlo.nullary main_cst (constant S_ .f32 0x3F000000#32)
  :: StableHlo.unary main_cst main_v29 (broadcastInDim S32x20x14x14x1x1 ![] bcast_S_S32x20x14x14x1x1 : (⟨S_, .f32⟩ : BufTy).Contents (Elt F) → (⟨S32x20x14x14x1x1, .f32⟩ : BufTy).Contents (Elt F))
  :: StableHlo.binary main_v29 main_v13 main_v30 (mulf : (⟨S32x20x14x14x1x1, .f32⟩ : BufTy).Contents (Elt F) → (⟨S32x20x14x14x1x1, .f32⟩ : BufTy).Contents (Elt F) → (⟨S32x20x14x14x1x1, .f32⟩ : BufTy).Contents (Elt F))
  :: StableHlo.unary main_v30 main_v31 (broadcastInDim S32x20x14x14x14x14 ![0, 1, 2, 3, 4, 5] bcast_S32x20x14x14x1x1_S32x20x14x14x14x14_0_1_2_3_4_5 : (⟨S32x20x14x14x1x1, .f32⟩ : BufTy).Contents (Elt F) → (⟨S32x20x14x14x14x14, .f32⟩ : BufTy).Contents (Elt F))
  :: StableHlo.unary main_v18 main_v32 (broadcastInDim S32x20x14x14x14x14 ![0, 1, 2, 3, 4, 5] bcast_S32x20x1x1x14x14_S32x20x14x14x14x14_0_1_2_3_4_5 : (⟨S32x20x1x1x14x14, .f32⟩ : BufTy).Contents (Elt F) → (⟨S32x20x14x14x14x14, .f32⟩ : BufTy).Contents (Elt F))
  :: StableHlo.binary main_v31 main_v32 main_v33 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v21 main_v34 (broadcastInDim S32x20x14x14x14x14 ![0, 1, 2, 3, 4, 5] bcast_S32x1x14x14x14x1_S32x20x14x14x14x14_0_1_2_3_4_5 : (⟨S32x1x14x14x14x1, .f32⟩ : BufTy).Contents (Elt F) → (⟨S32x20x14x14x14x14, .f32⟩ : BufTy).Contents (Elt F))
  :: StableHlo.binary main_v33 main_v34 main_v35 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v24 main_v36 (broadcastInDim S32x20x14x14x14x14 ![0, 1, 2, 3, 4, 5] bcast_S32x1x14x14x1x14_S32x20x14x14x14x14_0_1_2_3_4_5 : (⟨S32x1x14x14x1x14, .f32⟩ : BufTy).Contents (Elt F) → (⟨S32x20x14x14x14x14, .f32⟩ : BufTy).Contents (Elt F))
  :: StableHlo.binary main_v35 main_v36 main_v37 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v26 main_v38 (broadcastInDim S32x20x14x14x14x14 ![0, 1, 2, 3, 4, 5] bcast_S32x1x14x1x14x14_S32x20x14x14x14x14_0_1_2_3_4_5 : (⟨S32x1x14x1x14x14, .f32⟩ : BufTy).Contents (Elt F) → (⟨S32x20x14x14x14x14, .f32⟩ : BufTy).Contents (Elt F))
  :: StableHlo.binary main_v37 main_v38 main_v39 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v28 main_v40 (broadcastInDim S32x20x14x14x14x14 ![0, 1, 2, 3, 4, 5] bcast_S32x1x1x14x14x14_S32x20x14x14x14x14_0_1_2_3_4_5 : (⟨S32x1x1x14x14x14, .f32⟩ : BufTy).Contents (Elt F) → (⟨S32x20x14x14x14x14, .f32⟩ : BufTy).Contents (Elt F))
  :: StableHlo.binary main_v39 main_v40 main_v41 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v4 main_v42 ((extractStridedSlice S32x1x14x14 ![0, 0, 0, 0] · slices_S32x51x14x14_S32x1x14x14_0_0_0_0) : (⟨S32x51x14x14, .f32⟩ : BufTy).Contents (Elt F) → (⟨S32x1x14x14, .f32⟩ : BufTy).Contents (Elt F))
  :: StableHlo.unary main_v4 main_v43 ((extractStridedSlice S32x20x14x14 ![0, 1, 0, 0] · slices_S32x51x14x14_S32x20x14x14_0_1_0_0) : (⟨S32x51x14x14, .f32⟩ : BufTy).Contents (Elt F) → (⟨S32x20x14x14, .f32⟩ : BufTy).Contents (Elt F))
  :: StableHlo.unary main_v42 main_v44 (broadcastInDim S32x20x14x14 ![0, 1, 2, 3] bcast_S32x1x14x14_S32x20x14x14_0_1_2_3 : (⟨S32x1x14x14, .f32⟩ : BufTy).Contents (Elt F) → (⟨S32x20x14x14, .f32⟩ : BufTy).Contents (Elt F))
  :: StableHlo.binary main_v44 main_v43 main_v45 (mulf : (⟨S32x20x14x14, .f32⟩ : BufTy).Contents (Elt F) → (⟨S32x20x14x14, .f32⟩ : BufTy).Contents (Elt F) → (⟨S32x20x14x14, .f32⟩ : BufTy).Contents (Elt F))
  :: StableHlo.unary main_v45 main_v46 (broadcastInDim S32x20x14x14x1x1 ![0, 1, 2, 3] bcast_S32x20x14x14_S32x20x14x14x1x1_0_1_2_3 : (⟨S32x20x14x14, .f32⟩ : BufTy).Contents (Elt F) → (⟨S32x20x14x14x1x1, .f32⟩ : BufTy).Contents (Elt F))
  :: StableHlo.unary main_v6 main_v47 ((extractStridedSlice S32x1x14x14 ![0, 0, 0, 0] · slices_S32x51x14x14_S32x1x14x14_0_0_0_0) : (⟨S32x51x14x14, .f32⟩ : BufTy).Contents (Elt F) → (⟨S32x1x14x14, .f32⟩ : BufTy).Contents (Elt F))
  :: StableHlo.unary main_v6 main_v48 ((extractStridedSlice S32x20x14x14 ![0, 1, 0, 0] · slices_S32x51x14x14_S32x20x14x14_0_1_0_0) : (⟨S32x51x14x14, .f32⟩ : BufTy).Contents (Elt F) → (⟨S32x20x14x14, .f32⟩ : BufTy).Contents (Elt F))
  :: StableHlo.unary main_v47 main_v49 (broadcastInDim S32x20x14x14 ![0, 1, 2, 3] bcast_S32x1x14x14_S32x20x14x14_0_1_2_3 : (⟨S32x1x14x14, .f32⟩ : BufTy).Contents (Elt F) → (⟨S32x20x14x14, .f32⟩ : BufTy).Contents (Elt F))
  :: StableHlo.binary main_v49 main_v48 main_v50 (mulf : (⟨S32x20x14x14, .f32⟩ : BufTy).Contents (Elt F) → (⟨S32x20x14x14, .f32⟩ : BufTy).Contents (Elt F) → (⟨S32x20x14x14, .f32⟩ : BufTy).Contents (Elt F))
  :: StableHlo.unary main_v50 main_v51 (broadcastInDim S32x20x1x1x14x14 ![0, 1, 4, 5] bcast_S32x20x14x14_S32x20x1x1x14x14_0_1_4_5 : (⟨S32x20x14x14, .f32⟩ : BufTy).Contents (Elt F) → (⟨S32x20x1x1x14x14, .f32⟩ : BufTy).Contents (Elt F))
  :: StableHlo.unary main_v4 main_v52 ((extractStridedSlice S32x14x14x14 ![0, 23, 0, 0] · slices_S32x51x14x14_S32x14x14x14_0_23_0_0) : (⟨S32x51x14x14, .f32⟩ : BufTy).Contents (Elt F) → (⟨S32x14x14x14, .f32⟩ : BufTy).Contents (Elt F))
  :: StableHlo.unary main_v52 main_v53 ((transpose S32x14x14x14 [0, 2, 3, 1] · transposes_S32x14x14x14_S32x14x14x14_0_2_3_1) : (⟨S32x14x14x14, .f32⟩ : BufTy).Contents (Elt F) → (⟨S32x14x14x14, .f32⟩ : BufTy).Contents (Elt F))
  :: StableHlo.unary main_v53 main_v54 (broadcastInDim S32x1x14x14x14x1 ![0, 2, 3, 4] bcast_S32x14x14x14_S32x1x14x14x14x1_0_2_3_4 : (⟨S32x14x14x14, .f32⟩ : BufTy).Contents (Elt F) → (⟨S32x1x14x14x14x1, .f32⟩ : BufTy).Contents (Elt F))
  :: StableHlo.unary main_v4 main_v55 ((extractStridedSlice S32x14x14x14 ![0, 37, 0, 0] · slices_S32x51x14x14_S32x14x14x14_0_37_0_0) : (⟨S32x51x14x14, .f32⟩ : BufTy).Contents (Elt F) → (⟨S32x14x14x14, .f32⟩ : BufTy).Contents (Elt F))
  :: StableHlo.unary main_v55 main_v56 ((transpose S32x14x14x14 [0, 2, 3, 1] · transposes_S32x14x14x14_S32x14x14x14_0_2_3_1) : (⟨S32x14x14x14, .f32⟩ : BufTy).Contents (Elt F) → (⟨S32x14x14x14, .f32⟩ : BufTy).Contents (Elt F))
  :: StableHlo.unary main_v56 main_v57 (broadcastInDim S32x1x14x14x1x14 ![0, 2, 3, 5] bcast_S32x14x14x14_S32x1x14x14x1x14_0_2_3_5 : (⟨S32x14x14x14, .f32⟩ : BufTy).Contents (Elt F) → (⟨S32x1x14x14x1x14, .f32⟩ : BufTy).Contents (Elt F))
  :: StableHlo.unary main_v6 main_v58 ((extractStridedSlice S32x14x14x14 ![0, 23, 0, 0] · slices_S32x51x14x14_S32x14x14x14_0_23_0_0) : (⟨S32x51x14x14, .f32⟩ : BufTy).Contents (Elt F) → (⟨S32x14x14x14, .f32⟩ : BufTy).Contents (Elt F))
  :: [])

set_option maxRecDepth 8192 in
set_option maxHeartbeats 40000000 in
/-- That window of the reference's program is those operations run in order. -/
theorem part0_eq (c : Dev nD) : main_part0 (F := F) c = seq ops0 := rfl

set_option maxRecDepth 8192 in
theorem ops0_sub : (ops0 : List (HloOp τ sig (Elt F))).Forall fun op => op.bufs ⊆ tcRefs τ sig := by
  unfold ops0
  exact ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

set_option maxRecDepth 8192 in
theorem ops0_fresh : ∀ op ∈ (ops0 : List (HloOp τ sig (Elt F))), op.fresh = ∅ := by
  unfold ops0
  intro _ h
  (repeat (cases h with | head => rfl | tail _ h => ?_))
  exact nomatch h

set_option maxHeartbeats 40000000 in
/-- The reference's statements 61 … 120, in order. -/
def ops1 : List (HloOp τ sig (Elt F)) :=
  ( StableHlo.unary main_v58 main_v59 (broadcastInDim S32x1x14x1x14x14 ![0, 2, 4, 5] bcast_S32x14x14x14_S32x1x14x1x14x14_0_2_4_5 : (⟨S32x14x14x14, .f32⟩ : BufTy).Contents (Elt F) → (⟨S32x1x14x1x14x14, .f32⟩ : BufTy).Contents (Elt F))
  :: StableHlo.unary main_v6 main_v60 ((extractStridedSlice S32x14x14x14 ![0, 37, 0, 0] · slices_S32x51x14x14_S32x14x14x14_0_37_0_0) : (⟨S32x51x14x14, .f32⟩ : BufTy).Contents (Elt F) → (⟨S32x14x14x14, .f32⟩ : BufTy).Contents (Elt F))
  :: StableHlo.unary main_v60 main_v61 (broadcastInDim S32x1x1x14x14x14 ![0, 3, 4, 5] bcast_S32x14x14x14_S32x1x1x14x14x14_0_3_4_5 : (⟨S32x14x14x14, .f32⟩ : BufTy).Contents (Elt F) → (⟨S32x1x1x14x14x14, .f32⟩ : BufTy).Contents (Elt F))
  :: StableHlo.nullary main_cst_0 (constant S_ .f32 0x3F000000#32)
  :: StableHlo.unary main_cst_0 main_v62 (broadcastInDim S32x20x14x14x1x1 ![] bcast_S_S32x20x14x14x1x1 : (⟨S_, .f32⟩ : BufTy).Contents (Elt F) → (⟨S32x20x14x14x1x1, .f32⟩ : BufTy).Contents (Elt F))
  :: StableHlo.binary main_v62 main_v46 main_v63 (mulf : (⟨S32x20x14x14x1x1, .f32⟩ : BufTy).Contents (Elt F) → (⟨S32x20x14x14x1x1, .f32⟩ : BufTy).Contents (Elt F) → (⟨S32x20x14x14x1x1, .f32⟩ : BufTy).Contents (Elt F))
  :: StableHlo.unary main_v63 main_v64 (broadcastInDim S32x20x14x14x14x14 ![0, 1, 2, 3, 4, 5] bcast_S32x20x14x14x1x1_S32x20x14x14x14x14_0_1_2_3_4_5 : (⟨S32x20x14x14x1x1, .f32⟩ : BufTy).Contents (Elt F) → (⟨S32x20x14x14x14x14, .f32⟩ : BufTy).Contents (Elt F))
  :: StableHlo.unary main_v51 main_v65 (broadcastInDim S32x20x14x14x14x14 ![0, 1, 2, 3, 4, 5] bcast_S32x20x1x1x14x14_S32x20x14x14x14x14_0_1_2_3_4_5 : (⟨S32x20x1x1x14x14, .f32⟩ : BufTy).Contents (Elt F) → (⟨S32x20x14x14x14x14, .f32⟩ : BufTy).Contents (Elt F))
  :: StableHlo.binary main_v64 main_v65 main_v66 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v54 main_v67 (broadcastInDim S32x20x14x14x14x14 ![0, 1, 2, 3, 4, 5] bcast_S32x1x14x14x14x1_S32x20x14x14x14x14_0_1_2_3_4_5 : (⟨S32x1x14x14x14x1, .f32⟩ : BufTy).Contents (Elt F) → (⟨S32x20x14x14x14x14, .f32⟩ : BufTy).Contents (Elt F))
  :: StableHlo.binary main_v66 main_v67 main_v68 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v57 main_v69 (broadcastInDim S32x20x14x14x14x14 ![0, 1, 2, 3, 4, 5] bcast_S32x1x14x14x1x14_S32x20x14x14x14x14_0_1_2_3_4_5 : (⟨S32x1x14x14x1x14, .f32⟩ : BufTy).Contents (Elt F) → (⟨S32x20x14x14x14x14, .f32⟩ : BufTy).Contents (Elt F))
  :: StableHlo.binary main_v68 main_v69 main_v70 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v59 main_v71 (broadcastInDim S32x20x14x14x14x14 ![0, 1, 2, 3, 4, 5] bcast_S32x1x14x1x14x14_S32x20x14x14x14x14_0_1_2_3_4_5 : (⟨S32x1x14x1x14x14, .f32⟩ : BufTy).Contents (Elt F) → (⟨S32x20x14x14x14x14, .f32⟩ : BufTy).Contents (Elt F))
  :: StableHlo.binary main_v70 main_v71 main_v72 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v61 main_v73 (broadcastInDim S32x20x14x14x14x14 ![0, 1, 2, 3, 4, 5] bcast_S32x1x1x14x14x14_S32x20x14x14x14x14_0_1_2_3_4_5 : (⟨S32x1x1x14x14x14, .f32⟩ : BufTy).Contents (Elt F) → (⟨S32x20x14x14x14x14, .f32⟩ : BufTy).Contents (Elt F))
  :: StableHlo.binary main_v72 main_v73 main_v74 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v2 main_v75 ((extractStridedSlice S32x1x14x14 ![0, 0, 0, 0] · slices_S32x51x14x14_S32x1x14x14_0_0_0_0) : (⟨S32x51x14x14, .f32⟩ : BufTy).Contents (Elt F) → (⟨S32x1x14x14, .f32⟩ : BufTy).Contents (Elt F))
  :: StableHlo.unary main_v2 main_v76 ((extractStridedSlice S32x20x14x14 ![0, 1, 0, 0] · slices_S32x51x14x14_S32x20x14x14_0_1_0_0) : (⟨S32x51x14x14, .f32⟩ : BufTy).Contents (Elt F) → (⟨S32x20x14x14, .f32⟩ : BufTy).Contents (Elt F))
  :: StableHlo.unary main_v75 main_v77 (broadcastInDim S32x20x14x14 ![0, 1, 2, 3] bcast_S32x1x14x14_S32x20x14x14_0_1_2_3 : (⟨S32x1x14x14, .f32⟩ : BufTy).Contents (Elt F) → (⟨S32x20x14x14, .f32⟩ : BufTy).Contents (Elt F))
  :: StableHlo.binary main_v77 main_v76 main_v78 (mulf : (⟨S32x20x14x14, .f32⟩ : BufTy).Contents (Elt F) → (⟨S32x20x14x14, .f32⟩ : BufTy).Contents (Elt F) → (⟨S32x20x14x14, .f32⟩ : BufTy).Contents (Elt F))
  :: StableHlo.unary main_v78 main_v79 (broadcastInDim S32x20x14x14x1x1 ![0, 1, 2, 3] bcast_S32x20x14x14_S32x20x14x14x1x1_0_1_2_3 : (⟨S32x20x14x14, .f32⟩ : BufTy).Contents (Elt F) → (⟨S32x20x14x14x1x1, .f32⟩ : BufTy).Contents (Elt F))
  :: StableHlo.unary main_v8 main_v80 ((extractStridedSlice S32x1x14x14 ![0, 0, 0, 0] · slices_S32x51x14x14_S32x1x14x14_0_0_0_0) : (⟨S32x51x14x14, .f32⟩ : BufTy).Contents (Elt F) → (⟨S32x1x14x14, .f32⟩ : BufTy).Contents (Elt F))
  :: StableHlo.unary main_v8 main_v81 ((extractStridedSlice S32x20x14x14 ![0, 1, 0, 0] · slices_S32x51x14x14_S32x20x14x14_0_1_0_0) : (⟨S32x51x14x14, .f32⟩ : BufTy).Contents (Elt F) → (⟨S32x20x14x14, .f32⟩ : BufTy).Contents (Elt F))
  :: StableHlo.unary main_v80 main_v82 (broadcastInDim S32x20x14x14 ![0, 1, 2, 3] bcast_S32x1x14x14_S32x20x14x14_0_1_2_3 : (⟨S32x1x14x14, .f32⟩ : BufTy).Contents (Elt F) → (⟨S32x20x14x14, .f32⟩ : BufTy).Contents (Elt F))
  :: StableHlo.binary main_v82 main_v81 main_v83 (mulf : (⟨S32x20x14x14, .f32⟩ : BufTy).Contents (Elt F) → (⟨S32x20x14x14, .f32⟩ : BufTy).Contents (Elt F) → (⟨S32x20x14x14, .f32⟩ : BufTy).Contents (Elt F))
  :: StableHlo.unary main_v83 main_v84 (broadcastInDim S32x20x1x1x14x14 ![0, 1, 4, 5] bcast_S32x20x14x14_S32x20x1x1x14x14_0_1_4_5 : (⟨S32x20x14x14, .f32⟩ : BufTy).Contents (Elt F) → (⟨S32x20x1x1x14x14, .f32⟩ : BufTy).Contents (Elt F))
  :: StableHlo.unary main_v2 main_v85 ((extractStridedSlice S32x14x14x14 ![0, 23, 0, 0] · slices_S32x51x14x14_S32x14x14x14_0_23_0_0) : (⟨S32x51x14x14, .f32⟩ : BufTy).Contents (Elt F) → (⟨S32x14x14x14, .f32⟩ : BufTy).Contents (Elt F))
  :: StableHlo.unary main_v85 main_v86 ((transpose S32x14x14x14 [0, 2, 3, 1] · transposes_S32x14x14x14_S32x14x14x14_0_2_3_1) : (⟨S32x14x14x14, .f32⟩ : BufTy).Contents (Elt F) → (⟨S32x14x14x14, .f32⟩ : BufTy).Contents (Elt F))
  :: StableHlo.unary main_v86 main_v87 (broadcastInDim S32x1x14x14x14x1 ![0, 2, 3, 4] bcast_S32x14x14x14_S32x1x14x14x14x1_0_2_3_4 : (⟨S32x14x14x14, .f32⟩ : BufTy).Contents (Elt F) → (⟨S32x1x14x14x14x1, .f32⟩ : BufTy).Contents (Elt F))
  :: StableHlo.unary main_v2 main_v88 ((extractStridedSlice S32x14x14x14 ![0, 37, 0, 0] · slices_S32x51x14x14_S32x14x14x14_0_37_0_0) : (⟨S32x51x14x14, .f32⟩ : BufTy).Contents (Elt F) → (⟨S32x14x14x14, .f32⟩ : BufTy).Contents (Elt F))
  :: StableHlo.unary main_v88 main_v89 ((transpose S32x14x14x14 [0, 2, 3, 1] · transposes_S32x14x14x14_S32x14x14x14_0_2_3_1) : (⟨S32x14x14x14, .f32⟩ : BufTy).Contents (Elt F) → (⟨S32x14x14x14, .f32⟩ : BufTy).Contents (Elt F))
  :: StableHlo.unary main_v89 main_v90 (broadcastInDim S32x1x14x14x1x14 ![0, 2, 3, 5] bcast_S32x14x14x14_S32x1x14x14x1x14_0_2_3_5 : (⟨S32x14x14x14, .f32⟩ : BufTy).Contents (Elt F) → (⟨S32x1x14x14x1x14, .f32⟩ : BufTy).Contents (Elt F))
  :: StableHlo.unary main_v8 main_v91 ((extractStridedSlice S32x14x14x14 ![0, 23, 0, 0] · slices_S32x51x14x14_S32x14x14x14_0_23_0_0) : (⟨S32x51x14x14, .f32⟩ : BufTy).Contents (Elt F) → (⟨S32x14x14x14, .f32⟩ : BufTy).Contents (Elt F))
  :: StableHlo.unary main_v91 main_v92 (broadcastInDim S32x1x14x1x14x14 ![0, 2, 4, 5] bcast_S32x14x14x14_S32x1x14x1x14x14_0_2_4_5 : (⟨S32x14x14x14, .f32⟩ : BufTy).Contents (Elt F) → (⟨S32x1x14x1x14x14, .f32⟩ : BufTy).Contents (Elt F))
  :: StableHlo.unary main_v8 main_v93 ((extractStridedSlice S32x14x14x14 ![0, 37, 0, 0] · slices_S32x51x14x14_S32x14x14x14_0_37_0_0) : (⟨S32x51x14x14, .f32⟩ : BufTy).Contents (Elt F) → (⟨S32x14x14x14, .f32⟩ : BufTy).Contents (Elt F))
  :: StableHlo.unary main_v93 main_v94 (broadcastInDim S32x1x1x14x14x14 ![0, 3, 4, 5] bcast_S32x14x14x14_S32x1x1x14x14x14_0_3_4_5 : (⟨S32x14x14x14, .f32⟩ : BufTy).Contents (Elt F) → (⟨S32x1x1x14x14x14, .f32⟩ : BufTy).Contents (Elt F))
  :: StableHlo.nullary main_cst_1 (constant S_ .f32 0x3F000000#32)
  :: StableHlo.unary main_cst_1 main_v95 (broadcastInDim S32x20x14x14x1x1 ![] bcast_S_S32x20x14x14x1x1 : (⟨S_, .f32⟩ : BufTy).Contents (Elt F) → (⟨S32x20x14x14x1x1, .f32⟩ : BufTy).Contents (Elt F))
  :: StableHlo.binary main_v95 main_v79 main_v96 (mulf : (⟨S32x20x14x14x1x1, .f32⟩ : BufTy).Contents (Elt F) → (⟨S32x20x14x14x1x1, .f32⟩ : BufTy).Contents (Elt F) → (⟨S32x20x14x14x1x1, .f32⟩ : BufTy).Contents (Elt F))
  :: StableHlo.unary main_v96 main_v97 (broadcastInDim S32x20x14x14x14x14 ![0, 1, 2, 3, 4, 5] bcast_S32x20x14x14x1x1_S32x20x14x14x14x14_0_1_2_3_4_5 : (⟨S32x20x14x14x1x1, .f32⟩ : BufTy).Contents (Elt F) → (⟨S32x20x14x14x14x14, .f32⟩ : BufTy).Contents (Elt F))
  :: StableHlo.unary main_v84 main_v98 (broadcastInDim S32x20x14x14x14x14 ![0, 1, 2, 3, 4, 5] bcast_S32x20x1x1x14x14_S32x20x14x14x14x14_0_1_2_3_4_5 : (⟨S32x20x1x1x14x14, .f32⟩ : BufTy).Contents (Elt F) → (⟨S32x20x14x14x14x14, .f32⟩ : BufTy).Contents (Elt F))
  :: StableHlo.binary main_v97 main_v98 main_v99 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v87 main_v100 (broadcastInDim S32x20x14x14x14x14 ![0, 1, 2, 3, 4, 5] bcast_S32x1x14x14x14x1_S32x20x14x14x14x14_0_1_2_3_4_5 : (⟨S32x1x14x14x14x1, .f32⟩ : BufTy).Contents (Elt F) → (⟨S32x20x14x14x14x14, .f32⟩ : BufTy).Contents (Elt F))
  :: StableHlo.binary main_v99 main_v100 main_v101 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v90 main_v102 (broadcastInDim S32x20x14x14x14x14 ![0, 1, 2, 3, 4, 5] bcast_S32x1x14x14x1x14_S32x20x14x14x14x14_0_1_2_3_4_5 : (⟨S32x1x14x14x1x14, .f32⟩ : BufTy).Contents (Elt F) → (⟨S32x20x14x14x14x14, .f32⟩ : BufTy).Contents (Elt F))
  :: StableHlo.binary main_v101 main_v102 main_v103 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v92 main_v104 (broadcastInDim S32x20x14x14x14x14 ![0, 1, 2, 3, 4, 5] bcast_S32x1x14x1x14x14_S32x20x14x14x14x14_0_1_2_3_4_5 : (⟨S32x1x14x1x14x14, .f32⟩ : BufTy).Contents (Elt F) → (⟨S32x20x14x14x14x14, .f32⟩ : BufTy).Contents (Elt F))
  :: StableHlo.binary main_v103 main_v104 main_v105 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v94 main_v106 (broadcastInDim S32x20x14x14x14x14 ![0, 1, 2, 3, 4, 5] bcast_S32x1x1x14x14x14_S32x20x14x14x14x14_0_1_2_3_4_5 : (⟨S32x1x1x14x14x14, .f32⟩ : BufTy).Contents (Elt F) → (⟨S32x20x14x14x14x14, .f32⟩ : BufTy).Contents (Elt F))
  :: StableHlo.binary main_v105 main_v106 main_v107 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v4 main_v108 ((extractStridedSlice S32x1x14x14 ![0, 0, 0, 0] · slices_S32x51x14x14_S32x1x14x14_0_0_0_0) : (⟨S32x51x14x14, .f32⟩ : BufTy).Contents (Elt F) → (⟨S32x1x14x14, .f32⟩ : BufTy).Contents (Elt F))
  :: StableHlo.unary main_v4 main_v109 ((extractStridedSlice S32x20x14x14 ![0, 1, 0, 0] · slices_S32x51x14x14_S32x20x14x14_0_1_0_0) : (⟨S32x51x14x14, .f32⟩ : BufTy).Contents (Elt F) → (⟨S32x20x14x14, .f32⟩ : BufTy).Contents (Elt F))
  :: StableHlo.unary main_v108 main_v110 (broadcastInDim S32x20x14x14 ![0, 1, 2, 3] bcast_S32x1x14x14_S32x20x14x14_0_1_2_3 : (⟨S32x1x14x14, .f32⟩ : BufTy).Contents (Elt F) → (⟨S32x20x14x14, .f32⟩ : BufTy).Contents (Elt F))
  :: StableHlo.binary main_v110 main_v109 main_v111 (mulf : (⟨S32x20x14x14, .f32⟩ : BufTy).Contents (Elt F) → (⟨S32x20x14x14, .f32⟩ : BufTy).Contents (Elt F) → (⟨S32x20x14x14, .f32⟩ : BufTy).Contents (Elt F))
  :: StableHlo.unary main_v111 main_v112 (broadcastInDim S32x20x14x14x1x1 ![0, 1, 2, 3] bcast_S32x20x14x14_S32x20x14x14x1x1_0_1_2_3 : (⟨S32x20x14x14, .f32⟩ : BufTy).Contents (Elt F) → (⟨S32x20x14x14x1x1, .f32⟩ : BufTy).Contents (Elt F))
  :: StableHlo.unary main_v8 main_v113 ((extractStridedSlice S32x1x14x14 ![0, 0, 0, 0] · slices_S32x51x14x14_S32x1x14x14_0_0_0_0) : (⟨S32x51x14x14, .f32⟩ : BufTy).Contents (Elt F) → (⟨S32x1x14x14, .f32⟩ : BufTy).Contents (Elt F))
  :: StableHlo.unary main_v8 main_v114 ((extractStridedSlice S32x20x14x14 ![0, 1, 0, 0] · slices_S32x51x14x14_S32x20x14x14_0_1_0_0) : (⟨S32x51x14x14, .f32⟩ : BufTy).Contents (Elt F) → (⟨S32x20x14x14, .f32⟩ : BufTy).Contents (Elt F))
  :: StableHlo.unary main_v113 main_v115 (broadcastInDim S32x20x14x14 ![0, 1, 2, 3] bcast_S32x1x14x14_S32x20x14x14_0_1_2_3 : (⟨S32x1x14x14, .f32⟩ : BufTy).Contents (Elt F) → (⟨S32x20x14x14, .f32⟩ : BufTy).Contents (Elt F))
  :: StableHlo.binary main_v115 main_v114 main_v116 (mulf : (⟨S32x20x14x14, .f32⟩ : BufTy).Contents (Elt F) → (⟨S32x20x14x14, .f32⟩ : BufTy).Contents (Elt F) → (⟨S32x20x14x14, .f32⟩ : BufTy).Contents (Elt F))
  :: [])

set_option maxRecDepth 8192 in
set_option maxHeartbeats 40000000 in
/-- That window of the reference's program is those operations run in order. -/
theorem part1_eq (c : Dev nD) : main_part1 (F := F) c = seq ops1 := rfl

set_option maxRecDepth 8192 in
theorem ops1_sub : (ops1 : List (HloOp τ sig (Elt F))).Forall fun op => op.bufs ⊆ tcRefs τ sig := by
  unfold ops1
  exact ⟨StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub ..⟩

set_option maxRecDepth 8192 in
theorem ops1_fresh : ∀ op ∈ (ops1 : List (HloOp τ sig (Elt F))), op.fresh = ∅ := by
  unfold ops1
  intro _ h
  (repeat (cases h with | head => rfl | tail _ h => ?_))
  exact nomatch h

set_option maxHeartbeats 40000000 in
/-- The reference's statements 121 … 145, in order. -/
def ops2 : List (HloOp τ sig (Elt F)) :=
  ( StableHlo.unary main_v116 main_v117 (broadcastInDim S32x20x1x1x14x14 ![0, 1, 4, 5] bcast_S32x20x14x14_S32x20x1x1x14x14_0_1_4_5 : (⟨S32x20x14x14, .f32⟩ : BufTy).Contents (Elt F) → (⟨S32x20x1x1x14x14, .f32⟩ : BufTy).Contents (Elt F))
  :: StableHlo.unary main_v4 main_v118 ((extractStridedSlice S32x14x14x14 ![0, 23, 0, 0] · slices_S32x51x14x14_S32x14x14x14_0_23_0_0) : (⟨S32x51x14x14, .f32⟩ : BufTy).Contents (Elt F) → (⟨S32x14x14x14, .f32⟩ : BufTy).Contents (Elt F))
  :: StableHlo.unary main_v118 main_v119 ((transpose S32x14x14x14 [0, 2, 3, 1] · transposes_S32x14x14x14_S32x14x14x14_0_2_3_1) : (⟨S32x14x14x14, .f32⟩ : BufTy).Contents (Elt F) → (⟨S32x14x14x14, .f32⟩ : BufTy).Contents (Elt F))
  :: StableHlo.unary main_v119 main_v120 (broadcastInDim S32x1x14x14x14x1 ![0, 2, 3, 4] bcast_S32x14x14x14_S32x1x14x14x14x1_0_2_3_4 : (⟨S32x14x14x14, .f32⟩ : BufTy).Contents (Elt F) → (⟨S32x1x14x14x14x1, .f32⟩ : BufTy).Contents (Elt F))
  :: StableHlo.unary main_v4 main_v121 ((extractStridedSlice S32x14x14x14 ![0, 37, 0, 0] · slices_S32x51x14x14_S32x14x14x14_0_37_0_0) : (⟨S32x51x14x14, .f32⟩ : BufTy).Contents (Elt F) → (⟨S32x14x14x14, .f32⟩ : BufTy).Contents (Elt F))
  :: StableHlo.unary main_v121 main_v122 ((transpose S32x14x14x14 [0, 2, 3, 1] · transposes_S32x14x14x14_S32x14x14x14_0_2_3_1) : (⟨S32x14x14x14, .f32⟩ : BufTy).Contents (Elt F) → (⟨S32x14x14x14, .f32⟩ : BufTy).Contents (Elt F))
  :: StableHlo.unary main_v122 main_v123 (broadcastInDim S32x1x14x14x1x14 ![0, 2, 3, 5] bcast_S32x14x14x14_S32x1x14x14x1x14_0_2_3_5 : (⟨S32x14x14x14, .f32⟩ : BufTy).Contents (Elt F) → (⟨S32x1x14x14x1x14, .f32⟩ : BufTy).Contents (Elt F))
  :: StableHlo.unary main_v8 main_v124 ((extractStridedSlice S32x14x14x14 ![0, 23, 0, 0] · slices_S32x51x14x14_S32x14x14x14_0_23_0_0) : (⟨S32x51x14x14, .f32⟩ : BufTy).Contents (Elt F) → (⟨S32x14x14x14, .f32⟩ : BufTy).Contents (Elt F))
  :: StableHlo.unary main_v124 main_v125 (broadcastInDim S32x1x14x1x14x14 ![0, 2, 4, 5] bcast_S32x14x14x14_S32x1x14x1x14x14_0_2_4_5 : (⟨S32x14x14x14, .f32⟩ : BufTy).Contents (Elt F) → (⟨S32x1x14x1x14x14, .f32⟩ : BufTy).Contents (Elt F))
  :: StableHlo.unary main_v8 main_v126 ((extractStridedSlice S32x14x14x14 ![0, 37, 0, 0] · slices_S32x51x14x14_S32x14x14x14_0_37_0_0) : (⟨S32x51x14x14, .f32⟩ : BufTy).Contents (Elt F) → (⟨S32x14x14x14, .f32⟩ : BufTy).Contents (Elt F))
  :: StableHlo.unary main_v126 main_v127 (broadcastInDim S32x1x1x14x14x14 ![0, 3, 4, 5] bcast_S32x14x14x14_S32x1x1x14x14x14_0_3_4_5 : (⟨S32x14x14x14, .f32⟩ : BufTy).Contents (Elt F) → (⟨S32x1x1x14x14x14, .f32⟩ : BufTy).Contents (Elt F))
  :: StableHlo.nullary main_cst_2 (constant S_ .f32 0x3F000000#32)
  :: StableHlo.unary main_cst_2 main_v128 (broadcastInDim S32x20x14x14x1x1 ![] bcast_S_S32x20x14x14x1x1 : (⟨S_, .f32⟩ : BufTy).Contents (Elt F) → (⟨S32x20x14x14x1x1, .f32⟩ : BufTy).Contents (Elt F))
  :: StableHlo.binary main_v128 main_v112 main_v129 (mulf : (⟨S32x20x14x14x1x1, .f32⟩ : BufTy).Contents (Elt F) → (⟨S32x20x14x14x1x1, .f32⟩ : BufTy).Contents (Elt F) → (⟨S32x20x14x14x1x1, .f32⟩ : BufTy).Contents (Elt F))
  :: StableHlo.unary main_v129 main_v130 (broadcastInDim S32x20x14x14x14x14 ![0, 1, 2, 3, 4, 5] bcast_S32x20x14x14x1x1_S32x20x14x14x14x14_0_1_2_3_4_5 : (⟨S32x20x14x14x1x1, .f32⟩ : BufTy).Contents (Elt F) → (⟨S32x20x14x14x14x14, .f32⟩ : BufTy).Contents (Elt F))
  :: StableHlo.unary main_v117 main_v131 (broadcastInDim S32x20x14x14x14x14 ![0, 1, 2, 3, 4, 5] bcast_S32x20x1x1x14x14_S32x20x14x14x14x14_0_1_2_3_4_5 : (⟨S32x20x1x1x14x14, .f32⟩ : BufTy).Contents (Elt F) → (⟨S32x20x14x14x14x14, .f32⟩ : BufTy).Contents (Elt F))
  :: StableHlo.binary main_v130 main_v131 main_v132 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v120 main_v133 (broadcastInDim S32x20x14x14x14x14 ![0, 1, 2, 3, 4, 5] bcast_S32x1x14x14x14x1_S32x20x14x14x14x14_0_1_2_3_4_5 : (⟨S32x1x14x14x14x1, .f32⟩ : BufTy).Contents (Elt F) → (⟨S32x20x14x14x14x14, .f32⟩ : BufTy).Contents (Elt F))
  :: StableHlo.binary main_v132 main_v133 main_v134 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v123 main_v135 (broadcastInDim S32x20x14x14x14x14 ![0, 1, 2, 3, 4, 5] bcast_S32x1x14x14x1x14_S32x20x14x14x14x14_0_1_2_3_4_5 : (⟨S32x1x14x14x1x14, .f32⟩ : BufTy).Contents (Elt F) → (⟨S32x20x14x14x14x14, .f32⟩ : BufTy).Contents (Elt F))
  :: StableHlo.binary main_v134 main_v135 main_v136 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v125 main_v137 (broadcastInDim S32x20x14x14x14x14 ![0, 1, 2, 3, 4, 5] bcast_S32x1x14x1x14x14_S32x20x14x14x14x14_0_1_2_3_4_5 : (⟨S32x1x14x1x14x14, .f32⟩ : BufTy).Contents (Elt F) → (⟨S32x20x14x14x14x14, .f32⟩ : BufTy).Contents (Elt F))
  :: StableHlo.binary main_v136 main_v137 main_v138 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: StableHlo.unary main_v127 main_v139 (broadcastInDim S32x20x14x14x14x14 ![0, 1, 2, 3, 4, 5] bcast_S32x1x1x14x14x14_S32x20x14x14x14x14_0_1_2_3_4_5 : (⟨S32x1x1x14x14x14, .f32⟩ : BufTy).Contents (Elt F) → (⟨S32x20x14x14x14x14, .f32⟩ : BufTy).Contents (Elt F))
  :: StableHlo.binary main_v138 main_v139 main_v140 (mulf : (⟨S32x20x14x14x14x14, .f32⟩ : BufTy).Contents (Elt F) → (⟨S32x20x14x14x14x14, .f32⟩ : BufTy).Contents (Elt F) → (⟨S32x20x14x14x14x14, .f32⟩ : BufTy).Contents (Elt F))
  :: [])

set_option maxRecDepth 8192 in
set_option maxHeartbeats 40000000 in
/-- That window of the reference's program is those operations run in order. -/
theorem part2_eq (c : Dev nD) : main_part2 (F := F) c = seq ops2 := rfl

set_option maxRecDepth 8192 in
theorem ops2_sub : (ops2 : List (HloOp τ sig (Elt F))).Forall fun op => op.bufs ⊆ tcRefs τ sig := by
  unfold ops2
  exact ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

set_option maxRecDepth 8192 in
theorem ops2_fresh : ∀ op ∈ (ops2 : List (HloOp τ sig (Elt F))), op.fresh = ∅ := by
  unfold ops2
  intro _ h
  (repeat (cases h with | head => rfl | tail _ h => ?_))
  exact nomatch h

/-- The whole program is the three windows' operations run in order. -/
theorem main_eq (c : Dev nD) : main (F := F) c = seq (ops0 ++ (ops1 ++ ops2)) := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops0 ++ (ops1 ++ ops2) : List (HloOp τ sig (Elt F))).Forall fun op => op.bufs ⊆ tcRefs τ sig := by
  refine List.forall_iff_forall_mem.mpr fun op hop => ?_
  rcases List.mem_append.mp hop with h | h
  · exact List.forall_iff_forall_mem.mp ops0_sub op h
  · rcases List.mem_append.mp h with h | h
    · exact List.forall_iff_forall_mem.mp ops1_sub op h
    · exact List.forall_iff_forall_mem.mp ops2_sub op h

theorem ops_fresh : ∀ op ∈ (ops0 ++ (ops1 ++ ops2) : List (HloOp τ sig (Elt F))), op.fresh = ∅ := by
  intro op hop
  rcases List.mem_append.mp hop with h | h
  · exact ops0_fresh op h
  · rcases List.mem_append.mp h with h | h
    · exact ops1_fresh op h
    · exact ops2_fresh op h

/-- Operations applied one list after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Every weakly fair execution of the reference terminates, and every buffer ends at what the three windows' operations,
    applied in order to the launch contents, leave there. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after ops2 (after ops1 (after ops0 (launchContents m d))) (Proc.devRef .tc b) :=
  (θ_run defs _ _).mono (fun _ h d b => by rw [h d b, after_append, after_append])
    (run_seq scopedRefs_eq scopedSems_eq defs main (fun _ => ops0 ++ (ops1 ++ ops2)) main_eq (fun _ => ops_sub) m ρ
      (hfresh := fun _ => ops_fresh))

end Cert.ReferenceIdeal.Line

end
-- ==== Proof.LinkProduct.lean ====
/-
  The point-linking product, as one function of a corner group and a center group.

  The input holds, for each batch entry, four groups of 51 channels over a 14 × 14 grid: two "corner" groups and
  two "center" groups.  In a group, channel 0 is an existence probability, channels 1 … 20 are class
  probabilities, channels 23 … 36 are link probabilities along x and channels 37 … 50 are link probabilities
  along y.  For a corner group `cor`, a center group `cen`, a class `c`, a corner position `(ix, iy)` and a
  center position `(sx, sy)` the linking probability is the product of nine numbers:

      h · cor[0, ix, iy] · cor[1 + c, ix, iy] · cen[0, sx, sy] · cen[1 + c, sx, sy]
        · cor[23 + sx, ix, iy] · cor[37 + sy, ix, iy] · cen[23 + ix, sx, sy] · cen[37 + iy, sx, sy]

  with `h` a fixed scalar (one half).  `linkProduct` is that product, associated the way a left-to-right chain
  of multiplications associates it; `linkProduct_eq_grouped` re-associates it into (class part) · (corner links ·
  center links).  Multiplication on the extended reals is commutative and associative at every value, the
  infinities included, so no finiteness is needed.
-/
import Idealize.ShloMosaic.PureOps.Ideal
import Idealize.ShloMosaic.Lib.ValueIdx
import Idealize.ShloMosaic.Lib.ValueIdxRank6

noncomputable section

namespace Cert.LinkProduct

open Idealize.ShloMosaic Idealize.ShloMosaic.ValueIdx

/-- The scalar both programs multiply by: the float word of one half, read as an extended real. -/
abbrev half : EReal := Ideal.ofBits .f32 0x3F000000#32

/-- A position of the 14 × 14 grid as one number `a · 14 + b` below 196. -/
def pos (a b : Fin 14) : Fin 196 := ⟨a.val * 14 + b.val, by have := a.isLt; have := b.isLt; omega⟩

@[simp] theorem pos_val (a b : Fin 14) : (pos a b).val = a.val * 14 + b.val := rfl

/-- Every number below 196 is the position of its quotient and remainder by 14. -/
theorem pos_div_mod (p : Fin 196) : pos ⟨p.val / 14, by have := p.isLt; omega⟩ ⟨p.val % 14, Nat.mod_lt _ (by norm_num)⟩ = p :=
  Fin.ext (by show p.val / 14 * 14 + p.val % 14 = p.val; omega)

/-- The existence channel of a group. -/
def chExist : Fin 51 := ⟨0, by norm_num⟩
/-- The class channel `1 + c`. -/
def chClass (c : Fin 20) : Fin 51 := ⟨1 + c.val, by have := c.isLt; omega⟩
/-- The x-link channel `23 + s`. -/
def chLinkX (s : Fin 14) : Fin 51 := ⟨23 + s.val, by have := s.isLt; omega⟩
/-- The y-link channel `37 + s`. -/
def chLinkY (s : Fin 14) : Fin 51 := ⟨37 + s.val, by have := s.isLt; omega⟩

@[simp] theorem chExist_val : chExist.val = 0 := rfl
@[simp] theorem chClass_val (c : Fin 20) : (chClass c).val = 1 + c.val := rfl
@[simp] theorem chLinkX_val (s : Fin 14) : (chLinkX s).val = 23 + s.val := rfl
@[simp] theorem chLinkY_val (s : Fin 14) : (chLinkY s).val = 37 + s.val := rfl

/-- One group: 32 batch entries, 51 channels, a 14 × 14 grid. -/
abbrev Group : Type := (⟨4, ![32, 51, 14, 14]⟩ : Shape).Idx → EReal

/-- The class part at a position: existence probability times class probability. -/
def classAt (g : Group) (n : Fin 32) (c : Fin 20) (a b : Fin 14) : EReal :=
  g (ix4 n chExist a b) * g (ix4 n (chClass c) a b)

/-- The two link probabilities a group at position `(a, b)` holds toward the other position `(s, t)`: along x toward
    `s`, along y toward `t`. -/
def linksAt (g : Group) (n : Fin 32) (a b s t : Fin 14) : EReal :=
  g (ix4 n (chLinkX s) a b) * g (ix4 n (chLinkY t) a b)

/-- The linking probability, multiplied left to right. -/
def linkProduct (h : EReal) (cor cen : Group) : (⟨6, ![32, 20, 14, 14, 14, 14]⟩ : Shape).Idx → EReal := fun i =>
  (((((h * (cor (ix4 (i 0) chExist (i 2) (i 3)) * cor (ix4 (i 0) (chClass (i 1)) (i 2) (i 3))))
      * (cen (ix4 (i 0) chExist (i 4) (i 5)) * cen (ix4 (i 0) (chClass (i 1)) (i 4) (i 5))))
      * cor (ix4 (i 0) (chLinkX (i 4)) (i 2) (i 3)))
      * cor (ix4 (i 0) (chLinkY (i 5)) (i 2) (i 3)))
      * cen (ix4 (i 0) (chLinkX (i 2)) (i 4) (i 5)))
      * cen (ix4 (i 0) (chLinkY (i 3)) (i 4) (i 5))

/-- The same product grouped as (scaled class part of the corner · class part of the center) · (the corner's links
    toward the center · the center's links toward the corner): associativity of the product alone. -/
theorem linkProduct_eq_grouped (h : EReal) (cor cen : Group) (n : Fin 32) (c : Fin 20) (ix iy sx sy : Fin 14) :
    linkProduct h cor cen (ix6 n c ix iy sx sy)
      = ((h * classAt cor n c ix iy) * classAt cen n c sx sy) * (linksAt cor n ix iy sx sy * linksAt cen n sx sy ix iy) := by
  show (((((h * (cor (ix4 n chExist ix iy) * cor (ix4 n (chClass c) ix iy)))
      * (cen (ix4 n chExist sx sy) * cen (ix4 n (chClass c) sx sy)))
      * cor (ix4 n (chLinkX sx) ix iy)) * cor (ix4 n (chLinkY sy) ix iy))
      * cen (ix4 n (chLinkX ix) sx sy)) * cen (ix4 n (chLinkY iy) sx sy) = _
  unfold classAt linksAt
  simp only [mul_assoc]

end Cert.LinkProduct

end
-- ==== Proof.RefLinks.lean ====
/-
  The reference's product of a corner group and a center group is the point-linking product.

  The reference slices the existence, class and link channels out of the two groups, moves each slice onto the axes of
  the six-dimensional result `(n, c, ix, iy, sx, sy)` by broadcasts — the corner's link slices after a transpose that puts
  their channel axis last — and multiplies left to right, the scalar one half first:

      (((((h · cornerClass) · centerClass) · cornerX) · cornerY) · centerX) · centerY.

  Each of these operations reads ONE entry of its operand per entry of its result, with no arithmetic on the
  coordinates beyond a literal channel offset; so at an index the product is nine entries of the two groups multiplied in
  that order, which is `linkProduct` by definition.
-/
import proofs.«117441_j60911226191951_2_alg».proof.Proof.Gen.ReferenceIdeal
import proofs.«117441_j60911226191951_2_alg».proof.Proof.LinkProduct
import Idealize.ShloMosaic.Lib.Pipeline.Value
import Idealize.ShloMosaic.Lib.ValueIdx
import Idealize.ShloMosaic.Lib.ValueIdxRank6

set_option maxRecDepth 16384

noncomputable section

namespace Cert.ReferenceIdeal.Links

open Cert.ReferenceIdeal Cert.ReferenceIdeal.Gen Idealize.ShloMosaic Idealize.ShloMosaic.TcCoe Idealize.ShloMosaic.ValueIdx
open Cert.LinkProduct

/-- Group `k` of the input: a reshape that splits the channel axis into 4 × 51, a slice of the group axis, a reshape that
    drops it. -/
def group (k : Nat) (hs : S32x4x51x14x14.Slices ![0, k, 0, 0, 0] S32x1x51x14x14) (x : FVec Ideal S32x204x14x14 .f32) :
    FVec Ideal S32x51x14x14 .f32 :=
  shapeCast S32x51x14x14 (extractStridedSlice S32x1x51x14x14 ![0, k, 0, 0, 0]
    (shapeCast S32x4x51x14x14 x shapeCasts_S32x204x14x14_S32x4x51x14x14) hs) shapeCasts_S32x1x51x14x14_S32x51x14x14

/-- Existence channel (broadcast over the classes) times the class channels. -/
def classPart (G : FVec Ideal S32x51x14x14 .f32) : FVec Ideal S32x20x14x14 .f32 :=
  mulf (broadcastInDim S32x20x14x14 ![0, 1, 2, 3] bcast_S32x1x14x14_S32x20x14x14_0_1_2_3
      (extractStridedSlice S32x1x14x14 ![0, 0, 0, 0] G slices_S32x51x14x14_S32x1x14x14_0_0_0_0))
    (extractStridedSlice S32x20x14x14 ![0, 1, 0, 0] G slices_S32x51x14x14_S32x20x14x14_0_1_0_0)

/-- The corner's class part on the axes `(n, c, ix, iy, 1, 1)`. -/
def cornerClass (G : FVec Ideal S32x51x14x14 .f32) : FVec Ideal S32x20x14x14x1x1 .f32 :=
  broadcastInDim S32x20x14x14x1x1 ![0, 1, 2, 3] bcast_S32x20x14x14_S32x20x14x14x1x1_0_1_2_3 (classPart G)
/-- The center's class part on the axes `(n, c, 1, 1, sx, sy)`. -/
def centerClass (G : FVec Ideal S32x51x14x14 .f32) : FVec Ideal S32x20x1x1x14x14 .f32 :=
  broadcastInDim S32x20x1x1x14x14 ![0, 1, 4, 5] bcast_S32x20x14x14_S32x20x1x1x14x14_0_1_4_5 (classPart G)
/-- The corner's x-links on the axes `(n, 1, ix, iy, sx, 1)`. -/
def cornerX (G : FVec Ideal S32x51x14x14 .f32) : FVec Ideal S32x1x14x14x14x1 .f32 :=
  broadcastInDim S32x1x14x14x14x1 ![0, 2, 3, 4] bcast_S32x14x14x14_S32x1x14x14x14x1_0_2_3_4
    (transpose S32x14x14x14 [0, 2, 3, 1] (extractStridedSlice S32x14x14x14 ![0, 23, 0, 0] G slices_S32x51x14x14_S32x14x14x14_0_23_0_0)
      transposes_S32x14x14x14_S32x14x14x14_0_2_3_1)
/-- The corner's y-links on the axes `(n, 1, ix, iy, 1, sy)`. -/
def cornerY (G : FVec Ideal S32x51x14x14 .f32) : FVec Ideal S32x1x14x14x1x14 .f32 :=
  broadcastInDim S32x1x14x14x1x14 ![0, 2, 3, 5] bcast_S32x14x14x14_S32x1x14x14x1x14_0_2_3_5
    (transpose S32x14x14x14 [0, 2, 3, 1] (extractStridedSlice S32x14x14x14 ![0, 37, 0, 0] G slices_S32x51x14x14_S32x14x14x14_0_37_0_0)
      transposes_S32x14x14x14_S32x14x14x14_0_2_3_1)
/-- The center's x-link channels, as sliced. -/
def centerXSlice (G : FVec Ideal S32x51x14x14 .f32) : FVec Ideal S32x14x14x14 .f32 :=
  extractStridedSlice S32x14x14x14 ![0, 23, 0, 0] G slices_S32x51x14x14_S32x14x14x14_0_23_0_0
/-- The center's x-links on the axes `(n, 1, ix, 1, sx, sy)`. -/
def centerX (G : FVec Ideal S32x51x14x14 .f32) : FVec Ideal S32x1x14x1x14x14 .f32 :=
  broadcastInDim S32x1x14x1x14x14 ![0, 2, 4, 5] bcast_S32x14x14x14_S32x1x14x1x14x14_0_2_4_5 (centerXSlice G)
/-- The center's y-links on the axes `(n, 1, 1, iy, sx, sy)`. -/
def centerY (G : FVec Ideal S32x51x14x14 .f32) : FVec Ideal S32x1x1x14x14x14 .f32 :=
  broadcastInDim S32x1x1x14x14x14 ![0, 3, 4, 5] bcast_S32x14x14x14_S32x1x1x14x14x14_0_3_4_5
    (extractStridedSlice S32x14x14x14 ![0, 37, 0, 0] G slices_S32x51x14x14_S32x14x14x14_0_37_0_0)

/-- The six factors broadcast to the result's shape and multiplied left to right, one half first. -/
def product (cc : FVec Ideal S32x20x14x14x1x1 .f32) (zc : FVec Ideal S32x20x1x1x14x14 .f32)
    (cx : FVec Ideal S32x1x14x14x14x1 .f32) (cy : FVec Ideal S32x1x14x14x1x14 .f32)
    (zx : FVec Ideal S32x1x14x1x14x14 .f32) (zy : FVec Ideal S32x1x1x14x14x14 .f32) : FVec Ideal S32x20x14x14x14x14 .f32 :=
  mulf (mulf (mulf (mulf (mulf
    (broadcastInDim S32x20x14x14x14x14 ![0, 1, 2, 3, 4, 5] bcast_S32x20x14x14x1x1_S32x20x14x14x14x14_0_1_2_3_4_5
      (mulf (broadcastInDim S32x20x14x14x1x1 ![] bcast_S_S32x20x14x14x1x1 (constant (F := Ideal) S_ .f32 0x3F000000#32)) cc))
    (broadcastInDim S32x20x14x14x14x14 ![0, 1, 2, 3, 4, 5] bcast_S32x20x1x1x14x14_S32x20x14x14x14x14_0_1_2_3_4_5 zc))
    (broadcastInDim S32x20x14x14x14x14 ![0, 1, 2, 3, 4, 5] bcast_S32x1x14x14x14x1_S32x20x14x14x14x14_0_1_2_3_4_5 cx))
    (broadcastInDim S32x20x14x14x14x14 ![0, 1, 2, 3, 4, 5] bcast_S32x1x14x14x1x14_S32x20x14x14x14x14_0_1_2_3_4_5 cy))
    (broadcastInDim S32x20x14x14x14x14 ![0, 1, 2, 3, 4, 5] bcast_S32x1x14x1x14x14_S32x20x14x14x14x14_0_1_2_3_4_5 zx))
    (broadcastInDim S32x20x14x14x14x14 ![0, 1, 2, 3, 4, 5] bcast_S32x1x1x14x14x14_S32x20x14x14x14x14_0_1_2_3_4_5 zy)

/-- The reference's result for a corner group and a center group. -/
def refProduct (cor cen : FVec Ideal S32x51x14x14 .f32) : FVec Ideal S32x20x14x14x14x14 .f32 :=
  product (cornerClass cor) (centerClass cen) (cornerX cor) (cornerY cor) (centerX cen) (centerY cen)

/-- The class part at batch entry `n`, class `c`, position `(a, b)`. -/
theorem classPart_apply (G : FVec Ideal S32x51x14x14 .f32) (n : Fin 32) (c : Fin 20) (a b : Fin 14) :
    classPart G (ix4 n c a b) = classAt G n c a b := by
  unfold classPart classAt
  rw [mulf_apply,
      broadcastInDim_apply _ _ _ (ix4 n c a b) (ix4 n 0 a b) (fun d => match d with
          | ⟨0, _⟩ => rfl
          | ⟨1, _⟩ => rfl
          | ⟨2, _⟩ => rfl
          | ⟨3, _⟩ => rfl),
      extractStridedSlice_apply _ _ _ (ix4 n 0 a b) (ix4 n chExist a b) (fun d => match d with
          | ⟨0, _⟩ => by show n.val = 0 + n.val; omega
          | ⟨1, _⟩ => by show (0 : ℕ) = 0 + (0 : Fin 1).val; simp
          | ⟨2, _⟩ => by show a.val = 0 + a.val; omega
          | ⟨3, _⟩ => by show b.val = 0 + b.val; omega),
      extractStridedSlice_apply _ _ _ (ix4 n c a b) (ix4 n (chClass c) a b) (fun d => match d with
          | ⟨0, _⟩ => by show n.val = 0 + n.val; omega
          | ⟨1, _⟩ => by show 1 + c.val = 1 + c.val; rfl
          | ⟨2, _⟩ => by show a.val = 0 + a.val; omega
          | ⟨3, _⟩ => by show b.val = 0 + b.val; omega)]

/-- A link slice with its channel axis moved last, at `(n, a, b, s)`: channel `off + s` of the group at position `(a, b)`. -/
theorem transposed_slice_apply (off : Nat) (hs : S32x51x14x14.Slices ![0, off, 0, 0] S32x14x14x14) (G : FVec Ideal S32x51x14x14 .f32)
    (n : Fin 32) (a b s : Fin 14) (ch : Fin 51) (hch : ch.val = off + s.val) :
    transpose S32x14x14x14 [0, 2, 3, 1] (extractStridedSlice S32x14x14x14 ![0, off, 0, 0] G hs)
      transposes_S32x14x14x14_S32x14x14x14_0_2_3_1 (ix4 n a b s) = G (ix4 n ch a b) := by
  rw [transpose_apply _ _ _ (ix4 n a b s) (ix4 n s a b) (fun d => match d with
          | ⟨0, _⟩ => rfl
          | ⟨1, _⟩ => rfl
          | ⟨2, _⟩ => rfl
          | ⟨3, _⟩ => rfl),
      extractStridedSlice_apply _ _ _ (ix4 n s a b) (ix4 n ch a b) (fun d => match d with
          | ⟨0, _⟩ => by show n.val = 0 + n.val; omega
          | ⟨1, _⟩ => by show ch.val = off + s.val; exact hch
          | ⟨2, _⟩ => by show a.val = 0 + a.val; omega
          | ⟨3, _⟩ => by show b.val = 0 + b.val; omega)]

/-- A link slice at `(n, k, s, t)`: channel `off + k` of the group at position `(s, t)`. -/
theorem slice_apply (off : Nat) (hs : S32x51x14x14.Slices ![0, off, 0, 0] S32x14x14x14) (G : FVec Ideal S32x51x14x14 .f32)
    (n : Fin 32) (k s t : Fin 14) (ch : Fin 51) (hch : ch.val = off + k.val) :
    extractStridedSlice S32x14x14x14 ![0, off, 0, 0] G hs (ix4 n k s t) = G (ix4 n ch s t) := by
  rw [extractStridedSlice_apply _ _ _ (ix4 n k s t) (ix4 n ch s t) (fun d => match d with
          | ⟨0, _⟩ => by show n.val = 0 + n.val; omega
          | ⟨1, _⟩ => by show ch.val = off + k.val; exact hch
          | ⟨2, _⟩ => by show s.val = 0 + s.val; omega
          | ⟨3, _⟩ => by show t.val = 0 + t.val; omega)]

/-- The reference's product IS the point-linking product. -/
theorem refProduct_eq (cor cen : FVec Ideal S32x51x14x14 .f32) : refProduct cor cen = linkProduct half cor cen := by
  funext i
  obtain ⟨n, c, ix, iy, sx, sy, rfl⟩ : ∃ (n : Fin 32) (c : Fin 20) (ix iy sx sy : Fin 14), i = ix6 n c ix iy sx sy :=
    ⟨i 0, i 1, i 2, i 3, i 4, i 5, eq_ix6 i⟩
  unfold refProduct product cornerClass centerClass cornerX cornerY centerX centerXSlice centerY
  rw [mulf_apply, mulf_apply, mulf_apply, mulf_apply, mulf_apply,
      broadcastInDim_apply _ _ _ (ix6 n c ix iy sx sy) (ix6 n c ix iy 0 0) (fun d => match d with
          | ⟨0, _⟩ => rfl
          | ⟨1, _⟩ => rfl
          | ⟨2, _⟩ => rfl
          | ⟨3, _⟩ => rfl
          | ⟨4, _⟩ => rfl
          | ⟨5, _⟩ => rfl),
      mulf_apply,
      broadcastInDim_apply _ _ _ (ix6 n c ix iy 0 0) ix0 (fun d => d.elim0),
      constant_apply,
      broadcastInDim_apply _ _ _ (ix6 n c ix iy 0 0) (ix4 n c ix iy) (fun d => match d with
          | ⟨0, _⟩ => rfl
          | ⟨1, _⟩ => rfl
          | ⟨2, _⟩ => rfl
          | ⟨3, _⟩ => rfl),
      classPart_apply,
      broadcastInDim_apply _ _ _ (ix6 n c ix iy sx sy) (ix6 n c 0 0 sx sy) (fun d => match d with
          | ⟨0, _⟩ => rfl
          | ⟨1, _⟩ => rfl
          | ⟨2, _⟩ => rfl
          | ⟨3, _⟩ => rfl
          | ⟨4, _⟩ => rfl
          | ⟨5, _⟩ => rfl),
      broadcastInDim_apply _ _ _ (ix6 n c 0 0 sx sy) (ix4 n c sx sy) (fun d => match d with
          | ⟨0, _⟩ => rfl
          | ⟨1, _⟩ => rfl
          | ⟨2, _⟩ => rfl
          | ⟨3, _⟩ => rfl),
      classPart_apply,
      broadcastInDim_apply _ _ _ (ix6 n c ix iy sx sy) (ix6 n 0 ix iy sx 0) (fun d => match d with
          | ⟨0, _⟩ => rfl
          | ⟨1, _⟩ => rfl
          | ⟨2, _⟩ => rfl
          | ⟨3, _⟩ => rfl
          | ⟨4, _⟩ => rfl
          | ⟨5, _⟩ => rfl),
      broadcastInDim_apply _ _ _ (ix6 n 0 ix iy sx 0) (ix4 n ix iy sx) (fun d => match d with
          | ⟨0, _⟩ => rfl
          | ⟨1, _⟩ => rfl
          | ⟨2, _⟩ => rfl
          | ⟨3, _⟩ => rfl),
      transposed_slice_apply 23 _ cor n ix iy sx (chLinkX sx) rfl,
      broadcastInDim_apply _ _ _ (ix6 n c ix iy sx sy) (ix6 n 0 ix iy 0 sy) (fun d => match d with
          | ⟨0, _⟩ => rfl
          | ⟨1, _⟩ => rfl
          | ⟨2, _⟩ => rfl
          | ⟨3, _⟩ => rfl
          | ⟨4, _⟩ => rfl
          | ⟨5, _⟩ => rfl),
      broadcastInDim_apply _ _ _ (ix6 n 0 ix iy 0 sy) (ix4 n ix iy sy) (fun d => match d with
          | ⟨0, _⟩ => rfl
          | ⟨1, _⟩ => rfl
          | ⟨2, _⟩ => rfl
          | ⟨3, _⟩ => rfl),
      transposed_slice_apply 37 _ cor n ix iy sy (chLinkY sy) rfl,
      broadcastInDim_apply _ _ _ (ix6 n c ix iy sx sy) (ix6 n 0 ix 0 sx sy) (fun d => match d with
          | ⟨0, _⟩ => rfl
          | ⟨1, _⟩ => rfl
          | ⟨2, _⟩ => rfl
          | ⟨3, _⟩ => rfl
          | ⟨4, _⟩ => rfl
          | ⟨5, _⟩ => rfl),
      broadcastInDim_apply _ _ _ (ix6 n 0 ix 0 sx sy) (ix4 n ix sx sy) (fun d => match d with
          | ⟨0, _⟩ => rfl
          | ⟨1, _⟩ => rfl
          | ⟨2, _⟩ => rfl
          | ⟨3, _⟩ => rfl),
      slice_apply 23 _ cen n ix sx sy (chLinkX ix) rfl,
      broadcastInDim_apply _ _ _ (ix6 n c ix iy sx sy) (ix6 n 0 0 iy sx sy) (fun d => match d with
          | ⟨0, _⟩ => rfl
          | ⟨1, _⟩ => rfl
          | ⟨2, _⟩ => rfl
          | ⟨3, _⟩ => rfl
          | ⟨4, _⟩ => rfl
          | ⟨5, _⟩ => rfl),
      broadcastInDim_apply _ _ _ (ix6 n 0 0 iy sx sy) (ix4 n iy sx sy) (fun d => match d with
          | ⟨0, _⟩ => rfl
          | ⟨1, _⟩ => rfl
          | ⟨2, _⟩ => rfl
          | ⟨3, _⟩ => rfl),
      slice_apply 37 _ cen n iy sx sy (chLinkY iy) rfl]
  rfl

end Cert.ReferenceIdeal.Links

end
-- ==== Proof.RefRun.lean ====
/-
  The reference's run with its four results named.

  The 145 operations are read window by window.  The first window cuts the four groups out of the input and finishes
  the first result; it also prepares five factors of the second result.  The second window finishes the second and the
  third result and prepares two factors of the fourth; the third window finishes the fourth.  Each result is the
  reference's product of one corner group and one center group (Proof/RefLinks.lean), that is, their point-linking
  product: groups (0, 2), (1, 2), (0, 3), (1, 3) in the order of the results.  No operation writes the input.
-/
import proofs.«117441_j60911226191951_2_alg».proof.Proof.RefLine
import proofs.«117441_j60911226191951_2_alg».proof.Proof.RefLinks

set_option maxRecDepth 16384
set_option maxHeartbeats 4000000

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.Line Cert.ReferenceIdeal.Links
open Cert.LinkProduct

variable (m : (ℓ : Loc nD τ sig) → Buf (Elt Ideal) ℓ) (ρ : Dev nD → PrngReg)

/-! ## After the first window (statements 1 … 60) -/

/-- Group 0. -/
theorem w0_v2 (d : Dev nD) : (after ops0 (launchContents m d) (Proc.devRef .tc main_v2) : S32x51x14x14.Idx → EReal) = (group 0 slices_S32x4x51x14x14_S32x1x51x14x14_0_0_0_0_0 (m ((d.tc : Thread nD τ).loc main_arg0))) := by
  unfold ops0
  after_results_simp <;> rfl

/-- Group 1. -/
theorem w0_v4 (d : Dev nD) : (after ops0 (launchContents m d) (Proc.devRef .tc main_v4) : S32x51x14x14.Idx → EReal) = (group 1 slices_S32x4x51x14x14_S32x1x51x14x14_0_1_0_0_0 (m ((d.tc : Thread nD τ).loc main_arg0))) := by
  unfold ops0
  after_results_simp <;> rfl

/-- Group 2. -/
theorem w0_v6 (d : Dev nD) : (after ops0 (launchContents m d) (Proc.devRef .tc main_v6) : S32x51x14x14.Idx → EReal) = (group 2 slices_S32x4x51x14x14_S32x1x51x14x14_0_2_0_0_0 (m ((d.tc : Thread nD τ).loc main_arg0))) := by
  unfold ops0
  after_results_simp <;> rfl

/-- Group 3. -/
theorem w0_v8 (d : Dev nD) : (after ops0 (launchContents m d) (Proc.devRef .tc main_v8) : S32x51x14x14.Idx → EReal) = (group 3 slices_S32x4x51x14x14_S32x1x51x14x14_0_3_0_0_0 (m ((d.tc : Thread nD τ).loc main_arg0))) := by
  unfold ops0
  after_results_simp <;> rfl

/-- The first result: groups 0 and 2. -/
theorem w0_v41 (d : Dev nD) : (after ops0 (launchContents m d) (Proc.devRef .tc main_v41) : S32x20x14x14x14x14.Idx → EReal) = refProduct (group 0 slices_S32x4x51x14x14_S32x1x51x14x14_0_0_0_0_0 (m ((d.tc : Thread nD τ).loc main_arg0))) (group 2 slices_S32x4x51x14x14_S32x1x51x14x14_0_2_0_0_0 (m ((d.tc : Thread nD τ).loc main_arg0))) := by
  unfold ops0
  after_results_simp <;> rfl

/-- Prepared for the second result: the class part of corner group 1. -/
theorem w0_v46 (d : Dev nD) : (after ops0 (launchContents m d) (Proc.devRef .tc main_v46) : S32x20x14x14x1x1.Idx → EReal) = cornerClass (group 1 slices_S32x4x51x14x14_S32x1x51x14x14_0_1_0_0_0 (m ((d.tc : Thread nD τ).loc main_arg0))) := by
  unfold ops0
  after_results_simp <;> rfl

/-- The class part of center group 2. -/
theorem w0_v51 (d : Dev nD) : (after ops0 (launchContents m d) (Proc.devRef .tc main_v51) : S32x20x1x1x14x14.Idx → EReal) = centerClass (group 2 slices_S32x4x51x14x14_S32x1x51x14x14_0_2_0_0_0 (m ((d.tc : Thread nD τ).loc main_arg0))) := by
  unfold ops0
  after_results_simp <;> rfl

/-- The x-links of corner group 1. -/
theorem w0_v54 (d : Dev nD) : (after ops0 (launchContents m d) (Proc.devRef .tc main_v54) : S32x1x14x14x14x1.Idx → EReal) = cornerX (group 1 slices_S32x4x51x14x14_S32x1x51x14x14_0_1_0_0_0 (m ((d.tc : Thread nD τ).loc main_arg0))) := by
  unfold ops0
  after_results_simp <;> rfl

/-- The y-links of corner group 1. -/
theorem w0_v57 (d : Dev nD) : (after ops0 (launchContents m d) (Proc.devRef .tc main_v57) : S32x1x14x14x1x14.Idx → EReal) = cornerY (group 1 slices_S32x4x51x14x14_S32x1x51x14x14_0_1_0_0_0 (m ((d.tc : Thread nD τ).loc main_arg0))) := by
  unfold ops0
  after_results_simp <;> rfl

/-- The x-link channels of center group 2. -/
theorem w0_v58 (d : Dev nD) : (after ops0 (launchContents m d) (Proc.devRef .tc main_v58) : S32x14x14x14.Idx → EReal) = centerXSlice (group 2 slices_S32x4x51x14x14_S32x1x51x14x14_0_2_0_0_0 (m ((d.tc : Thread nD τ).loc main_arg0))) := by
  unfold ops0
  after_results_simp <;> rfl

/-! ## After the second window (statements 61 … 120) -/

theorem keep1_v41 (W : Valuation τ sig (Elt Ideal)) :
    after ops1 W (Proc.devRef .tc main_v41) = W (Proc.devRef .tc main_v41) := by
  unfold ops1
  after_results_simp

theorem keep1_v4 (W : Valuation τ sig (Elt Ideal)) :
    after ops1 W (Proc.devRef .tc main_v4) = W (Proc.devRef .tc main_v4) := by
  unfold ops1
  after_results_simp

theorem keep1_v8 (W : Valuation τ sig (Elt Ideal)) :
    after ops1 W (Proc.devRef .tc main_v8) = W (Proc.devRef .tc main_v8) := by
  unfold ops1
  after_results_simp

/-- The second result: groups 1 and 2. -/
theorem w1_v74 (d : Dev nD) : (after ops1 (after ops0 (launchContents m d)) (Proc.devRef .tc main_v74) : S32x20x14x14x14x14.Idx → EReal) = refProduct (group 1 slices_S32x4x51x14x14_S32x1x51x14x14_0_1_0_0_0 (m ((d.tc : Thread nD τ).loc main_arg0))) (group 2 slices_S32x4x51x14x14_S32x1x51x14x14_0_2_0_0_0 (m ((d.tc : Thread nD τ).loc main_arg0))) := by
  unfold ops1
  after_results_simp
  rw [w0_v46, w0_v51, w0_v54, w0_v57, w0_v58, w0_v6]
  rfl

/-- The third result: groups 0 and 3. -/
theorem w1_v107 (d : Dev nD) : (after ops1 (after ops0 (launchContents m d)) (Proc.devRef .tc main_v107) : S32x20x14x14x14x14.Idx → EReal) = refProduct (group 0 slices_S32x4x51x14x14_S32x1x51x14x14_0_0_0_0_0 (m ((d.tc : Thread nD τ).loc main_arg0))) (group 3 slices_S32x4x51x14x14_S32x1x51x14x14_0_3_0_0_0 (m ((d.tc : Thread nD τ).loc main_arg0))) := by
  unfold ops1
  after_results_simp
  rw [w0_v2, w0_v8]
  rfl

/-- Prepared for the fourth result: the class part of corner group 1. -/
theorem w1_v112 (d : Dev nD) : (after ops1 (after ops0 (launchContents m d)) (Proc.devRef .tc main_v112) : S32x20x14x14x1x1.Idx → EReal) = cornerClass (group 1 slices_S32x4x51x14x14_S32x1x51x14x14_0_1_0_0_0 (m ((d.tc : Thread nD τ).loc main_arg0))) := by
  unfold ops1
  after_results_simp
  rw [w0_v4]
  rfl

/-- The class part of center group 3, before it is moved onto the result's axes. -/
theorem w1_v116 (d : Dev nD) : (after ops1 (after ops0 (launchContents m d)) (Proc.devRef .tc main_v116) : S32x20x14x14.Idx → EReal) = classPart (group 3 slices_S32x4x51x14x14_S32x1x51x14x14_0_3_0_0_0 (m ((d.tc : Thread nD τ).loc main_arg0))) := by
  unfold ops1
  after_results_simp
  rw [w0_v8]
  rfl

/-! ## After the third window (statements 121 … 145) -/

theorem keep2_v41 (W : Valuation τ sig (Elt Ideal)) :
    after ops2 W (Proc.devRef .tc main_v41) = W (Proc.devRef .tc main_v41) := by
  unfold ops2
  after_results_simp

theorem keep2_v74 (W : Valuation τ sig (Elt Ideal)) :
    after ops2 W (Proc.devRef .tc main_v74) = W (Proc.devRef .tc main_v74) := by
  unfold ops2
  after_results_simp

theorem keep2_v107 (W : Valuation τ sig (Elt Ideal)) :
    after ops2 W (Proc.devRef .tc main_v107) = W (Proc.devRef .tc main_v107) := by
  unfold ops2
  after_results_simp

theorem keep0_arg0 (W : Valuation τ sig (Elt Ideal)) :
    after ops0 W (Proc.devRef .tc main_arg0) = W (Proc.devRef .tc main_arg0) := by
  unfold ops0
  after_results_simp

theorem keep1_arg0 (W : Valuation τ sig (Elt Ideal)) :
    after ops1 W (Proc.devRef .tc main_arg0) = W (Proc.devRef .tc main_arg0) := by
  unfold ops1
  after_results_simp

theorem keep2_arg0 (W : Valuation τ sig (Elt Ideal)) :
    after ops2 W (Proc.devRef .tc main_arg0) = W (Proc.devRef .tc main_arg0) := by
  unfold ops2
  after_results_simp

/-- The fourth result: groups 1 and 3. -/
theorem w2_v140 (d : Dev nD) : (after ops2 (after ops1 (after ops0 (launchContents m d))) (Proc.devRef .tc main_v140) : S32x20x14x14x14x14.Idx → EReal) = refProduct (group 1 slices_S32x4x51x14x14_S32x1x51x14x14_0_1_0_0_0 (m ((d.tc : Thread nD τ).loc main_arg0))) (group 3 slices_S32x4x51x14x14_S32x1x51x14x14_0_3_0_0_0 (m ((d.tc : Thread nD τ).loc main_arg0))) := by
  unfold ops2
  after_results_simp
  rw [w1_v112, w1_v116, keep1_v4, keep1_v8, w0_v4, w0_v8]
  rfl

/-- Every weakly fair execution of the reference terminates with its four results at the point-linking products of the
    input's groups and the input unchanged. -/
theorem run : θ_run defs (onTc (τ := τ) (main (F := Ideal))) ⟨m, fun _ => 0, ρ⟩ fun r => ∀ d : Dev nD,
      r.2.mem ((d.tc : Thread nD τ).loc main_v41) = linkProduct half (group 0 slices_S32x4x51x14x14_S32x1x51x14x14_0_0_0_0_0 (m ((d.tc : Thread nD τ).loc main_arg0))) (group 2 slices_S32x4x51x14x14_S32x1x51x14x14_0_2_0_0_0 (m ((d.tc : Thread nD τ).loc main_arg0)))
      ∧ r.2.mem ((d.tc : Thread nD τ).loc main_v74) = linkProduct half (group 1 slices_S32x4x51x14x14_S32x1x51x14x14_0_1_0_0_0 (m ((d.tc : Thread nD τ).loc main_arg0))) (group 2 slices_S32x4x51x14x14_S32x1x51x14x14_0_2_0_0_0 (m ((d.tc : Thread nD τ).loc main_arg0)))
      ∧ r.2.mem ((d.tc : Thread nD τ).loc main_v107) = linkProduct half (group 0 slices_S32x4x51x14x14_S32x1x51x14x14_0_0_0_0_0 (m ((d.tc : Thread nD τ).loc main_arg0))) (group 3 slices_S32x4x51x14x14_S32x1x51x14x14_0_3_0_0_0 (m ((d.tc : Thread nD τ).loc main_arg0)))
      ∧ r.2.mem ((d.tc : Thread nD τ).loc main_v140) = linkProduct half (group 1 slices_S32x4x51x14x14_S32x1x51x14x14_0_1_0_0_0 (m ((d.tc : Thread nD τ).loc main_arg0))) (group 3 slices_S32x4x51x14x14_S32x1x51x14x14_0_3_0_0_0 (m ((d.tc : Thread nD τ).loc main_arg0)))
      ∧ r.2.mem ((d.tc : Thread nD τ).loc main_arg0) = m ((d.tc : Thread nD τ).loc main_arg0) :=
  (θ_run defs _ _).mono (fun _ h d =>
    ⟨(h d main_v41).trans ((keep2_v41 _).trans ((keep1_v41 _).trans ((w0_v41 m d).trans (refProduct_eq _ _)))),
     (h d main_v74).trans ((keep2_v74 _).trans ((w1_v74 m d).trans (refProduct_eq _ _))),
     (h d main_v107).trans ((keep2_v107 _).trans ((w1_v107 m d).trans (refProduct_eq _ _))),
     (h d main_v140).trans ((w2_v140 m d).trans (refProduct_eq _ _)),
     (h d main_arg0).trans ((keep2_arg0 _).trans ((keep1_arg0 _).trans (keep0_arg0 _)))⟩)
    (run_after m ρ)

end Cert.ReferenceIdeal.HandRun

end
-- ==== Proof.BlockProduct.lean ====
/-
  What the kernel body leaves in each output block, as one function of its input blocks.

  At a grid point the body holds one batch entry: class blocks `a`, `b` of shape [1, 20, 196] (class part of a corner
  group and of a center group at a position) and link blocks `lc`, `ls` of shape [1, 196, 196] (the corner's and the
  center's link factors at a pair of positions).  It forms `l = lc · ls` once and then, for each of five chunks of
  four classes, stores

      ((h · a[c, p]) · b[c, q]) · l[p, q]          (h = one half)

  into the chunk's rows of the output block [1, 20, 196, 196]; `a[c, p]` is spread along `q` and `b[c, q]` along `p` by
  a unit axis and a broadcast, `l` along the class axis likewise.  The five stores tile the block, and each is the same
  function of the block index, so the block is `blockProduct a b lc ls` whole.  All twenty stores of the four outputs
  are one payload up to the names of their operands.
-/
import proofs.«117441_j60911226191951_2_alg».proof.Proof.Gen.KernelIdeal.Frame
import proofs.«117441_j60911226191951_2_alg».proof.Proof.LinkProduct
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.ShloMosaic.ValueIdx
open Cert.LinkProduct (half)

theorem zeros3 : (![0, 0, 0] : Fin 3 → Nat) = fun _ => 0 := funext fun a => by fin_cases a <;> rfl

/-- The output block as a function of the input blocks, index by index. -/
def blockProduct (a b : Vec Ideal S1x20x196 .f32) (lc ls : Vec Ideal S1x196x196 .f32) : Vec Ideal S1x20x196x196 .f32 := fun y =>
  ((half * a (ix3 (y 0) (y 1) (y 2))) * b (ix3 (y 0) (y 1) (y 3))) * (lc (ix3 (y 0) (y 2) (y 3)) * ls (ix3 (y 0) (y 2) (y 3)))

theorem blockProduct_apply (a b : Vec Ideal S1x20x196 .f32) (lc ls : Vec Ideal S1x196x196 .f32) (y : S1x20x196x196.Idx) :
    blockProduct a b lc ls y
      = ((half * a (ix3 (y 0) (y 1) (y 2))) * b (ix3 (y 0) (y 1) (y 3))) * (lc (ix3 (y 0) (y 2) (y 3)) * ls (ix3 (y 0) (y 2) (y 3))) := rfl

/-- The link factor the body forms once: the entrywise product of the two link blocks. -/
theorem links_apply (u v : Vec Ideal S1x196x196 .f32) (z : S1x196x196.Idx) : k0_pay3 (F := Ideal) u v z = u z * v z := by
  unfold k0_pay3
  simp only [shapeCast_self]
  rfl

/-- One chunk's stored value at class `c` of the chunk and positions `p`, `q`: the scaled class entry of `a` at `(c, p)`
    (spread along `q`), times the class entry of `b` at `(c, q)` (spread along `p`), times the link factor at `(p, q)`
    (spread along the classes).  Each spreading is a cast that inserts a unit axis followed by a broadcast along it. -/
theorem chunk_apply (l : FVec Ideal S1x196x196 .f32) (a b : Vec Ideal S1x4x196 .f32) (c : Fin 4) (p q : Fin 196) :
    k0_pay8 (F := Ideal) l a b (ix4 0 c p q) = ((half * a (ix3 0 c p)) * b (ix3 0 c q)) * l (ix3 0 p q) := by
  unfold k0_pay8
  simp only [shapeCast_self]
  rw [mulf_apply, mulf_apply]
  rw [broadcastTo_apply _ _ (ix4 0 c p q) (ix4 0 c p 0)
        (fun a => match a with | ⟨0, _⟩ => rfl | ⟨1, _⟩ => rfl | ⟨2, _⟩ => rfl | ⟨3, _⟩ => rfl),
      shapeCast_apply _ _ (ix4 0 c p 0) (ix3 0 c p)
        (by rw [Shape.rowMajor_val_three, Shape.rowMajor_val_four]; show ((0 : Fin 1).val * 4 + c.val) * 196 + p.val = ((((0 : Fin 1).val * 4 + c.val) * 196 + p.val) * 1 + (0 : Fin 1).val); simp),
      broadcastTo_apply _ _ (ix4 0 c p q) (ix4 0 c 0 q)
        (fun a => match a with | ⟨0, _⟩ => rfl | ⟨1, _⟩ => rfl | ⟨2, _⟩ => rfl | ⟨3, _⟩ => rfl),
      shapeCast_apply _ _ (ix4 0 c 0 q) (ix3 0 c q)
        (by rw [Shape.rowMajor_val_three, Shape.rowMajor_val_four]; show ((0 : Fin 1).val * 4 + c.val) * 196 + q.val = ((((0 : Fin 1).val * 4 + c.val) * 1 + (0 : Fin 1).val) * 196 + q.val); simp),
      broadcastTo_apply _ _ (ix4 0 c p q) (ix4 0 0 p q)
        (fun a => match a with | ⟨0, _⟩ => rfl | ⟨1, _⟩ => rfl | ⟨2, _⟩ => rfl | ⟨3, _⟩ => rfl),
      shapeCast_apply _ _ (ix4 0 0 p q) (ix3 0 p q)
        (by rw [Shape.rowMajor_val_three, Shape.rowMajor_val_four]; show ((0 : Fin 1).val * 196 + p.val) * 196 + q.val = ((((0 : Fin 1).val * 1 + (0 : Fin 1).val) * 196 + p.val) * 196 + q.val); simp)]
  rfl

/-- The chunk of classes `o … o + 3`: its stored value, computed from the rows `o … o + 3` of the class blocks, is the
    block product read at the chunk's place in the output block. -/
theorem chunk_piece (a b : Vec Ideal S1x20x196 .f32) (lc ls : Vec Ideal S1x196x196 .f32) (o : Nat)
    (inb3 : ∀ d, (![0, o, 0] : Fin 3 → Nat) d + S1x4x196.size d ≤ S1x20x196.size d)
    (inb4 : ∀ d, (![0, o, 0, 0] : Fin 4 → Nat) d + S1x4x196x196.size d ≤ S1x20x196x196.size d)
    (x : S1x4x196x196.Idx) :
    k0_pay8 (F := Ideal) (k0_pay3 lc ls) (View.ld a (Rect.unit (s := S1x20x196) ![0, o, 0] S1x4x196.size inb3))
        (View.ld b (Rect.unit (s := S1x20x196) ![0, o, 0] S1x4x196.size inb3)) x
      = blockProduct a b lc ls ((Rect.unit (s := S1x20x196x196) ![0, o, 0, 0] S1x4x196x196.size inb4).emb x) := by
  obtain ⟨c, p, q, rfl⟩ : ∃ (c : Fin 4) (p q : Fin 196), x = ix4 0 c p q :=
    ⟨x 1, x 2, x 3, by
      funext d
      match d with
      | ⟨0, h⟩ => exact Fin.ext (by have h0 : (x ⟨0, h⟩).val < 1 := (x ⟨0, h⟩).isLt; show (x ⟨0, h⟩).val = 0; omega)
      | ⟨1, _⟩ => rfl
      | ⟨2, _⟩ => rfl
      | ⟨3, _⟩ => rfl⟩
  rw [chunk_apply, links_apply]
  unfold blockProduct
  have ea : (Rect.unit (s := S1x20x196) ![0, o, 0] S1x4x196.size inb3).emb (ix3 0 c p)
      = ix3 ((Rect.unit (s := S1x20x196x196) ![0, o, 0, 0] S1x4x196x196.size inb4).emb (ix4 0 c p q) 0)
          ((Rect.unit (s := S1x20x196x196) ![0, o, 0, 0] S1x4x196x196.size inb4).emb (ix4 0 c p q) 1)
          ((Rect.unit (s := S1x20x196x196) ![0, o, 0, 0] S1x4x196x196.size inb4).emb (ix4 0 c p q) 2) := by
    funext d; match d with | ⟨0, _⟩ => rfl | ⟨1, _⟩ => rfl | ⟨2, _⟩ => rfl
  have eb : (Rect.unit (s := S1x20x196) ![0, o, 0] S1x4x196.size inb3).emb (ix3 0 c q)
      = ix3 ((Rect.unit (s := S1x20x196x196) ![0, o, 0, 0] S1x4x196x196.size inb4).emb (ix4 0 c p q) 0)
          ((Rect.unit (s := S1x20x196x196) ![0, o, 0, 0] S1x4x196x196.size inb4).emb (ix4 0 c p q) 1)
          ((Rect.unit (s := S1x20x196x196) ![0, o, 0, 0] S1x4x196x196.size inb4).emb (ix4 0 c p q) 3) := by
    funext d; match d with | ⟨0, _⟩ => rfl | ⟨1, _⟩ => rfl | ⟨2, _⟩ => rfl
  have el : (ix3 0 p q : S1x196x196.Idx)
      = ix3 ((Rect.unit (s := S1x20x196x196) ![0, o, 0, 0] S1x4x196x196.size inb4).emb (ix4 0 c p q) 0)
          ((Rect.unit (s := S1x20x196x196) ![0, o, 0, 0] S1x4x196x196.size inb4).emb (ix4 0 c p q) 2)
          ((Rect.unit (s := S1x20x196x196) ![0, o, 0, 0] S1x4x196x196.size inb4).emb (ix4 0 c p q) 3) := by
    funext d; apply Fin.ext
    match d with
    | ⟨0, _⟩ => show (0 : Fin 1).val = 0 + 1 * (0 : Fin 1).val; simp
    | ⟨1, _⟩ => show p.val = 0 + 1 * p.val; omega
    | ⟨2, _⟩ => show q.val = 0 + 1 * q.val; omega
  show ((half * a ((Rect.unit (s := S1x20x196) ![0, o, 0] S1x4x196.size inb3).emb (ix3 0 c p)))
      * b ((Rect.unit (s := S1x20x196) ![0, o, 0] S1x4x196.size inb3).emb (ix3 0 c q))) * (lc (ix3 0 p q) * ls (ix3 0 p q)) = _
  rw [ea, eb, el]
  rfl

/-- Output window 8's block after the body: the block product of input blocks 0, 2 (class parts) and 4, 6 (links). -/
theorem out0_8_eq (x0 x1 x2 x3 : Vec Ideal S1x20x196 .f32) (x4 x5 x6 x7 : Vec Ideal S1x196x196 .f32) :
    out0_8 (F := Ideal) x0 x1 x2 x3 x4 x5 x6 x7 = blockProduct x0 x2 x4 x6 := by
  funext y
  unfold out0_8
  simp only [View.ld_unit_zero (S := S1x196x196) zeros3]
  refine View.canon_apply_of_pieces (Val := Elt Ideal) (blockProduct x0 x2 x4 x6) _ ?_ y (cover0_8 _ _ _ _ _ y)
  intro p hp x
  simp only [List.mem_cons, List.mem_nil_iff, or_false] at hp
  rcases hp with rfl | rfl | rfl | rfl | rfl
  · exact chunk_piece x0 x2 x4 x6 16 inb_S1x20x196_S1x4x196_0_16_0 inb_S1x20x196x196_S1x4x196x196_0_16_0_0 x
  · exact chunk_piece x0 x2 x4 x6 12 inb_S1x20x196_S1x4x196_0_12_0 inb_S1x20x196x196_S1x4x196x196_0_12_0_0 x
  · exact chunk_piece x0 x2 x4 x6 8 inb_S1x20x196_S1x4x196_0_8_0 inb_S1x20x196x196_S1x4x196x196_0_8_0_0 x
  · exact chunk_piece x0 x2 x4 x6 4 inb_S1x20x196_S1x4x196_0_4_0 inb_S1x20x196x196_S1x4x196x196_0_4_0_0 x
  · exact chunk_piece x0 x2 x4 x6 0 inb_S1x20x196_S1x4x196_0_0_0 inb_S1x20x196x196_S1x4x196x196_0_0_0_0 x

/-- Output window 9's block after the body: the block product of input blocks 1, 2 (class parts) and 5, 6 (links). -/
theorem out0_9_eq (x0 x1 x2 x3 : Vec Ideal S1x20x196 .f32) (x4 x5 x6 x7 : Vec Ideal S1x196x196 .f32) :
    out0_9 (F := Ideal) x0 x1 x2 x3 x4 x5 x6 x7 = blockProduct x1 x2 x5 x6 := by
  funext y
  unfold out0_9
  simp only [View.ld_unit_zero (S := S1x196x196) zeros3]
  refine View.canon_apply_of_pieces (Val := Elt Ideal) (blockProduct x1 x2 x5 x6) _ ?_ y (cover0_9 _ _ _ _ _ y)
  intro p hp x
  simp only [List.mem_cons, List.mem_nil_iff, or_false] at hp
  rcases hp with rfl | rfl | rfl | rfl | rfl
  · exact chunk_piece x1 x2 x5 x6 16 inb_S1x20x196_S1x4x196_0_16_0 inb_S1x20x196x196_S1x4x196x196_0_16_0_0 x
  · exact chunk_piece x1 x2 x5 x6 12 inb_S1x20x196_S1x4x196_0_12_0 inb_S1x20x196x196_S1x4x196x196_0_12_0_0 x
  · exact chunk_piece x1 x2 x5 x6 8 inb_S1x20x196_S1x4x196_0_8_0 inb_S1x20x196x196_S1x4x196x196_0_8_0_0 x
  · exact chunk_piece x1 x2 x5 x6 4 inb_S1x20x196_S1x4x196_0_4_0 inb_S1x20x196x196_S1x4x196x196_0_4_0_0 x
  · exact chunk_piece x1 x2 x5 x6 0 inb_S1x20x196_S1x4x196_0_0_0 inb_S1x20x196x196_S1x4x196x196_0_0_0_0 x

/-- Output window 10's block after the body: the block product of input blocks 0, 3 (class parts) and 4, 7 (links). -/
theorem out0_10_eq (x0 x1 x2 x3 : Vec Ideal S1x20x196 .f32) (x4 x5 x6 x7 : Vec Ideal S1x196x196 .f32) :
    out0_10 (F := Ideal) x0 x1 x2 x3 x4 x5 x6 x7 = blockProduct x0 x3 x4 x7 := by
  funext y
  unfold out0_10
  simp only [View.ld_unit_zero (S := S1x196x196) zeros3]
  refine View.canon_apply_of_pieces (Val := Elt Ideal) (blockProduct x0 x3 x4 x7) _ ?_ y (cover0_10 _ _ _ _ _ y)
  intro p hp x
  simp only [List.mem_cons, List.mem_nil_iff, or_false] at hp
  rcases hp with rfl | rfl | rfl | rfl | rfl
  · exact chunk_piece x0 x3 x4 x7 16 inb_S1x20x196_S1x4x196_0_16_0 inb_S1x20x196x196_S1x4x196x196_0_16_0_0 x
  · exact chunk_piece x0 x3 x4 x7 12 inb_S1x20x196_S1x4x196_0_12_0 inb_S1x20x196x196_S1x4x196x196_0_12_0_0 x
  · exact chunk_piece x0 x3 x4 x7 8 inb_S1x20x196_S1x4x196_0_8_0 inb_S1x20x196x196_S1x4x196x196_0_8_0_0 x
  · exact chunk_piece x0 x3 x4 x7 4 inb_S1x20x196_S1x4x196_0_4_0 inb_S1x20x196x196_S1x4x196x196_0_4_0_0 x
  · exact chunk_piece x0 x3 x4 x7 0 inb_S1x20x196_S1x4x196_0_0_0 inb_S1x20x196x196_S1x4x196x196_0_0_0_0 x

/-- Output window 11's block after the body: the block product of input blocks 1, 3 (class parts) and 5, 7 (links). -/
theorem out0_11_eq (x0 x1 x2 x3 : Vec Ideal S1x20x196 .f32) (x4 x5 x6 x7 : Vec Ideal S1x196x196 .f32) :
    out0_11 (F := Ideal) x0 x1 x2 x3 x4 x5 x6 x7 = blockProduct x1 x3 x5 x7 := by
  funext y
  unfold out0_11
  simp only [View.ld_unit_zero (S := S1x196x196) zeros3]
  refine View.canon_apply_of_pieces (Val := Elt Ideal) (blockProduct x1 x3 x5 x7) _ ?_ y (cover0_11 _ _ _ _ _ y)
  intro p hp x
  simp only [List.mem_cons, List.mem_nil_iff, or_false] at hp
  rcases hp with rfl | rfl | rfl | rfl | rfl
  · exact chunk_piece x1 x3 x5 x7 16 inb_S1x20x196_S1x4x196_0_16_0 inb_S1x20x196x196_S1x4x196x196_0_16_0_0 x
  · exact chunk_piece x1 x3 x5 x7 12 inb_S1x20x196_S1x4x196_0_12_0 inb_S1x20x196x196_S1x4x196x196_0_12_0_0 x
  · exact chunk_piece x1 x3 x5 x7 8 inb_S1x20x196_S1x4x196_0_8_0 inb_S1x20x196x196_S1x4x196x196_0_8_0_0 x
  · exact chunk_piece x1 x3 x5 x7 4 inb_S1x20x196_S1x4x196_0_4_0 inb_S1x20x196x196_S1x4x196x196_0_4_0_0 x
  · exact chunk_piece x1 x3 x5 x7 0 inb_S1x20x196_S1x4x196_0_0_0 inb_S1x20x196x196_S1x4x196x196_0_0_0_0 x

end Cert.KernelIdeal.Block

end
-- ==== Proof.Operands.lean ====
/-
  The eight operands of the kernel, as functions of a group, read at an index.

  Before the kernel runs, the surrounding program turns each group `G` (32 × 51 × 14 × 14) into operands whose two
  14 × 14 grids are merged into single axes of length 196, position `(a, b)` at `a · 14 + b`:

  * `classOperand G` (32 × 20 × 196): entry `(n, c, (a, b))` is the class part `G[n, 0, a, b] · G[n, 1 + c, a, b]`;
  * `cornerLinks G` (32 × 196 × 196): entry `(n, (a, b), (s, t))` is `G[n, 23 + s, a, b] · G[n, 37 + t, a, b]`: the x-link
    slice repeated 14 times along `t` (the outer digit of the second position selects it) times the y-link slice tiled 14
    times along `s` (the inner digit selects it);
  * `centerLinks G` (32 × 196 × 196): entry `(n, (a, b), (s, t))` is `G[n, 23 + a, s, t] · G[n, 37 + b, s, t]`, the same
    with the roles of the two positions exchanged.

  Each is a chain of slices, a transpose, reshapes and broadcasts; every link reads one entry of its operand, and a
  reshape keeps the row-major position, which at the indices `(a, b) ↦ a · 14 + b` is linear arithmetic.
-/
import proofs.«117441_j60911226191951_2_alg».proof.Proof.Gen.KernelIdeal
import proofs.«117441_j60911226191951_2_alg».proof.Proof.LinkProduct
import Idealize.ShloMosaic.Lib.Pipeline.Value
import Idealize.ShloMosaic.Lib.ValueIdx
import Idealize.ShloMosaic.Lib.ValueIdxRank6

set_option maxRecDepth 16384

noncomputable section

namespace Cert.KernelIdeal.Operands

open Cert.KernelIdeal Cert.KernelIdeal.Gen Idealize.ShloMosaic Idealize.ShloMosaic.TcCoe Idealize.ShloMosaic.ValueIdx
open Cert.LinkProduct

/-- Group `k` of the input: channels `51 k … 51 k + 50`, by a reshape that splits the channel axis into 4 × 51, a slice of
    the group axis, and a reshape that drops it. -/
def group (k : Nat) (hs : S32x4x51x14x14.Slices ![0, k, 0, 0, 0] S32x1x51x14x14) (x : FVec Ideal S32x204x14x14 .f32) :
    FVec Ideal S32x51x14x14 .f32 :=
  shapeCast S32x51x14x14 (extractStridedSlice S32x1x51x14x14 ![0, k, 0, 0, 0]
    (shapeCast S32x4x51x14x14 x shapeCasts_S32x204x14x14_S32x4x51x14x14) hs) shapeCasts_S32x1x51x14x14_S32x51x14x14

/-- The class operand: existence channel (broadcast over the classes) times the class channels, positions merged. -/
def classOperand (G : FVec Ideal S32x51x14x14 .f32) : FVec Ideal S32x20x196 .f32 :=
  shapeCast S32x20x196
    (mulf (broadcastInDim S32x20x14x14 ![0, 1, 2, 3] bcast_S32x1x14x14_S32x20x14x14_0_1_2_3
        (extractStridedSlice S32x1x14x14 ![0, 0, 0, 0] G slices_S32x51x14x14_S32x1x14x14_0_0_0_0))
      (extractStridedSlice S32x20x14x14 ![0, 1, 0, 0] G slices_S32x51x14x14_S32x20x14x14_0_1_0_0))
    shapeCasts_S32x20x14x14_S32x20x196

/-- A link slice of a corner group with its channel axis moved last and its positions merged: `(n, (a, b), s)`. -/
def cornerSlice (off : Nat) (hs : S32x51x14x14.Slices ![0, off, 0, 0] S32x14x14x14) (G : FVec Ideal S32x51x14x14 .f32) :
    FVec Ideal S32x196x14 .f32 :=
  shapeCast S32x196x14 (transpose S32x14x14x14 [0, 2, 3, 1] (extractStridedSlice S32x14x14x14 ![0, off, 0, 0] G hs)
    transposes_S32x14x14x14_S32x14x14x14_0_2_3_1) shapeCasts_S32x14x14x14_S32x196x14

/-- The corner's link operand. -/
def cornerLinks (G : FVec Ideal S32x51x14x14 .f32) : FVec Ideal S32x196x196 .f32 :=
  mulf
    (shapeCast S32x196x196 (broadcastInDim S32x196x14x14 ![0, 1, 2] bcast_S32x196x14_S32x196x14x14_0_1_2
      (cornerSlice 23 slices_S32x51x14x14_S32x14x14x14_0_23_0_0 G)) shapeCasts_S32x196x14x14_S32x196x196)
    (shapeCast S32x196x196 (broadcastInDim S1x32x1x196x14x14 ![0, 1, 2, 3, 4, 5] bcast_S1x32x1x196x1x14_S1x32x1x196x14x14_0_1_2_3_4_5
      (shapeCast S1x32x1x196x1x14 (cornerSlice 37 slices_S32x51x14x14_S32x14x14x14_0_37_0_0 G) shapeCasts_S32x196x14_S1x32x1x196x1x14))
      shapeCasts_S1x32x1x196x14x14_S32x196x196)

/-- A link slice of a center group with its positions merged: `(n, channel, (s, t))`. -/
def centerSlice (off : Nat) (hs : S32x51x14x14.Slices ![0, off, 0, 0] S32x14x14x14) (G : FVec Ideal S32x51x14x14 .f32) :
    FVec Ideal S32x14x196 .f32 :=
  shapeCast S32x14x196 (extractStridedSlice S32x14x14x14 ![0, off, 0, 0] G hs) shapeCasts_S32x14x14x14_S32x14x196

/-- The center's link operand. -/
def centerLinks (G : FVec Ideal S32x51x14x14 .f32) : FVec Ideal S32x196x196 .f32 :=
  mulf
    (shapeCast S32x196x196 (broadcastInDim S32x14x14x196 ![0, 1, 3] bcast_S32x14x196_S32x14x14x196_0_1_3
      (centerSlice 23 slices_S32x51x14x14_S32x14x14x14_0_23_0_0 G)) shapeCasts_S32x14x14x196_S32x196x196)
    (shapeCast S32x196x196 (broadcastInDim S1x32x14x14x1x196 ![0, 1, 2, 3, 4, 5] bcast_S1x32x1x14x1x196_S1x32x14x14x1x196_0_1_2_3_4_5
      (shapeCast S1x32x1x14x1x196 (centerSlice 37 slices_S32x51x14x14_S32x14x14x14_0_37_0_0 G) shapeCasts_S32x14x196_S1x32x1x14x1x196))
      shapeCasts_S1x32x14x14x1x196_S32x196x196)

/-- The class operand at batch entry `n`, class `c`, position `(a, b)`. -/
theorem classOperand_apply (G : FVec Ideal S32x51x14x14 .f32) (n : Fin 32) (c : Fin 20) (a b : Fin 14) :
    classOperand G (ix3 n c (pos a b)) = classAt G n c a b := by
  unfold classOperand classAt
  rw [shapeCast_apply _ _ (ix3 n c (pos a b)) (ix4 n c a b)
        (by rw [Shape.rowMajor_val_four, Shape.rowMajor_val_three]
            show ((n.val * 20 + c.val) * 14 + a.val) * 14 + b.val = (n.val * 20 + c.val) * 196 + (a.val * 14 + b.val); omega),
      mulf_apply,
      broadcastInDim_apply _ _ _ (ix4 n c a b) (ix4 n 0 a b) (fun d => match d with
          | ⟨0, _⟩ => rfl
          | ⟨1, _⟩ => rfl
          | ⟨2, _⟩ => rfl
          | ⟨3, _⟩ => rfl),
      extractStridedSlice_apply _ _ _ (ix4 n 0 a b) (ix4 n chExist a b) (fun d => match d with
          | ⟨0, _⟩ => by show n.val = 0 + n.val; omega
          | ⟨1, _⟩ => by show (0 : ℕ) = 0 + (0 : Fin 1).val; simp
          | ⟨2, _⟩ => by show a.val = 0 + a.val; omega
          | ⟨3, _⟩ => by show b.val = 0 + b.val; omega),
      extractStridedSlice_apply _ _ _ (ix4 n c a b) (ix4 n (chClass c) a b) (fun d => match d with
          | ⟨0, _⟩ => by show n.val = 0 + n.val; omega
          | ⟨1, _⟩ => by show 1 + c.val = 1 + c.val; rfl
          | ⟨2, _⟩ => by show a.val = 0 + a.val; omega
          | ⟨3, _⟩ => by show b.val = 0 + b.val; omega)]

/-- A corner link slice at batch entry `n`, position `(a, b)`, link index `s`: channel `off + s` of the group there. -/
theorem cornerSlice_apply (off : Nat) (hs : S32x51x14x14.Slices ![0, off, 0, 0] S32x14x14x14) (G : FVec Ideal S32x51x14x14 .f32)
    (n : Fin 32) (a b s : Fin 14) (ch : Fin 51) (hch : ch.val = off + s.val) :
    cornerSlice off hs G (ix3 n (pos a b) s) = G (ix4 n ch a b) := by
  unfold cornerSlice
  rw [shapeCast_apply _ _ (ix3 n (pos a b) s) (ix4 n a b s)
        (by rw [Shape.rowMajor_val_four, Shape.rowMajor_val_three]
            show ((n.val * 14 + a.val) * 14 + b.val) * 14 + s.val = (n.val * 196 + (a.val * 14 + b.val)) * 14 + s.val; omega),
      transpose_apply _ _ _ (ix4 n a b s) (ix4 n s a b) (fun d => match d with
          | ⟨0, _⟩ => rfl
          | ⟨1, _⟩ => rfl
          | ⟨2, _⟩ => rfl
          | ⟨3, _⟩ => rfl),
      extractStridedSlice_apply _ _ _ (ix4 n s a b) (ix4 n ch a b) (fun d => match d with
          | ⟨0, _⟩ => by show n.val = 0 + n.val; omega
          | ⟨1, _⟩ => by show ch.val = off + s.val; exact hch
          | ⟨2, _⟩ => by show a.val = 0 + a.val; omega
          | ⟨3, _⟩ => by show b.val = 0 + b.val; omega)]

/-- The corner's link operand at batch entry `n`, own position `(a, b)`, other position `(s, t)`. -/
theorem cornerLinks_apply (G : FVec Ideal S32x51x14x14 .f32) (n : Fin 32) (a b s t : Fin 14) :
    cornerLinks G (ix3 n (pos a b) (pos s t)) = linksAt G n a b s t := by
  unfold cornerLinks linksAt
  rw [mulf_apply,
      shapeCast_apply _ _ (ix3 n (pos a b) (pos s t)) (ix4 n (pos a b) s t)
        (by rw [Shape.rowMajor_val_four, Shape.rowMajor_val_three]
            show ((n.val * 196 + (a.val * 14 + b.val)) * 14 + s.val) * 14 + t.val = (n.val * 196 + (a.val * 14 + b.val)) * 196 + (s.val * 14 + t.val); omega),
      broadcastInDim_apply _ _ _ (ix4 n (pos a b) s t) (ix3 n (pos a b) s) (fun d => match d with
          | ⟨0, _⟩ => rfl
          | ⟨1, _⟩ => rfl
          | ⟨2, _⟩ => rfl),
      cornerSlice_apply 23 _ G n a b s (chLinkX s) rfl,
      shapeCast_apply _ _ (ix3 n (pos a b) (pos s t)) (ix6 0 n 0 (pos a b) s t)
        (by rw [Shape.rowMajor_val_six, Shape.rowMajor_val_three]
            show (((((0 : Fin 1).val * 32 + n.val) * 1 + (0 : Fin 1).val) * 196 + (a.val * 14 + b.val)) * 14 + s.val) * 14 + t.val = (n.val * 196 + (a.val * 14 + b.val)) * 196 + (s.val * 14 + t.val)
            simp; omega),
      broadcastInDim_apply _ _ _ (ix6 0 n 0 (pos a b) s t) (ix6 0 n 0 (pos a b) 0 t) (fun d => match d with
          | ⟨0, _⟩ => rfl
          | ⟨1, _⟩ => rfl
          | ⟨2, _⟩ => rfl
          | ⟨3, _⟩ => rfl
          | ⟨4, _⟩ => rfl
          | ⟨5, _⟩ => rfl),
      shapeCast_apply _ _ (ix6 0 n 0 (pos a b) 0 t) (ix3 n (pos a b) t)
        (by rw [Shape.rowMajor_val_three, Shape.rowMajor_val_six]
            show (n.val * 196 + (a.val * 14 + b.val)) * 14 + t.val = (((((0 : Fin 1).val * 32 + n.val) * 1 + (0 : Fin 1).val) * 196 + (a.val * 14 + b.val)) * 1 + (0 : Fin 1).val) * 14 + t.val
            simp),
      cornerSlice_apply 37 _ G n a b t (chLinkY t) rfl]

/-- A center link slice at batch entry `n`, channel index `k`, position `(s, t)`: channel `off + k` of the group there. -/
theorem centerSlice_apply (off : Nat) (hs : S32x51x14x14.Slices ![0, off, 0, 0] S32x14x14x14) (G : FVec Ideal S32x51x14x14 .f32)
    (n : Fin 32) (k s t : Fin 14) (ch : Fin 51) (hch : ch.val = off + k.val) :
    centerSlice off hs G (ix3 n k (pos s t)) = G (ix4 n ch s t) := by
  unfold centerSlice
  rw [shapeCast_apply _ _ (ix3 n k (pos s t)) (ix4 n k s t)
        (by rw [Shape.rowMajor_val_four, Shape.rowMajor_val_three]
            show ((n.val * 14 + k.val) * 14 + s.val) * 14 + t.val = (n.val * 14 + k.val) * 196 + (s.val * 14 + t.val); omega),
      extractStridedSlice_apply _ _ _ (ix4 n k s t) (ix4 n ch s t) (fun d => match d with
          | ⟨0, _⟩ => by show n.val = 0 + n.val; omega
          | ⟨1, _⟩ => by show ch.val = off + k.val; exact hch
          | ⟨2, _⟩ => by show s.val = 0 + s.val; omega
          | ⟨3, _⟩ => by show t.val = 0 + t.val; omega)]

/-- The center's link operand at batch entry `n`, other position `(a, b)`, own position `(s, t)`. -/
theorem centerLinks_apply (G : FVec Ideal S32x51x14x14 .f32) (n : Fin 32) (a b s t : Fin 14) :
    centerLinks G (ix3 n (pos a b) (pos s t)) = linksAt G n s t a b := by
  unfold centerLinks linksAt
  rw [mulf_apply,
      shapeCast_apply _ _ (ix3 n (pos a b) (pos s t)) (ix4 n a b (pos s t))
        (by rw [Shape.rowMajor_val_four, Shape.rowMajor_val_three]
            show ((n.val * 14 + a.val) * 14 + b.val) * 196 + (s.val * 14 + t.val) = (n.val * 196 + (a.val * 14 + b.val)) * 196 + (s.val * 14 + t.val); omega),
      broadcastInDim_apply _ _ _ (ix4 n a b (pos s t)) (ix3 n a (pos s t)) (fun d => match d with
          | ⟨0, _⟩ => rfl
          | ⟨1, _⟩ => rfl
          | ⟨2, _⟩ => rfl),
      centerSlice_apply 23 _ G n a s t (chLinkX a) rfl,
      shapeCast_apply _ _ (ix3 n (pos a b) (pos s t)) (ix6 0 n a b 0 (pos s t))
        (by rw [Shape.rowMajor_val_six, Shape.rowMajor_val_three]
            show (((((0 : Fin 1).val * 32 + n.val) * 14 + a.val) * 14 + b.val) * 1 + (0 : Fin 1).val) * 196 + (s.val * 14 + t.val) = (n.val * 196 + (a.val * 14 + b.val)) * 196 + (s.val * 14 + t.val)
            simp; omega),
      broadcastInDim_apply _ _ _ (ix6 0 n a b 0 (pos s t)) (ix6 0 n 0 b 0 (pos s t)) (fun d => match d with
          | ⟨0, _⟩ => rfl
          | ⟨1, _⟩ => rfl
          | ⟨2, _⟩ => rfl
          | ⟨3, _⟩ => rfl
          | ⟨4, _⟩ => rfl
          | ⟨5, _⟩ => rfl),
      shapeCast_apply _ _ (ix6 0 n 0 b 0 (pos s t)) (ix3 n b (pos s t))
        (by rw [Shape.rowMajor_val_three, Shape.rowMajor_val_six]
            show (n.val * 14 + b.val) * 196 + (s.val * 14 + t.val) = (((((0 : Fin 1).val * 32 + n.val) * 1 + (0 : Fin 1).val) * 14 + b.val) * 1 + (0 : Fin 1).val) * 196 + (s.val * 14 + t.val)
            simp),
      centerSlice_apply 37 _ G n b s t (chLinkY b) rfl]

/-- The out product of two class arrays and two link arrays, index by index: what the kernel leaves in an output array
    whose operands are `A`, `B` (class parts) and `LC`, `LS` (links), positions still merged. -/
def outProduct (A B : FVec Ideal S32x20x196 .f32) (LC LS : FVec Ideal S32x196x196 .f32) : FVec Ideal S32x20x196x196 .f32 := fun j =>
  ((half * A (ix3 (j 0) (j 1) (j 2))) * B (ix3 (j 0) (j 1) (j 3))) * (LC (ix3 (j 0) (j 2) (j 3)) * LS (ix3 (j 0) (j 2) (j 3)))

theorem outProduct_apply (A B : FVec Ideal S32x20x196 .f32) (LC LS : FVec Ideal S32x196x196 .f32) (j : S32x20x196x196.Idx) :
    outProduct A B LC LS j
      = ((half * A (ix3 (j 0) (j 1) (j 2))) * B (ix3 (j 0) (j 1) (j 3))) * (LC (ix3 (j 0) (j 2) (j 3)) * LS (ix3 (j 0) (j 2) (j 3))) := rfl

/-- Un-merging the two position axes of the out product of a corner group's and a center group's operands gives the
    point-linking product of the two groups: the reshape keeps the row-major position, the four operands read as the class
    parts and the links of the two groups, and the grouped product is the left-to-right one re-associated. -/
theorem unmerge_outProduct (cor cen : FVec Ideal S32x51x14x14 .f32) (h : S32x20x196x196.ShapeCasts S32x20x14x14x14x14) :
    shapeCast S32x20x14x14x14x14 (outProduct (classOperand cor) (classOperand cen) (cornerLinks cor) (centerLinks cen)) h
      = linkProduct half cor cen := by
  funext i
  obtain ⟨n, c, ix, iy, sx, sy, rfl⟩ : ∃ (n : Fin 32) (c : Fin 20) (ix iy sx sy : Fin 14), i = ix6 n c ix iy sx sy :=
    ⟨i 0, i 1, i 2, i 3, i 4, i 5, eq_ix6 i⟩
  rw [shapeCast_apply _ h (ix6 n c ix iy sx sy) (ix4 n c (pos ix iy) (pos sx sy))
        (by rw [Shape.rowMajor_val_four, Shape.rowMajor_val_six]
            show ((n.val * 20 + c.val) * 196 + (ix.val * 14 + iy.val)) * 196 + (sx.val * 14 + sy.val)
              = ((((n.val * 20 + c.val) * 14 + ix.val) * 14 + iy.val) * 14 + sx.val) * 14 + sy.val
            omega),
      linkProduct_eq_grouped]
  show ((half * classOperand cor (ix3 n c (pos ix iy))) * classOperand cen (ix3 n c (pos sx sy)))
      * (cornerLinks cor (ix3 n (pos ix iy) (pos sx sy)) * centerLinks cen (ix3 n (pos ix iy) (pos sx sy))) = _
  rw [classOperand_apply, classOperand_apply, cornerLinks_apply, centerLinks_apply]

end Cert.KernelIdeal.Operands

end
-- ==== Proof.Region.lean ====
/-
  The kernel's four output arrays after the region, each as one function of the operand arrays.

  The grid has one point per batch entry.  At point `t` every window's block is entry `t` of its array, whole on the
  other axes; the body leaves in each output block the block product of four input blocks (the module on the body),
  and a block of the out product `outProduct A B LC LS` of the four ARRAYS is exactly that block product of their
  blocks.  The 32 blocks tile each output array, so after the region each output array is the out product whole:

      out[n, c, p, q] = ((h · A[n, c, p]) · B[n, c, q]) · (LC[n, p, q] · LS[n, p, q]).
-/
import proofs.«117441_j60911226191951_2_alg».proof.Proof.Gen.KernelIdeal.Frame
import proofs.«117441_j60911226191951_2_alg».proof.Proof.BlockProduct
import proofs.«117441_j60911226191951_2_alg».proof.Proof.Operands
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Block Cert.KernelIdeal.Operands
open Cert.LinkProduct (half)

variable (m : (ℓ : Loc nD τ sig) → Buf (Elt Ideal) ℓ) (ρ : Dev nD → PrngReg)

/-! ## A window's block at a point, read at an index: the array as the region finds it, at the block's place in it -/

theorem iblk_0 (c : Dev nD) (t : Fin cfg0.N) (z : S1x20x196.Idx) :
    (iblk m c 0 t z : EReal) = (V m c main_v13 : S32x20x196.Idx → EReal) (((cfg0.win 0).blk t).view.emb z) := rfl
theorem iblk_1 (c : Dev nD) (t : Fin cfg0.N) (z : S1x20x196.Idx) :
    (iblk m c 1 t z : EReal) = (V m c main_v18 : S32x20x196.Idx → EReal) (((cfg0.win 1).blk t).view.emb z) := rfl
theorem iblk_2 (c : Dev nD) (t : Fin cfg0.N) (z : S1x20x196.Idx) :
    (iblk m c 2 t z : EReal) = (V m c main_v23 : S32x20x196.Idx → EReal) (((cfg0.win 2).blk t).view.emb z) := rfl
theorem iblk_3 (c : Dev nD) (t : Fin cfg0.N) (z : S1x20x196.Idx) :
    (iblk m c 3 t z : EReal) = (V m c main_v28 : S32x20x196.Idx → EReal) (((cfg0.win 3).blk t).view.emb z) := rfl
theorem iblk_4 (c : Dev nD) (t : Fin cfg0.N) (z : S1x196x196.Idx) :
    (iblk m c 4 t z : EReal) = (V m c main_v40 : S32x196x196.Idx → EReal) (((cfg0.win 4).blk t).view.emb z) := rfl
theorem iblk_5 (c : Dev nD) (t : Fin cfg0.N) (z : S1x196x196.Idx) :
    (iblk m c 5 t z : EReal) = (V m c main_v52 : S32x196x196.Idx → EReal) (((cfg0.win 5).blk t).view.emb z) := rfl
theorem iblk_6 (c : Dev nD) (t : Fin cfg0.N) (z : S1x196x196.Idx) :
    (iblk m c 6 t z : EReal) = (V m c main_v62 : S32x196x196.Idx → EReal) (((cfg0.win 6).blk t).view.emb z) := rfl
theorem iblk_7 (c : Dev nD) (t : Fin cfg0.N) (z : S1x196x196.Idx) :
    (iblk m c 7 t z : EReal) = (V m c main_v72 : S32x196x196.Idx → EReal) (((cfg0.win 7).blk t).view.emb z) := rfl

/-! ## The index maps, decided over the 32 grid points: block `t` on the batch axis, block 0 on every other axis -/

theorem index_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem index_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem index_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem index_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem index_7 : ∀ t : Fin cfg0.N, win0_7.index t (0 : Fin 3) = t.val ∧ win0_7.index t (1 : Fin 3) = 0 ∧ win0_7.index t (2 : Fin 3) = 0 :=
  (by decide +kernel : ∀ t : Fin grid0.N, _)
theorem index_8 : ∀ t : Fin cfg0.N, win0_8.index t (0 : Fin 4) = t.val ∧ win0_8.index t (1 : Fin 4) = 0 ∧ win0_8.index t (2 : Fin 4) = 0 ∧ win0_8.index t (3 : Fin 4) = 0 :=
  (by decide +kernel : ∀ t : Fin grid0.N, _)
theorem index_9 : ∀ t : Fin cfg0.N, win0_9.index t (0 : Fin 4) = t.val ∧ win0_9.index t (1 : Fin 4) = 0 ∧ win0_9.index t (2 : Fin 4) = 0 ∧ win0_9.index t (3 : Fin 4) = 0 :=
  (by decide +kernel : ∀ t : Fin grid0.N, _)
theorem index_10 : ∀ t : Fin cfg0.N, win0_10.index t (0 : Fin 4) = t.val ∧ win0_10.index t (1 : Fin 4) = 0 ∧ win0_10.index t (2 : Fin 4) = 0 ∧ win0_10.index t (3 : Fin 4) = 0 :=
  (by decide +kernel : ∀ t : Fin grid0.N, _)
theorem index_11 : ∀ t : Fin cfg0.N, win0_11.index t (0 : Fin 4) = t.val ∧ win0_11.index t (1 : Fin 4) = 0 ∧ win0_11.index t (2 : Fin 4) = 0 ∧ win0_11.index t (3 : Fin 4) = 0 :=
  (by decide +kernel : ∀ t : Fin grid0.N, _)

set_option maxHeartbeats 4000000 in
/-- What point `t` writes back to output 0: block `t` of the out product of the four operand arrays. -/
theorem flushed8_eq (c : Dev nD) (t : Fin cfg0.N) :
    (dats m 0 c).flushed 8 t = ((cfg0.win 8).blk t).view.read (Elt Ideal)
      (outProduct (V m c main_v13) (V m c main_v23) (V m c main_v40) (V m c main_v62)) := by
  show (cfg0.win 8).cut (grid0.coords t) ((dats m 0 c).after 8 t) = _
  rw [after0_8, out0_8_eq]
  funext y
  show blockProduct (iblk m c 0 t) (iblk m c 2 t) (iblk m c 4 t) (iblk m c 6 t) y = _
  obtain ⟨q0, q1, q2, q3⟩ := index_8 t
  have ha : ((cfg0.win 0).blk t).view.emb (ix3 (y 0) (y 1) (y 2)) = ix3 (((cfg0.win 8).blk t).view.emb y 0) (((cfg0.win 8).blk t).view.emb y 1) (((cfg0.win 8).blk t).view.emb y 2) := by
    obtain ⟨p0, p1, p2⟩ := index_0 t
    funext d; apply Fin.ext
    match d with
    | ⟨0, _⟩ => show win0_0.index t (0 : Fin 3) * 1 + 1 * (y 0).val = win0_8.index t (0 : Fin 4) * 1 + 1 * (y 0).val; omega
    | ⟨1, _⟩ => show win0_0.index t (1 : Fin 3) * 20 + 1 * (y 1).val = win0_8.index t (1 : Fin 4) * 20 + 1 * (y 1).val; omega
    | ⟨2, _⟩ => show win0_0.index t (2 : Fin 3) * 196 + 1 * (y 2).val = win0_8.index t (2 : Fin 4) * 196 + 1 * (y 2).val; omega
  have hb : ((cfg0.win 2).blk t).view.emb (ix3 (y 0) (y 1) (y 3)) = ix3 (((cfg0.win 8).blk t).view.emb y 0) (((cfg0.win 8).blk t).view.emb y 1) (((cfg0.win 8).blk t).view.emb y 3) := by
    obtain ⟨p0, p1, p2⟩ := index_2 t
    funext d; apply Fin.ext
    match d with
    | ⟨0, _⟩ => show win0_2.index t (0 : Fin 3) * 1 + 1 * (y 0).val = win0_8.index t (0 : Fin 4) * 1 + 1 * (y 0).val; omega
    | ⟨1, _⟩ => show win0_2.index t (1 : Fin 3) * 20 + 1 * (y 1).val = win0_8.index t (1 : Fin 4) * 20 + 1 * (y 1).val; omega
    | ⟨2, _⟩ => show win0_2.index t (2 : Fin 3) * 196 + 1 * (y 3).val = win0_8.index t (3 : Fin 4) * 196 + 1 * (y 3).val; omega
  have hc : ((cfg0.win 4).blk t).view.emb (ix3 (y 0) (y 2) (y 3)) = ix3 (((cfg0.win 8).blk t).view.emb y 0) (((cfg0.win 8).blk t).view.emb y 2) (((cfg0.win 8).blk t).view.emb y 3) := by
    obtain ⟨p0, p1, p2⟩ := index_4 t
    funext d; apply Fin.ext
    match d with
    | ⟨0, _⟩ => show win0_4.index t (0 : Fin 3) * 1 + 1 * (y 0).val = win0_8.index t (0 : Fin 4) * 1 + 1 * (y 0).val; omega
    | ⟨1, _⟩ => show win0_4.index t (1 : Fin 3) * 196 + 1 * (y 2).val = win0_8.index t (2 : Fin 4) * 196 + 1 * (y 2).val; omega
    | ⟨2, _⟩ => show win0_4.index t (2 : Fin 3) * 196 + 1 * (y 3).val = win0_8.index t (3 : Fin 4) * 196 + 1 * (y 3).val; omega
  have hs : ((cfg0.win 6).blk t).view.emb (ix3 (y 0) (y 2) (y 3)) = ix3 (((cfg0.win 8).blk t).view.emb y 0) (((cfg0.win 8).blk t).view.emb y 2) (((cfg0.win 8).blk t).view.emb y 3) := by
    obtain ⟨p0, p1, p2⟩ := index_6 t
    funext d; apply Fin.ext
    match d with
    | ⟨0, _⟩ => show win0_6.index t (0 : Fin 3) * 1 + 1 * (y 0).val = win0_8.index t (0 : Fin 4) * 1 + 1 * (y 0).val; omega
    | ⟨1, _⟩ => show win0_6.index t (1 : Fin 3) * 196 + 1 * (y 2).val = win0_8.index t (2 : Fin 4) * 196 + 1 * (y 2).val; omega
    | ⟨2, _⟩ => show win0_6.index t (2 : Fin 3) * 196 + 1 * (y 3).val = win0_8.index t (3 : Fin 4) * 196 + 1 * (y 3).val; omega
  rw [blockProduct_apply, View.read_apply, outProduct_apply, iblk_0, iblk_2, iblk_4, iblk_6, ha, hb, hc, hs]
  rfl

/-- An index of output 0's array lies in point `t`'s block iff each coordinate lies in the block's range. -/
theorem mem_blk8 (t : Fin cfg0.N) (i : S32x20x196x196.Idx) :
    i ∈ ((cfg0.win 8).blk t).view.set ↔ ∀ a : Fin 4, win0_8.index t a * S1x20x196x196.size a ≤ (i a).val
      ∧ (i a).val < win0_8.index t a * S1x20x196x196.size a + S1x20x196x196.size a := by
  show i ∈ ((View.whole main_v73_0).slice (win0_8.rect t)).set ↔ _
  rw [View.set_slice_whole, Rect.mem_set_unit]
  exact Iff.rfl

/-- Every index of output 0's array is in the block of the point its batch coordinate names. -/
theorem cover8 (i : S32x20x196x196.Idx) :
    ∃ t : Fin cfg0.N, (cfg0.win 8).flush t = true ∧ i ∈ ((cfg0.win 8).blk t).view.set := by
  have h0 : (i 0).val < 32 := (i 0).isLt
  have h1 : (i 1).val < 20 := (i 1).isLt
  have h2 : (i 2).val < 196 := (i 2).isLt
  have h3 : (i 3).val < 196 := (i 3).isLt
  refine ⟨⟨(i 0).val, h0⟩, flush0_8 _, ?_⟩
  obtain ⟨q0, q1, q2, q3⟩ := index_8 ⟨(i 0).val, h0⟩
  rw [mem_blk8]
  intro a
  match a with
  | ⟨0, _⟩ => show win0_8.index _ (0 : Fin 4) * 1 ≤ (i 0).val ∧ (i 0).val < win0_8.index _ (0 : Fin 4) * 1 + 1; rw [q0]; show (i 0).val * 1 ≤ (i 0).val ∧ (i 0).val < (i 0).val * 1 + 1; omega
  | ⟨1, _⟩ => show win0_8.index _ (1 : Fin 4) * 20 ≤ (i 1).val ∧ (i 1).val < win0_8.index _ (1 : Fin 4) * 20 + 20; omega
  | ⟨2, _⟩ => show win0_8.index _ (2 : Fin 4) * 196 ≤ (i 2).val ∧ (i 2).val < win0_8.index _ (2 : Fin 4) * 196 + 196; omega
  | ⟨3, _⟩ => show win0_8.index _ (3 : Fin 4) * 196 ≤ (i 3).val ∧ (i 3).val < win0_8.index _ (3 : Fin 4) * 196 + 196; omega

/-- Output 0's array after the region: the out product of the four operand arrays, whole. -/
theorem final8 (c : Dev nD) :
    (dats m 0 c).arrAt 8 cfg0.N = outProduct (V m c main_v13) (V m c main_v23) (V m c main_v40) (V m c main_v62) :=
  (dats m 0 c).arrAt_eq_of_cover 8 _ (fun t _ => flushed8_eq m c t) cover8

set_option maxHeartbeats 4000000 in
/-- What point `t` writes back to output 1: block `t` of the out product of the four operand arrays. -/
theorem flushed9_eq (c : Dev nD) (t : Fin cfg0.N) :
    (dats m 0 c).flushed 9 t = ((cfg0.win 9).blk t).view.read (Elt Ideal)
      (outProduct (V m c main_v18) (V m c main_v23) (V m c main_v52) (V m c main_v62)) := by
  show (cfg0.win 9).cut (grid0.coords t) ((dats m 0 c).after 9 t) = _
  rw [after0_9, out0_9_eq]
  funext y
  show blockProduct (iblk m c 1 t) (iblk m c 2 t) (iblk m c 5 t) (iblk m c 6 t) y = _
  obtain ⟨q0, q1, q2, q3⟩ := index_9 t
  have ha : ((cfg0.win 1).blk t).view.emb (ix3 (y 0) (y 1) (y 2)) = ix3 (((cfg0.win 9).blk t).view.emb y 0) (((cfg0.win 9).blk t).view.emb y 1) (((cfg0.win 9).blk t).view.emb y 2) := by
    obtain ⟨p0, p1, p2⟩ := index_1 t
    funext d; apply Fin.ext
    match d with
    | ⟨0, _⟩ => show win0_1.index t (0 : Fin 3) * 1 + 1 * (y 0).val = win0_9.index t (0 : Fin 4) * 1 + 1 * (y 0).val; omega
    | ⟨1, _⟩ => show win0_1.index t (1 : Fin 3) * 20 + 1 * (y 1).val = win0_9.index t (1 : Fin 4) * 20 + 1 * (y 1).val; omega
    | ⟨2, _⟩ => show win0_1.index t (2 : Fin 3) * 196 + 1 * (y 2).val = win0_9.index t (2 : Fin 4) * 196 + 1 * (y 2).val; omega
  have hb : ((cfg0.win 2).blk t).view.emb (ix3 (y 0) (y 1) (y 3)) = ix3 (((cfg0.win 9).blk t).view.emb y 0) (((cfg0.win 9).blk t).view.emb y 1) (((cfg0.win 9).blk t).view.emb y 3) := by
    obtain ⟨p0, p1, p2⟩ := index_2 t
    funext d; apply Fin.ext
    match d with
    | ⟨0, _⟩ => show win0_2.index t (0 : Fin 3) * 1 + 1 * (y 0).val = win0_9.index t (0 : Fin 4) * 1 + 1 * (y 0).val; omega
    | ⟨1, _⟩ => show win0_2.index t (1 : Fin 3) * 20 + 1 * (y 1).val = win0_9.index t (1 : Fin 4) * 20 + 1 * (y 1).val; omega
    | ⟨2, _⟩ => show win0_2.index t (2 : Fin 3) * 196 + 1 * (y 3).val = win0_9.index t (3 : Fin 4) * 196 + 1 * (y 3).val; omega
  have hc : ((cfg0.win 5).blk t).view.emb (ix3 (y 0) (y 2) (y 3)) = ix3 (((cfg0.win 9).blk t).view.emb y 0) (((cfg0.win 9).blk t).view.emb y 2) (((cfg0.win 9).blk t).view.emb y 3) := by
    obtain ⟨p0, p1, p2⟩ := index_5 t
    funext d; apply Fin.ext
    match d with
    | ⟨0, _⟩ => show win0_5.index t (0 : Fin 3) * 1 + 1 * (y 0).val = win0_9.index t (0 : Fin 4) * 1 + 1 * (y 0).val; omega
    | ⟨1, _⟩ => show win0_5.index t (1 : Fin 3) * 196 + 1 * (y 2).val = win0_9.index t (2 : Fin 4) * 196 + 1 * (y 2).val; omega
    | ⟨2, _⟩ => show win0_5.index t (2 : Fin 3) * 196 + 1 * (y 3).val = win0_9.index t (3 : Fin 4) * 196 + 1 * (y 3).val; omega
  have hs : ((cfg0.win 6).blk t).view.emb (ix3 (y 0) (y 2) (y 3)) = ix3 (((cfg0.win 9).blk t).view.emb y 0) (((cfg0.win 9).blk t).view.emb y 2) (((cfg0.win 9).blk t).view.emb y 3) := by
    obtain ⟨p0, p1, p2⟩ := index_6 t
    funext d; apply Fin.ext
    match d with
    | ⟨0, _⟩ => show win0_6.index t (0 : Fin 3) * 1 + 1 * (y 0).val = win0_9.index t (0 : Fin 4) * 1 + 1 * (y 0).val; omega
    | ⟨1, _⟩ => show win0_6.index t (1 : Fin 3) * 196 + 1 * (y 2).val = win0_9.index t (2 : Fin 4) * 196 + 1 * (y 2).val; omega
    | ⟨2, _⟩ => show win0_6.index t (2 : Fin 3) * 196 + 1 * (y 3).val = win0_9.index t (3 : Fin 4) * 196 + 1 * (y 3).val; omega
  rw [blockProduct_apply, View.read_apply, outProduct_apply, iblk_1, iblk_2, iblk_5, iblk_6, ha, hb, hc, hs]
  rfl

/-- An index of output 1's array lies in point `t`'s block iff each coordinate lies in the block's range. -/
theorem mem_blk9 (t : Fin cfg0.N) (i : S32x20x196x196.Idx) :
    i ∈ ((cfg0.win 9).blk t).view.set ↔ ∀ a : Fin 4, win0_9.index t a * S1x20x196x196.size a ≤ (i a).val
      ∧ (i a).val < win0_9.index t a * S1x20x196x196.size a + S1x20x196x196.size a := by
  show i ∈ ((View.whole main_v73_1).slice (win0_9.rect t)).set ↔ _
  rw [View.set_slice_whole, Rect.mem_set_unit]
  exact Iff.rfl

/-- Every index of output 1's array is in the block of the point its batch coordinate names. -/
theorem cover9 (i : S32x20x196x196.Idx) :
    ∃ t : Fin cfg0.N, (cfg0.win 9).flush t = true ∧ i ∈ ((cfg0.win 9).blk t).view.set := by
  have h0 : (i 0).val < 32 := (i 0).isLt
  have h1 : (i 1).val < 20 := (i 1).isLt
  have h2 : (i 2).val < 196 := (i 2).isLt
  have h3 : (i 3).val < 196 := (i 3).isLt
  refine ⟨⟨(i 0).val, h0⟩, flush0_9 _, ?_⟩
  obtain ⟨q0, q1, q2, q3⟩ := index_9 ⟨(i 0).val, h0⟩
  rw [mem_blk9]
  intro a
  match a with
  | ⟨0, _⟩ => show win0_9.index _ (0 : Fin 4) * 1 ≤ (i 0).val ∧ (i 0).val < win0_9.index _ (0 : Fin 4) * 1 + 1; rw [q0]; show (i 0).val * 1 ≤ (i 0).val ∧ (i 0).val < (i 0).val * 1 + 1; omega
  | ⟨1, _⟩ => show win0_9.index _ (1 : Fin 4) * 20 ≤ (i 1).val ∧ (i 1).val < win0_9.index _ (1 : Fin 4) * 20 + 20; omega
  | ⟨2, _⟩ => show win0_9.index _ (2 : Fin 4) * 196 ≤ (i 2).val ∧ (i 2).val < win0_9.index _ (2 : Fin 4) * 196 + 196; omega
  | ⟨3, _⟩ => show win0_9.index _ (3 : Fin 4) * 196 ≤ (i 3).val ∧ (i 3).val < win0_9.index _ (3 : Fin 4) * 196 + 196; omega

/-- Output 1's array after the region: the out product of the four operand arrays, whole. -/
theorem final9 (c : Dev nD) :
    (dats m 0 c).arrAt 9 cfg0.N = outProduct (V m c main_v18) (V m c main_v23) (V m c main_v52) (V m c main_v62) :=
  (dats m 0 c).arrAt_eq_of_cover 9 _ (fun t _ => flushed9_eq m c t) cover9

set_option maxHeartbeats 4000000 in
/-- What point `t` writes back to output 2: block `t` of the out product of the four operand arrays. -/
theorem flushed10_eq (c : Dev nD) (t : Fin cfg0.N) :
    (dats m 0 c).flushed 10 t = ((cfg0.win 10).blk t).view.read (Elt Ideal)
      (outProduct (V m c main_v13) (V m c main_v28) (V m c main_v40) (V m c main_v72)) := by
  show (cfg0.win 10).cut (grid0.coords t) ((dats m 0 c).after 10 t) = _
  rw [after0_10, out0_10_eq]
  funext y
  show blockProduct (iblk m c 0 t) (iblk m c 3 t) (iblk m c 4 t) (iblk m c 7 t) y = _
  obtain ⟨q0, q1, q2, q3⟩ := index_10 t
  have ha : ((cfg0.win 0).blk t).view.emb (ix3 (y 0) (y 1) (y 2)) = ix3 (((cfg0.win 10).blk t).view.emb y 0) (((cfg0.win 10).blk t).view.emb y 1) (((cfg0.win 10).blk t).view.emb y 2) := by
    obtain ⟨p0, p1, p2⟩ := index_0 t
    funext d; apply Fin.ext
    match d with
    | ⟨0, _⟩ => show win0_0.index t (0 : Fin 3) * 1 + 1 * (y 0).val = win0_10.index t (0 : Fin 4) * 1 + 1 * (y 0).val; omega
    | ⟨1, _⟩ => show win0_0.index t (1 : Fin 3) * 20 + 1 * (y 1).val = win0_10.index t (1 : Fin 4) * 20 + 1 * (y 1).val; omega
    | ⟨2, _⟩ => show win0_0.index t (2 : Fin 3) * 196 + 1 * (y 2).val = win0_10.index t (2 : Fin 4) * 196 + 1 * (y 2).val; omega
  have hb : ((cfg0.win 3).blk t).view.emb (ix3 (y 0) (y 1) (y 3)) = ix3 (((cfg0.win 10).blk t).view.emb y 0) (((cfg0.win 10).blk t).view.emb y 1) (((cfg0.win 10).blk t).view.emb y 3) := by
    obtain ⟨p0, p1, p2⟩ := index_3 t
    funext d; apply Fin.ext
    match d with
    | ⟨0, _⟩ => show win0_3.index t (0 : Fin 3) * 1 + 1 * (y 0).val = win0_10.index t (0 : Fin 4) * 1 + 1 * (y 0).val; omega
    | ⟨1, _⟩ => show win0_3.index t (1 : Fin 3) * 20 + 1 * (y 1).val = win0_10.index t (1 : Fin 4) * 20 + 1 * (y 1).val; omega
    | ⟨2, _⟩ => show win0_3.index t (2 : Fin 3) * 196 + 1 * (y 3).val = win0_10.index t (3 : Fin 4) * 196 + 1 * (y 3).val; omega
  have hc : ((cfg0.win 4).blk t).view.emb (ix3 (y 0) (y 2) (y 3)) = ix3 (((cfg0.win 10).blk t).view.emb y 0) (((cfg0.win 10).blk t).view.emb y 2) (((cfg0.win 10).blk t).view.emb y 3) := by
    obtain ⟨p0, p1, p2⟩ := index_4 t
    funext d; apply Fin.ext
    match d with
    | ⟨0, _⟩ => show win0_4.index t (0 : Fin 3) * 1 + 1 * (y 0).val = win0_10.index t (0 : Fin 4) * 1 + 1 * (y 0).val; omega
    | ⟨1, _⟩ => show win0_4.index t (1 : Fin 3) * 196 + 1 * (y 2).val = win0_10.index t (2 : Fin 4) * 196 + 1 * (y 2).val; omega
    | ⟨2, _⟩ => show win0_4.index t (2 : Fin 3) * 196 + 1 * (y 3).val = win0_10.index t (3 : Fin 4) * 196 + 1 * (y 3).val; omega
  have hs : ((cfg0.win 7).blk t).view.emb (ix3 (y 0) (y 2) (y 3)) = ix3 (((cfg0.win 10).blk t).view.emb y 0) (((cfg0.win 10).blk t).view.emb y 2) (((cfg0.win 10).blk t).view.emb y 3) := by
    obtain ⟨p0, p1, p2⟩ := index_7 t
    funext d; apply Fin.ext
    match d with
    | ⟨0, _⟩ => show win0_7.index t (0 : Fin 3) * 1 + 1 * (y 0).val = win0_10.index t (0 : Fin 4) * 1 + 1 * (y 0).val; omega
    | ⟨1, _⟩ => show win0_7.index t (1 : Fin 3) * 196 + 1 * (y 2).val = win0_10.index t (2 : Fin 4) * 196 + 1 * (y 2).val; omega
    | ⟨2, _⟩ => show win0_7.index t (2 : Fin 3) * 196 + 1 * (y 3).val = win0_10.index t (3 : Fin 4) * 196 + 1 * (y 3).val; omega
  rw [blockProduct_apply, View.read_apply, outProduct_apply, iblk_0, iblk_3, iblk_4, iblk_7, ha, hb, hc, hs]
  rfl

/-- An index of output 2's array lies in point `t`'s block iff each coordinate lies in the block's range. -/
theorem mem_blk10 (t : Fin cfg0.N) (i : S32x20x196x196.Idx) :
    i ∈ ((cfg0.win 10).blk t).view.set ↔ ∀ a : Fin 4, win0_10.index t a * S1x20x196x196.size a ≤ (i a).val
      ∧ (i a).val < win0_10.index t a * S1x20x196x196.size a + S1x20x196x196.size a := by
  show i ∈ ((View.whole main_v73_2).slice (win0_10.rect t)).set ↔ _
  rw [View.set_slice_whole, Rect.mem_set_unit]
  exact Iff.rfl

/-- Every index of output 2's array is in the block of the point its batch coordinate names. -/
theorem cover10 (i : S32x20x196x196.Idx) :
    ∃ t : Fin cfg0.N, (cfg0.win 10).flush t = true ∧ i ∈ ((cfg0.win 10).blk t).view.set := by
  have h0 : (i 0).val < 32 := (i 0).isLt
  have h1 : (i 1).val < 20 := (i 1).isLt
  have h2 : (i 2).val < 196 := (i 2).isLt
  have h3 : (i 3).val < 196 := (i 3).isLt
  refine ⟨⟨(i 0).val, h0⟩, flush0_10 _, ?_⟩
  obtain ⟨q0, q1, q2, q3⟩ := index_10 ⟨(i 0).val, h0⟩
  rw [mem_blk10]
  intro a
  match a with
  | ⟨0, _⟩ => show win0_10.index _ (0 : Fin 4) * 1 ≤ (i 0).val ∧ (i 0).val < win0_10.index _ (0 : Fin 4) * 1 + 1; rw [q0]; show (i 0).val * 1 ≤ (i 0).val ∧ (i 0).val < (i 0).val * 1 + 1; omega
  | ⟨1, _⟩ => show win0_10.index _ (1 : Fin 4) * 20 ≤ (i 1).val ∧ (i 1).val < win0_10.index _ (1 : Fin 4) * 20 + 20; omega
  | ⟨2, _⟩ => show win0_10.index _ (2 : Fin 4) * 196 ≤ (i 2).val ∧ (i 2).val < win0_10.index _ (2 : Fin 4) * 196 + 196; omega
  | ⟨3, _⟩ => show win0_10.index _ (3 : Fin 4) * 196 ≤ (i 3).val ∧ (i 3).val < win0_10.index _ (3 : Fin 4) * 196 + 196; omega

/-- Output 2's array after the region: the out product of the four operand arrays, whole. -/
theorem final10 (c : Dev nD) :
    (dats m 0 c).arrAt 10 cfg0.N = outProduct (V m c main_v13) (V m c main_v28) (V m c main_v40) (V m c main_v72) :=
  (dats m 0 c).arrAt_eq_of_cover 10 _ (fun t _ => flushed10_eq m c t) cover10

set_option maxHeartbeats 4000000 in
/-- What point `t` writes back to output 3: block `t` of the out product of the four operand arrays. -/
theorem flushed11_eq (c : Dev nD) (t : Fin cfg0.N) :
    (dats m 0 c).flushed 11 t = ((cfg0.win 11).blk t).view.read (Elt Ideal)
      (outProduct (V m c main_v18) (V m c main_v28) (V m c main_v52) (V m c main_v72)) := by
  show (cfg0.win 11).cut (grid0.coords t) ((dats m 0 c).after 11 t) = _
  rw [after0_11, out0_11_eq]
  funext y
  show blockProduct (iblk m c 1 t) (iblk m c 3 t) (iblk m c 5 t) (iblk m c 7 t) y = _
  obtain ⟨q0, q1, q2, q3⟩ := index_11 t
  have ha : ((cfg0.win 1).blk t).view.emb (ix3 (y 0) (y 1) (y 2)) = ix3 (((cfg0.win 11).blk t).view.emb y 0) (((cfg0.win 11).blk t).view.emb y 1) (((cfg0.win 11).blk t).view.emb y 2) := by
    obtain ⟨p0, p1, p2⟩ := index_1 t
    funext d; apply Fin.ext
    match d with
    | ⟨0, _⟩ => show win0_1.index t (0 : Fin 3) * 1 + 1 * (y 0).val = win0_11.index t (0 : Fin 4) * 1 + 1 * (y 0).val; omega
    | ⟨1, _⟩ => show win0_1.index t (1 : Fin 3) * 20 + 1 * (y 1).val = win0_11.index t (1 : Fin 4) * 20 + 1 * (y 1).val; omega
    | ⟨2, _⟩ => show win0_1.index t (2 : Fin 3) * 196 + 1 * (y 2).val = win0_11.index t (2 : Fin 4) * 196 + 1 * (y 2).val; omega
  have hb : ((cfg0.win 3).blk t).view.emb (ix3 (y 0) (y 1) (y 3)) = ix3 (((cfg0.win 11).blk t).view.emb y 0) (((cfg0.win 11).blk t).view.emb y 1) (((cfg0.win 11).blk t).view.emb y 3) := by
    obtain ⟨p0, p1, p2⟩ := index_3 t
    funext d; apply Fin.ext
    match d with
    | ⟨0, _⟩ => show win0_3.index t (0 : Fin 3) * 1 + 1 * (y 0).val = win0_11.index t (0 : Fin 4) * 1 + 1 * (y 0).val; omega
    | ⟨1, _⟩ => show win0_3.index t (1 : Fin 3) * 20 + 1 * (y 1).val = win0_11.index t (1 : Fin 4) * 20 + 1 * (y 1).val; omega
    | ⟨2, _⟩ => show win0_3.index t (2 : Fin 3) * 196 + 1 * (y 3).val = win0_11.index t (3 : Fin 4) * 196 + 1 * (y 3).val; omega
  have hc : ((cfg0.win 5).blk t).view.emb (ix3 (y 0) (y 2) (y 3)) = ix3 (((cfg0.win 11).blk t).view.emb y 0) (((cfg0.win 11).blk t).view.emb y 2) (((cfg0.win 11).blk t).view.emb y 3) := by
    obtain ⟨p0, p1, p2⟩ := index_5 t
    funext d; apply Fin.ext
    match d with
    | ⟨0, _⟩ => show win0_5.index t (0 : Fin 3) * 1 + 1 * (y 0).val = win0_11.index t (0 : Fin 4) * 1 + 1 * (y 0).val; omega
    | ⟨1, _⟩ => show win0_5.index t (1 : Fin 3) * 196 + 1 * (y 2).val = win0_11.index t (2 : Fin 4) * 196 + 1 * (y 2).val; omega
    | ⟨2, _⟩ => show win0_5.index t (2 : Fin 3) * 196 + 1 * (y 3).val = win0_11.index t (3 : Fin 4) * 196 + 1 * (y 3).val; omega
  have hs : ((cfg0.win 7).blk t).view.emb (ix3 (y 0) (y 2) (y 3)) = ix3 (((cfg0.win 11).blk t).view.emb y 0) (((cfg0.win 11).blk t).view.emb y 2) (((cfg0.win 11).blk t).view.emb y 3) := by
    obtain ⟨p0, p1, p2⟩ := index_7 t
    funext d; apply Fin.ext
    match d with
    | ⟨0, _⟩ => show win0_7.index t (0 : Fin 3) * 1 + 1 * (y 0).val = win0_11.index t (0 : Fin 4) * 1 + 1 * (y 0).val; omega
    | ⟨1, _⟩ => show win0_7.index t (1 : Fin 3) * 196 + 1 * (y 2).val = win0_11.index t (2 : Fin 4) * 196 + 1 * (y 2).val; omega
    | ⟨2, _⟩ => show win0_7.index t (2 : Fin 3) * 196 + 1 * (y 3).val = win0_11.index t (3 : Fin 4) * 196 + 1 * (y 3).val; omega
  rw [blockProduct_apply, View.read_apply, outProduct_apply, iblk_1, iblk_3, iblk_5, iblk_7, ha, hb, hc, hs]
  rfl

/-- An index of output 3's array lies in point `t`'s block iff each coordinate lies in the block's range. -/
theorem mem_blk11 (t : Fin cfg0.N) (i : S32x20x196x196.Idx) :
    i ∈ ((cfg0.win 11).blk t).view.set ↔ ∀ a : Fin 4, win0_11.index t a * S1x20x196x196.size a ≤ (i a).val
      ∧ (i a).val < win0_11.index t a * S1x20x196x196.size a + S1x20x196x196.size a := by
  show i ∈ ((View.whole main_v73_3).slice (win0_11.rect t)).set ↔ _
  rw [View.set_slice_whole, Rect.mem_set_unit]
  exact Iff.rfl

/-- Every index of output 3's array is in the block of the point its batch coordinate names. -/
theorem cover11 (i : S32x20x196x196.Idx) :
    ∃ t : Fin cfg0.N, (cfg0.win 11).flush t = true ∧ i ∈ ((cfg0.win 11).blk t).view.set := by
  have h0 : (i 0).val < 32 := (i 0).isLt
  have h1 : (i 1).val < 20 := (i 1).isLt
  have h2 : (i 2).val < 196 := (i 2).isLt
  have h3 : (i 3).val < 196 := (i 3).isLt
  refine ⟨⟨(i 0).val, h0⟩, flush0_11 _, ?_⟩
  obtain ⟨q0, q1, q2, q3⟩ := index_11 ⟨(i 0).val, h0⟩
  rw [mem_blk11]
  intro a
  match a with
  | ⟨0, _⟩ => show win0_11.index _ (0 : Fin 4) * 1 ≤ (i 0).val ∧ (i 0).val < win0_11.index _ (0 : Fin 4) * 1 + 1; rw [q0]; show (i 0).val * 1 ≤ (i 0).val ∧ (i 0).val < (i 0).val * 1 + 1; omega
  | ⟨1, _⟩ => show win0_11.index _ (1 : Fin 4) * 20 ≤ (i 1).val ∧ (i 1).val < win0_11.index _ (1 : Fin 4) * 20 + 20; omega
  | ⟨2, _⟩ => show win0_11.index _ (2 : Fin 4) * 196 ≤ (i 2).val ∧ (i 2).val < win0_11.index _ (2 : Fin 4) * 196 + 196; omega
  | ⟨3, _⟩ => show win0_11.index _ (3 : Fin 4) * 196 ≤ (i 3).val ∧ (i 3).val < win0_11.index _ (3 : Fin 4) * 196 + 196; omega

/-- Output 3's array after the region: the out product of the four operand arrays, whole. -/
theorem final11 (c : Dev nD) :
    (dats m 0 c).arrAt 11 cfg0.N = outProduct (V m c main_v18) (V m c main_v28) (V m c main_v52) (V m c main_v72) :=
  (dats m 0 c).arrAt_eq_of_cover 11 _ (fun t _ => flushed11_eq m c t) cover11

end Cert.KernelIdeal.Region

end
-- ==== Proof.Results.lean ====
/-
  The kernel's run with its four results named.

  Before the region the program builds, from each of the four groups of the input, a class operand, and from each corner
  group a corner link operand and from each center group a center link operand (the eight arrays the region finds);
  the region leaves in each output array the out product of four of them; after the region each output's two merged
  position axes are split again.  So result `k` is the point-linking product of one corner group and one center group:
  (0, 2), (1, 2), (0, 3), (1, 3) in the order of the results.
-/
import proofs.«117441_j60911226191951_2_alg».proof.Proof.Region
import Idealize.ShloMosaic.Lib.StableHlo.Run

set_option maxRecDepth 16384

noncomputable section

namespace Cert.KernelIdeal.Results

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)
open Cert.KernelIdeal.Operands Cert.KernelIdeal.Region
open Cert.LinkProduct

variable (m : (ℓ : Loc nD τ sig) → Buf (Elt Ideal) ℓ) (ρ : Dev nD → PrngReg)

/-! ## The eight operand arrays as the region finds them -/
set_option maxHeartbeats 4000000

/-- Operand 0: the class operand of group 0. -/
theorem class_0 (c : Dev nD) : (V m c main_v13 : S32x20x196.Idx → EReal) = classOperand (group 0 slices_S32x4x51x14x14_S32x1x51x14x14_0_0_0_0_0 (m ((c : Thread nD τ).loc main_arg0))) := by
  show StableHlo.after hostOps0 (fun b => m (c, b)) (Proc.devRef .tc main_v13) = _
  after_results_simp <;> rfl

/-- Operand 1: the class operand of group 1. -/
theorem class_1 (c : Dev nD) : (V m c main_v18 : S32x20x196.Idx → EReal) = classOperand (group 1 slices_S32x4x51x14x14_S32x1x51x14x14_0_1_0_0_0 (m ((c : Thread nD τ).loc main_arg0))) := by
  show StableHlo.after hostOps0 (fun b => m (c, b)) (Proc.devRef .tc main_v18) = _
  after_results_simp <;> rfl

/-- Operand 2: the class operand of group 2. -/
theorem class_2 (c : Dev nD) : (V m c main_v23 : S32x20x196.Idx → EReal) = classOperand (group 2 slices_S32x4x51x14x14_S32x1x51x14x14_0_2_0_0_0 (m ((c : Thread nD τ).loc main_arg0))) := by
  show StableHlo.after hostOps0 (fun b => m (c, b)) (Proc.devRef .tc main_v23) = _
  after_results_simp <;> rfl

/-- Operand 3: the class operand of group 3. -/
theorem class_3 (c : Dev nD) : (V m c main_v28 : S32x20x196.Idx → EReal) = classOperand (group 3 slices_S32x4x51x14x14_S32x1x51x14x14_0_3_0_0_0 (m ((c : Thread nD τ).loc main_arg0))) := by
  show StableHlo.after hostOps0 (fun b => m (c, b)) (Proc.devRef .tc main_v28) = _
  after_results_simp <;> rfl

/-- Operand 4: the corner link operand of group 0. -/
theorem links_0 (c : Dev nD) : (V m c main_v40 : S32x196x196.Idx → EReal) = cornerLinks (group 0 slices_S32x4x51x14x14_S32x1x51x14x14_0_0_0_0_0 (m ((c : Thread nD τ).loc main_arg0))) := by
  show StableHlo.after hostOps0 (fun b => m (c, b)) (Proc.devRef .tc main_v40) = _
  after_results_simp <;> rfl

/-- Operand 5: the corner link operand of group 1. -/
theorem links_1 (c : Dev nD) : (V m c main_v52 : S32x196x196.Idx → EReal) = cornerLinks (group 1 slices_S32x4x51x14x14_S32x1x51x14x14_0_1_0_0_0 (m ((c : Thread nD τ).loc main_arg0))) := by
  show StableHlo.after hostOps0 (fun b => m (c, b)) (Proc.devRef .tc main_v52) = _
  after_results_simp <;> rfl

/-- Operand 6: the center link operand of group 2. -/
theorem links_2 (c : Dev nD) : (V m c main_v62 : S32x196x196.Idx → EReal) = centerLinks (group 2 slices_S32x4x51x14x14_S32x1x51x14x14_0_2_0_0_0 (m ((c : Thread nD τ).loc main_arg0))) := by
  show StableHlo.after hostOps0 (fun b => m (c, b)) (Proc.devRef .tc main_v62) = _
  after_results_simp <;> rfl

/-- Operand 7: the center link operand of group 3. -/
theorem links_3 (c : Dev nD) : (V m c main_v72 : S32x196x196.Idx → EReal) = centerLinks (group 3 slices_S32x4x51x14x14_S32x1x51x14x14_0_3_0_0_0 (m ((c : Thread nD τ).loc main_arg0))) := by
  show StableHlo.after hostOps0 (fun b => m (c, b)) (Proc.devRef .tc main_v72) = _
  after_results_simp <;> rfl

/-! ## The results -/

/-- Result 0 after the lines that follow the region: output 0's array with its two position axes un-merged. -/
theorem tail_main_v74 (c : Dev nD) :
    Pipeline.afterTail₀ cfgs (dats m) 0 (V0 m) [hostOps1] c main_v74
      = shapeCast S32x20x14x14x14x14 ((dats m 0 c).arrAt 8 cfg0.N) shapeCasts_S32x20x196x196_S32x20x14x14x14x14 := by
  unfold Pipeline.afterTail₀
  show StableHlo.after hostOps1 _ (Proc.devRef .tc main_v74) = _
  after_results
  rw [Pipeline.withArrays_arr spec0 launch0.win.arr_inj c _ _ 8]
  rfl

/-- Result 0 is the point-linking product of corner group 0 and center group 2 of the input. -/
theorem value_main_v74 (c : Dev nD) :
    Pipeline.afterTail₀ cfgs (dats m) 0 (V0 m) [hostOps1] c main_v74 = linkProduct half (group 0 slices_S32x4x51x14x14_S32x1x51x14x14_0_0_0_0_0 (m ((c : Thread nD τ).loc main_arg0))) (group 2 slices_S32x4x51x14x14_S32x1x51x14x14_0_2_0_0_0 (m ((c : Thread nD τ).loc main_arg0))) := by
  rw [tail_main_v74, final8, class_0, class_2, links_0, links_2]
  exact unmerge_outProduct _ _ _

/-- Result 1 after the lines that follow the region: output 1's array with its two position axes un-merged. -/
theorem tail_main_v75 (c : Dev nD) :
    Pipeline.afterTail₀ cfgs (dats m) 0 (V0 m) [hostOps1] c main_v75
      = shapeCast S32x20x14x14x14x14 ((dats m 0 c).arrAt 9 cfg0.N) shapeCasts_S32x20x196x196_S32x20x14x14x14x14 := by
  unfold Pipeline.afterTail₀
  show StableHlo.after hostOps1 _ (Proc.devRef .tc main_v75) = _
  after_results
  rw [Pipeline.withArrays_arr spec0 launch0.win.arr_inj c _ _ 9]
  rfl

/-- Result 1 is the point-linking product of corner group 1 and center group 2 of the input. -/
theorem value_main_v75 (c : Dev nD) :
    Pipeline.afterTail₀ cfgs (dats m) 0 (V0 m) [hostOps1] c main_v75 = linkProduct half (group 1 slices_S32x4x51x14x14_S32x1x51x14x14_0_1_0_0_0 (m ((c : Thread nD τ).loc main_arg0))) (group 2 slices_S32x4x51x14x14_S32x1x51x14x14_0_2_0_0_0 (m ((c : Thread nD τ).loc main_arg0))) := by
  rw [tail_main_v75, final9, class_1, class_2, links_1, links_2]
  exact unmerge_outProduct _ _ _

/-- Result 2 after the lines that follow the region: output 2's array with its two position axes un-merged. -/
theorem tail_main_v76 (c : Dev nD) :
    Pipeline.afterTail₀ cfgs (dats m) 0 (V0 m) [hostOps1] c main_v76
      = shapeCast S32x20x14x14x14x14 ((dats m 0 c).arrAt 10 cfg0.N) shapeCasts_S32x20x196x196_S32x20x14x14x14x14 := by
  unfold Pipeline.afterTail₀
  show StableHlo.after hostOps1 _ (Proc.devRef .tc main_v76) = _
  after_results
  rw [Pipeline.withArrays_arr spec0 launch0.win.arr_inj c _ _ 10]
  rfl

/-- Result 2 is the point-linking product of corner group 0 and center group 3 of the input. -/
theorem value_main_v76 (c : Dev nD) :
    Pipeline.afterTail₀ cfgs (dats m) 0 (V0 m) [hostOps1] c main_v76 = linkProduct half (group 0 slices_S32x4x51x14x14_S32x1x51x14x14_0_0_0_0_0 (m ((c : Thread nD τ).loc main_arg0))) (group 3 slices_S32x4x51x14x14_S32x1x51x14x14_0_3_0_0_0 (m ((c : Thread nD τ).loc main_arg0))) := by
  rw [tail_main_v76, final10, class_0, class_3, links_0, links_3]
  exact unmerge_outProduct _ _ _

/-- Result 3 after the lines that follow the region: output 3's array with its two position axes un-merged. -/
theorem tail_main_v77 (c : Dev nD) :
    Pipeline.afterTail₀ cfgs (dats m) 0 (V0 m) [hostOps1] c main_v77
      = shapeCast S32x20x14x14x14x14 ((dats m 0 c).arrAt 11 cfg0.N) shapeCasts_S32x20x196x196_S32x20x14x14x14x14 := by
  unfold Pipeline.afterTail₀
  show StableHlo.after hostOps1 _ (Proc.devRef .tc main_v77) = _
  after_results
  rw [Pipeline.withArrays_arr spec0 launch0.win.arr_inj c _ _ 11]
  rfl

/-- Result 3 is the point-linking product of corner group 1 and center group 3 of the input. -/
theorem value_main_v77 (c : Dev nD) :
    Pipeline.afterTail₀ cfgs (dats m) 0 (V0 m) [hostOps1] c main_v77 = linkProduct half (group 1 slices_S32x4x51x14x14_S32x1x51x14x14_0_1_0_0_0 (m ((c : Thread nD τ).loc main_arg0))) (group 3 slices_S32x4x51x14x14_S32x1x51x14x14_0_3_0_0_0 (m ((c : Thread nD τ).loc main_arg0))) := by
  rw [tail_main_v77, final11, class_1, class_3, links_1, links_3]
  exact unmerge_outProduct _ _ _

/-- Every weakly fair execution of the kernel's program terminates with its four results at the point-linking products of
    the input's groups and the input unchanged. -/
theorem run : θ_run defs (onTc (τ := τ) (main (F := Ideal))) ⟨m, fun _ => 0, ρ⟩ fun r => ∀ c : Dev nD,
      r.2.mem ((c : Thread nD τ).loc main_v74) = linkProduct half (group 0 slices_S32x4x51x14x14_S32x1x51x14x14_0_0_0_0_0 (m ((c : Thread nD τ).loc main_arg0))) (group 2 slices_S32x4x51x14x14_S32x1x51x14x14_0_2_0_0_0 (m ((c : Thread nD τ).loc main_arg0)))
      ∧ r.2.mem ((c : Thread nD τ).loc main_v75) = linkProduct half (group 1 slices_S32x4x51x14x14_S32x1x51x14x14_0_1_0_0_0 (m ((c : Thread nD τ).loc main_arg0))) (group 2 slices_S32x4x51x14x14_S32x1x51x14x14_0_2_0_0_0 (m ((c : Thread nD τ).loc main_arg0)))
      ∧ r.2.mem ((c : Thread nD τ).loc main_v76) = linkProduct half (group 0 slices_S32x4x51x14x14_S32x1x51x14x14_0_0_0_0_0 (m ((c : Thread nD τ).loc main_arg0))) (group 3 slices_S32x4x51x14x14_S32x1x51x14x14_0_3_0_0_0 (m ((c : Thread nD τ).loc main_arg0)))
      ∧ r.2.mem ((c : Thread nD τ).loc main_v77) = linkProduct half (group 1 slices_S32x4x51x14x14_S32x1x51x14x14_0_1_0_0_0 (m ((c : Thread nD τ).loc main_arg0))) (group 3 slices_S32x4x51x14x14_S32x1x51x14x14_0_3_0_0_0 (m ((c : Thread nD τ).loc main_arg0)))
      ∧ r.2.mem ((c : Thread nD τ).loc main_arg0) = m ((c : Thread nD τ).loc main_arg0) :=
  (θ_run defs _ _).mono (fun r h c =>
    ⟨((h c).2 main_v74 (Pipeline.mem_restRefs_of main_v74 (by decide) (by decide))).trans (value_main_v74 m c),
     ((h c).2 main_v75 (Pipeline.mem_restRefs_of main_v75 (by decide) (by decide))).trans (value_main_v75 m c),
     ((h c).2 main_v76 (Pipeline.mem_restRefs_of main_v76 (by decide) (by decide))).trans (value_main_v76 m c),
     ((h c).2 main_v77 (Pipeline.mem_restRefs_of main_v77 (by decide) (by decide))).trans (value_main_v77 m c),
     ((h c).2 main_arg0 (Pipeline.mem_restRefs_of main_arg0 (by decide) (by decide))).trans (W_main_arg0 m (dats m) c)⟩)
    (run_main m ρ)

end Cert.KernelIdeal.Results

end
-- ==== Proof.lean ====
/-
  The kernel and its reference compute the same four point-linking arrays.

  The input holds, per batch entry, two corner groups and two center groups of 51 channels over a 14 × 14 grid.  For a
  corner group and a center group the linking probability of class `c` between corner position `(ix, iy)` and center
  position `(sx, sy)` is a product of nine numbers: one half, the existence and class probabilities of both groups at
  their positions, and four link probabilities (Proof/LinkProduct.lean).

  * The reference multiplies the nine factors left to right over six-dimensional broadcasts (Proof/RefLinks.lean); its
    program is a straight line of 145 array operations, run here window by window (Proof/RefLine.lean, Proof/RefRun.lean).
  * The kernel's program first forms, per group, a class operand and a link operand with each 14 × 14 grid merged into one
    axis of length 196 (Proof/Operands.lean); its body multiplies (one half · class part · class part) by the product
    of the two link operands, chunk by chunk of four classes (Proof/BlockProduct.lean); the 32 blocks tile each output
    array (Proof/Region.lean); and the merged axes are split again after the region (Proof/Results.lean).

  The two products differ only in how the nine factors are associated, and multiplication of extended reals is
  associative at every value, so the results agree for every input: the precondition is not used by the value
  claim.  The idealization changes no operation, so it preserves the kernel by definition; the three frame claims
  are the generated frame runs.
-/
import proofs.«117441_j60911226191951_2_alg».proof.Defs
import proofs.«117441_j60911226191951_2_alg».proof.Proof.Gen.Kernel
import proofs.«117441_j60911226191951_2_alg».proof.Proof.Gen.Kernel.Skeleton
import proofs.«117441_j60911226191951_2_alg».proof.Proof.Gen.Kernel.Launch
import proofs.«117441_j60911226191951_2_alg».proof.Proof.Gen.Kernel.Points
import proofs.«117441_j60911226191951_2_alg».proof.Proof.Gen.Kernel.Frame
import proofs.«117441_j60911226191951_2_alg».proof.Proof.Gen.KernelIdeal
import proofs.«117441_j60911226191951_2_alg».proof.Proof.Gen.KernelIdeal.Skeleton
import proofs.«117441_j60911226191951_2_alg».proof.Proof.Gen.KernelIdeal.Launch
import proofs.«117441_j60911226191951_2_alg».proof.Proof.Gen.KernelIdeal.Points
import proofs.«117441_j60911226191951_2_alg».proof.Proof.Gen.KernelIdeal.Frame
import proofs.«117441_j60911226191951_2_alg».proof.Proof.Gen.ReferenceIdeal
import proofs.«117441_j60911226191951_2_alg».proof.Proof.Gen.Pre_finite_inputs
import proofs.«117441_j60911226191951_2_alg».proof.Proof.RefRun
import proofs.«117441_j60911226191951_2_alg».proof.Proof.Results
import Idealize.ShloMosaic.Adequacy
import Idealize.ShloMosaic.Init

set_option maxRecDepth 16384

noncomputable section

namespace Cert.Proof

open Idealize.ShloMosaic Idealize.SL.Sem

/-- The kernel as printed runs and leaves its input unchanged. -/
theorem frame_kernel : Cert.frame_Kernel := fun m ρ _ => Cert.Kernel.Gen.frame m ρ

/-- The idealized kernel runs and leaves its input unchanged. -/
theorem frame_ideal : Cert.frame_KernelIdeal := fun m ρ _ => Cert.KernelIdeal.Gen.frame m ρ

/-- The idealized reference runs and leaves its input unchanged: its run, the results dropped. -/
theorem frame_reference : Cert.frame_ReferenceIdeal := fun m ρ _ =>
  (θ_run Cert.ReferenceIdeal.defs _ _).mono (fun _ h c => (h c).2.2.2.2) (Cert.ReferenceIdeal.HandRun.run m ρ)

/-- No operation of the kernel was rewritten by the idealization. -/
theorem preserves : Cert.preserves_Kernel_KernelIdeal := trivial

/-- From inputs that agree, the idealized kernel and the idealized reference end with equal results: each pair is the
    point-linking product of the same corner group and center group of the input (both programs cut the groups out of the
    input by the same reshape, slice and reshape). -/
theorem algebraic : Cert.algebraic_KernelIdeal_ReferenceIdeal := by
  intro m ρ m' ρ' _ hagree
  refine ⟨_, _, _, _, Cert.KernelIdeal.Results.run m ρ, ?_⟩
  refine (θ_run Cert.ReferenceIdeal.defs _ _).mono (fun _ h c => ⟨?_, ?_, ?_, ?_, (h c).2.2.2.2⟩)
    (Cert.ReferenceIdeal.HandRun.run m' ρ')
  · rw [(h c).1, hagree c]
    rfl
  · rw [(h c).2.1, hagree c]
    rfl
  · rw [(h c).2.2.1, hagree c]
    rfl
  · rw [(h c).2.2.2.1, hagree c]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
